-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192 : Shape := ⟨1, ![8192]⟩
abbrev S8x16x4096 : Shape := ⟨3, ![8, 16, 4096]⟩
abbrev S8x4096x16 : Shape := ⟨3, ![8, 4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8x16x4096 : S_.BroadcastsInDim S8x16x4096 (![] : Fin 0 → Fin S8x16x4096.rank)
  reducesTo_S8x16x4096_S_d0_1_2 : S8x16x4096.ReducesTo [0, 1, 2] S_
  bcast_S_S8x4096x16 : S_.BroadcastsInDim S8x4096x16 (![] : Fin 0 → Fin S8x4096x16.rank)
  reducesTo_S8x4096x16_S_d0_1_2 : S8x4096x16.ReducesTo [0, 1, 2] S_

variable [Facts]

def fn_part1 {F : FTy → Type} [FloatOps F] (main_arg5 : FVec F S8x4096x16 .f32) (main_arg6 : FVec F S8x4096x16 .f32) (main_v13 : IVec S_ 1) (main_v16 : IVec S8x16x4096 1) : IVec S_ 1 :=
  let main_c_5 : IVec S_ 1 := constantI S_ 1 1#1
  let main_v17 : IVec S_ 1 := (fun x v => Host.reduce IntOp.andi x v reducesTo_S8x16x4096_S_d0_1_2 h_S_) main_v16 main_c_5
  let main_v18 : IVec S_ 1 := andi main_v13 main_v17
  let main_v19 : FVec F S8x4096x16 .f32 := Host.absf main_arg5
  let main_cst_6 : FVec F S_ .f32 := constant S_ .f32 0x7F800000#32
  let main_v20 : FVec F S8x4096x16 .f32 := broadcastInDim S8x4096x16 ![] bcast_S_S8x4096x16 main_cst_6
  let main_v21 : IVec S8x4096x16 1 := cmpf .olt main_v19 main_v20
  let main_c_7 : IVec S_ 1 := constantI S_ 1 1#1
  let main_v22 : IVec S_ 1 := (fun x v => Host.reduce IntOp.andi x v reducesTo_S8x4096x16_S_d0_1_2 h_S_) main_v21 main_c_7
  let main_v23 : IVec S_ 1 := andi main_v18 main_v22
  let main_v24 : FVec F S8x4096x16 .f32 := Host.absf main_arg6
  let main_cst_8 : FVec F S_ .f32 := constant S_ .f32 0x7F800000#32
  let main_v25 : FVec F S8x4096x16 .f32 := broadcastInDim S8x4096x16 ![] bcast_S_S8x4096x16 main_cst_8
  let main_v26 : IVec S8x4096x16 1 := cmpf .olt main_v24 main_v25
  let main_c_9 : IVec S_ 1 := constantI S_ 1 1#1
  let main_v27 : IVec S_ 1 := (fun x v => Host.reduce IntOp.andi x v reducesTo_S8x4096x16_S_d0_1_2 h_S_) main_v26 main_c_9
  let main_v28 : IVec S_ 1 := andi main_v23 main_v27
  main_v28

def fn {F : FTy → Type} [FloatOps F] (main_arg0 : FVec F S8192x4096 .f32) (main_arg1 : IVec S8192 32) (main_arg2 : FVec F S8192x4096 .f32) (main_arg3 : FVec F S8x16x4096 .f32) (main_arg4 : FVec F S8x16x4096 .f32) (main_arg5 : FVec F S8x4096x16 .f32) (main_arg6 : FVec F S8x4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg2
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8x16x4096 .f32 := Host.absf main_arg3
  let main_cst_2 : FVec F S_ .f32 := constant S_ .f32 0x7F800000#32
  let main_v10 : FVec F S8x16x4096 .f32 := broadcastInDim S8x16x4096 ![] bcast_S_S8x16x4096 main_cst_2
  let main_v11 : IVec S8x16x4096 1 := cmpf .olt main_v9 main_v10
  let main_c_3 : IVec S_ 1 := constantI S_ 1 1#1
  let main_v12 : IVec S_ 1 := (fun x v => Host.reduce IntOp.andi x v reducesTo_S8x16x4096_S_d0_1_2 h_S_) main_v11 main_c_3
  let main_v13 : IVec S_ 1 := andi main_v8 main_v12
  let main_v14 : FVec F S8x16x4096 .f32 := Host.absf main_arg4
  let main_cst_4 : FVec F S_ .f32 := constant S_ .f32 0x7F800000#32
  let main_v15 : FVec F S8x16x4096 .f32 := broadcastInDim S8x16x4096 ![] bcast_S_S8x16x4096 main_cst_4
  let main_v16 : IVec S8x16x4096 1 := cmpf .olt main_v14 main_v15
  fn_part1 (F := F) main_arg5 main_arg6 main_v13 main_v16
-- ==== Kernel.lean ====
abbrev S8192x4096 : Shape := ⟨2, ![8192, 4096]⟩
abbrev S8192 : Shape := ⟨1, ![8192]⟩
abbrev S8x16x4096 : Shape := ⟨3, ![8, 16, 4096]⟩
abbrev S8x4096x16 : Shape := ⟨3, ![8, 4096, 16]⟩
abbrev S1x8x16x4096 : Shape := ⟨4, ![1, 8, 16, 4096]⟩
abbrev S2x8x16x4096 : Shape := ⟨4, ![2, 8, 16, 4096]⟩
abbrev S2x128x4096 : Shape := ⟨3, ![2, 128, 4096]⟩
abbrev S1x8x4096x16 : Shape := ⟨4, ![1, 8, 4096, 16]⟩
abbrev S2x8x4096x16 : Shape := ⟨4, ![2, 8, 4096, 16]⟩
abbrev S8192x1 : Shape := ⟨2, ![8192, 1]⟩
abbrev S8192x8192 : Shape := ⟨2, ![8192, 8192]⟩
abbrev S1024x256 : Shape := ⟨2, ![1024, 256]⟩
abbrev S2048x256 : Shape := ⟨2, ![2048, 256]⟩
abbrev S1024x1 : Shape := ⟨2, ![1024, 1]⟩
abbrev S1x128x4096 : Shape := ⟨3, ![1, 128, 4096]⟩
abbrev S1x128x2048 : Shape := ⟨3, ![1, 128, 2048]⟩
abbrev S1024x2048 : Shape := ⟨2, ![1024, 2048]⟩
abbrev S1024x128 : Shape := ⟨2, ![1024, 128]⟩
abbrev S256x2048 : Shape := ⟨2, ![256, 2048]⟩
abbrev S1x128x256 : Shape := ⟨3, ![1, 128, 256]⟩
abbrev S128x256 : Shape := ⟨2, ![128, 256]⟩
abbrev S256x128 : Shape := ⟨2, ![256, 128]⟩
abbrev S128x2048 : Shape := ⟨2, ![128, 2048]⟩

abbrev nBuf : Space → Nat
  | .hbm => 22
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S8192, .i32⟩
  | .hbm, ⟨2, _⟩ => ⟨S8192x4096, .f32⟩
  | .hbm, ⟨3, _⟩ => ⟨S8x16x4096, .f32⟩
  | .hbm, ⟨4, _⟩ => ⟨S8x16x4096, .f32⟩
  | .hbm, ⟨5, _⟩ => ⟨S8x4096x16, .f32⟩
  | .hbm, ⟨6, _⟩ => ⟨S8x4096x16, .f32⟩
  | .hbm, ⟨7, _⟩ => ⟨S8192x4096, .bf16⟩
  | .hbm, ⟨8, _⟩ => ⟨S8192x4096, .bf16⟩
  | .hbm, ⟨9, _⟩ => ⟨S1x8x16x4096, .f32⟩
  | .hbm, ⟨10, _⟩ => ⟨S1x8x16x4096, .f32⟩
  | .hbm, ⟨11, _⟩ => ⟨S2x8x16x4096, .f32⟩
  | .hbm, ⟨12, _⟩ => ⟨S2x128x4096, .f32⟩
  | .hbm, ⟨13, _⟩ => ⟨S2x128x4096, .bf16⟩
  | .hbm, ⟨14, _⟩ => ⟨S1x8x4096x16, .f32⟩
  | .hbm, ⟨15, _⟩ => ⟨S1x8x4096x16, .f32⟩
  | .hbm, ⟨16, _⟩ => ⟨S2x8x4096x16, .f32⟩
  | .hbm, ⟨17, _⟩ => ⟨S2x8x16x4096, .f32⟩
  | .hbm, ⟨18, _⟩ => ⟨S2x128x4096, .f32⟩
  | .hbm, ⟨19, _⟩ => ⟨S2x128x4096, .bf16⟩
  | .hbm, ⟨20, _⟩ => ⟨S8192x1, .i32⟩
  | .hbm, ⟨21, _⟩ => ⟨S8192x8192, .f32⟩
  | .local _ .vmem, ⟨0, _⟩ => ⟨S1024x256, .bf16⟩
  | .local _ .vmem, ⟨1, _⟩ => ⟨S1024x256, .bf16⟩
  | .local _ .vmem, ⟨2, _⟩ => ⟨S2048x256, .bf16⟩
  | .local _ .vmem, ⟨3, _⟩ => ⟨S2048x256, .bf16⟩
  | .local _ .vmem, ⟨4, _⟩ => ⟨S1024x1, .i32⟩
  | .local _ .vmem, ⟨5, _⟩ => ⟨S1024x1, .i32⟩
  | .local _ .vmem, ⟨6, _⟩ => ⟨S1x128x4096, .bf16⟩
  | .local _ .vmem, ⟨7, _⟩ => ⟨S1x128x2048, .bf16⟩
  | .local _ .vmem, ⟨8, _⟩ => ⟨S1x128x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .f32⟩
  | .local _ .vmem, ⟨12, _⟩ => ⟨S1024x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨4, ![2, 8, 2, 16], ![false, false, false, false]⟩

def k0_mult1 (i : grid0.Coords) : BitVec 32 :=
  let arg3 : BitVec 32 := BitVec.ofNat 32 (i 3).val
  let c256_i32 : BitVec 32 := 256#32
  let v14 : BitVec 32 := Scalar.muli arg3 c256_i32
  v14
def k0_off1 (i : grid0.Coords) : Fin 3 → Nat :=
  let c0_8 : Index := 0#32
  let c0_9 : Index := 0#32
  let arg3 : BitVec 32 := BitVec.ofNat 32 (i 3).val
  let c256_i32 : BitVec 32 := 256#32
  let v14 : BitVec 32 := Scalar.muli arg3 c256_i32
  let v15 : BitVec 32 := v14
  let v16 : Index := Scalar.indexCast v15
  ![0, 0, v16.toNat]
def k0_cond2 (i : grid0.Coords) : BitVec 1 :=
  let arg3 : BitVec 32 := BitVec.ofNat 32 (i 3).val
  let c15_i32 : BitVec 32 := 15#32
  let v26 : BitVec 1 := Scalar.cmpi .eq arg3 c15_i32
  let v27 : BitVec 32 := Scalar.extui v26
  let c0_i32_15 : BitVec 32 := 0#32
  let v28 : BitVec 1 := Scalar.cmpi .ne v27 c0_i32_15
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![v1.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false, false]

abbrev stage0_3 : Fin 1 → Memref sig .tc .vmem S1x128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false, false]

abbrev stage0_4 : Fin 2 → Memref sig .tc .vmem S1x128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

class Facts₀ : Prop where
  bitsLt_bf16_f32 : FTy.bits .bf16 < FTy.bits .f32
  bcast_S8x16x4096_S1x8x16x4096_1_2_3 : S8x16x4096.BroadcastsInDim S1x8x16x4096 (![1, 2, 3] : Fin 3 → Fin S1x8x16x4096.rank)
  concatenates_S1x8x16x4096_S1x8x16x4096_S2x8x16x4096_d0 : Shape.Concatenates [S1x8x16x4096, S1x8x16x4096] S2x8x16x4096 0
  shapeCasts_S2x8x16x4096_S2x128x4096 : S2x8x16x4096.ShapeCasts S2x128x4096
  bcast_S8x4096x16_S1x8x4096x16_1_2_3 : S8x4096x16.BroadcastsInDim S1x8x4096x16 (![1, 2, 3] : Fin 3 → Fin S1x8x4096x16.rank)
  concatenates_S1x8x4096x16_S1x8x4096x16_S2x8x4096x16_d0 : Shape.Concatenates [S1x8x4096x16, S1x8x4096x16] S2x8x4096x16 0
  transposes_S2x8x4096x16_S2x8x16x4096_0_1_3_2 : S2x8x4096x16.Transposes [0, 1, 3, 2] S2x8x16x4096
  shapeCasts_S8192_S8192x1 : S8192.ShapeCasts S8192x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  h_S1x128x256 : 0 < S1x128x256.numel
  shapeCasts_S1x128x256_S128x256 : S1x128x256.ShapeCasts S128x256
  transposes_S128x256_p1_0_S256x128 : S128x256.Transposes [1, 0] S256x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x128_d1_w32 : S1024x128.Iotas .tc 32 [1]
  natLt_1_32 : 1 < 32
  broadcasts_S1024x1_S1024x128 : S1024x1.Broadcasts S1024x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  dot_S1024x256_S256x2048_S1024x2048_1_0_0_1_n_n_wf : DotDims.WF S1024x256 S256x2048 S1024x2048 [1] [0] [0] [1] [] []
  dot_S1024x256_S256x128_S1024x128_1_0_0_1_n_n_wf : DotDims.WF S1024x256 S256x128 S1024x128 [1] [0] [0] [1] [] []
  dot_S1024x128_S128x2048_S1024x2048_1_0_0_1_n_n_wf : DotDims.WF S1024x128 S128x2048 S1024x2048 [1] [0] [0] [1] [] []
  hrank0 : 0 < grid0.rank
  k0_mult1_dvd : ∀ i : grid0.Coords, 256 ∣ (k0_mult1 i).toNat
  k0_off1_inb : ∀ i : grid0.Coords, ∀ a, (k0_off1 i) a + S1x128x256.size a ≤ S1x128x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x4096.size a
  hwx0_0 : ∀ i : grid0.Coords, EltTy.bits .bf16 = 32 ∨ (Rect.block (s := S8192x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S8192x4096.size a
  hwx0_1 : ∀ i : grid0.Coords, EltTy.bits .bf16 = 32 ∨ (Rect.block (s := S8192x4096) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128x4096.size a ≤ S2x128x4096.size a
  hwx0_3 : ∀ i : grid0.Coords, EltTy.bits .bf16 = 32 ∨ (Rect.block (s := S2x128x4096) S1x128x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S2x128x4096.size a
  hwx0_4 : ∀ i : grid0.Coords, EltTy.bits .bf16 = 32 ∨ (Rect.block (s := S2x128x4096) S1x128x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S8192x8192.size a
  hwx0_5 : ∀ i : grid0.Coords, EltTy.bits .f32 = 32 ∨ (Rect.block (s := S8192x8192) S1024x2048.size (cc0_transform_5 i) (hinb0_5 i)).WholeWords (EltTy.packing .f32)

variable [Facts₀]

def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192 : Shape := ⟨1, ![8192]⟩
abbrev S8x16x4096 : Shape := ⟨3, ![8, 16, 4096]⟩
abbrev S8x4096x16 : Shape := ⟨3, ![8, 4096, 16]⟩
abbrev S4096x8192 : Shape := ⟨2, ![4096, 8192]⟩
abbrev S8192x8192 : Shape := ⟨2, ![8192, 8192]⟩
abbrev S_ : Shape := ⟨0, ![]⟩
abbrev S8192x1 : Shape := ⟨2, ![8192, 1]⟩
abbrev S1x16x4096 : Shape := ⟨3, ![1, 16, 4096]⟩
abbrev S16x4096 : Shape := ⟨2, ![16, 4096]⟩
abbrev S4096x16 : Shape := ⟨2, ![4096, 16]⟩
abbrev S8192x16 : Shape := ⟨2, ![8192, 16]⟩
abbrev S1x4096x16 : Shape := ⟨3, ![1, 4096, 16]⟩
abbrev S1 : Shape := ⟨1, ![1]⟩

abbrev nBuf : Space → Nat
  | .hbm => 313
  | .vmem => 0
  | .smem => 0
  | _ => 0

abbrev hbmTy0_0 (i : Nat) : BufTy := match i % 128 with
  | 0 => ⟨S8192x4096, .f32⟩
  | 1 => ⟨S8192, .i32⟩
  | 2 => ⟨S8192x4096, .f32⟩
  | 3 => ⟨S8x16x4096, .f32⟩
  | 4 => ⟨S8x16x4096, .f32⟩
  | 5 => ⟨S8x4096x16, .f32⟩
  | 6 => ⟨S8x4096x16, .f32⟩
  | 7 => ⟨S4096x8192, .f32⟩
  | 8 => ⟨S8192x8192, .f32⟩
  | 9 => ⟨S_, .f32⟩
  | 10 => ⟨S8192x4096, .f32⟩
  | 11 => ⟨S_, .i32⟩
  | 12 => ⟨S8192, .i32⟩
  | 13 => ⟨S8192, .i1⟩
  | 14 => ⟨S8192x1, .i1⟩
  | 15 => ⟨S1x16x4096, .f32⟩
  | 16 => ⟨S16x4096, .f32⟩
  | 17 => ⟨S4096x16, .f32⟩
  | 18 => ⟨S8192x16, .f32⟩
  | 19 => ⟨S1x4096x16, .f32⟩
  | 20 => ⟨S4096x16, .f32⟩
  | 21 => ⟨S16x4096, .f32⟩
  | 22 => ⟨S8192x4096, .f32⟩
  | 23 => ⟨S_, .f32⟩
  | 24 => ⟨S_, .f32⟩
  | 25 => ⟨S8192x4096, .i1⟩
  | 26 => ⟨S8192x4096, .f32⟩
  | 27 => ⟨S8192x4096, .f32⟩
  | 28 => ⟨S8192x4096, .f32⟩
  | 29 => ⟨S_, .i32⟩
  | 30 => ⟨S8192, .i32⟩
  | 31 => ⟨S8192, .i1⟩
  | 32 => ⟨S8192x1, .i1⟩
  | 33 => ⟨S1x16x4096, .f32⟩
  | 34 => ⟨S16x4096, .f32⟩
  | 35 => ⟨S4096x16, .f32⟩
  | 36 => ⟨S8192x16, .f32⟩
  | 37 => ⟨S1x4096x16, .f32⟩
  | 38 => ⟨S4096x16, .f32⟩
  | 39 => ⟨S16x4096, .f32⟩
  | 40 => ⟨S8192x4096, .f32⟩
  | 41 => ⟨S_, .f32⟩
  | 42 => ⟨S_, .f32⟩
  | 43 => ⟨S8192x4096, .i1⟩
  | 44 => ⟨S8192x4096, .f32⟩
  | 45 => ⟨S8192x4096, .f32⟩
  | 46 => ⟨S8192x4096, .f32⟩
  | 47 => ⟨S_, .i32⟩
  | 48 => ⟨S8192, .i32⟩
  | 49 => ⟨S8192, .i1⟩
  | 50 => ⟨S8192x1, .i1⟩
  | 51 => ⟨S1x16x4096, .f32⟩
  | 52 => ⟨S16x4096, .f32⟩
  | 53 => ⟨S4096x16, .f32⟩
  | 54 => ⟨S8192x16, .f32⟩
  | 55 => ⟨S1x4096x16, .f32⟩
  | 56 => ⟨S4096x16, .f32⟩
  | 57 => ⟨S16x4096, .f32⟩
  | 58 => ⟨S8192x4096, .f32⟩
  | 59 => ⟨S_, .f32⟩
  | 60 => ⟨S_, .f32⟩
  | 61 => ⟨S8192x4096, .i1⟩
  | 62 => ⟨S8192x4096, .f32⟩
  | 63 => ⟨S8192x4096, .f32⟩
  | 64 => ⟨S8192x4096, .f32⟩
  | 65 => ⟨S_, .i32⟩
  | 66 => ⟨S8192, .i32⟩
  | 67 => ⟨S8192, .i1⟩
  | 68 => ⟨S8192x1, .i1⟩
  | 69 => ⟨S1x16x4096, .f32⟩
  | 70 => ⟨S16x4096, .f32⟩
  | 71 => ⟨S4096x16, .f32⟩
  | 72 => ⟨S8192x16, .f32⟩
  | 73 => ⟨S1x4096x16, .f32⟩
  | 74 => ⟨S4096x16, .f32⟩
  | 75 => ⟨S16x4096, .f32⟩
  | 76 => ⟨S8192x4096, .f32⟩
  | 77 => ⟨S_, .f32⟩
  | 78 => ⟨S_, .f32⟩
  | 79 => ⟨S8192x4096, .i1⟩
  | 80 => ⟨S8192x4096, .f32⟩
  | 81 => ⟨S8192x4096, .f32⟩
  | 82 => ⟨S8192x4096, .f32⟩
  | 83 => ⟨S_, .i32⟩
  | 84 => ⟨S8192, .i32⟩
  | 85 => ⟨S8192, .i1⟩
  | 86 => ⟨S8192x1, .i1⟩
  | 87 => ⟨S1x16x4096, .f32⟩
  | 88 => ⟨S16x4096, .f32⟩
  | 89 => ⟨S4096x16, .f32⟩
  | 90 => ⟨S8192x16, .f32⟩
  | 91 => ⟨S1x4096x16, .f32⟩
  | 92 => ⟨S4096x16, .f32⟩
  | 93 => ⟨S16x4096, .f32⟩
  | 94 => ⟨S8192x4096, .f32⟩
  | 95 => ⟨S_, .f32⟩
  | 96 => ⟨S_, .f32⟩
  | 97 => ⟨S8192x4096, .i1⟩
  | 98 => ⟨S8192x4096, .f32⟩
  | 99 => ⟨S8192x4096, .f32⟩
  | 100 => ⟨S8192x4096, .f32⟩
  | 101 => ⟨S_, .i32⟩
  | 102 => ⟨S8192, .i32⟩
  | 103 => ⟨S8192, .i1⟩
  | 104 => ⟨S8192x1, .i1⟩
  | 105 => ⟨S1x16x4096, .f32⟩
  | 106 => ⟨S16x4096, .f32⟩
  | 107 => ⟨S4096x16, .f32⟩
  | 108 => ⟨S8192x16, .f32⟩
  | 109 => ⟨S1x4096x16, .f32⟩
  | 110 => ⟨S4096x16, .f32⟩
  | 111 => ⟨S16x4096, .f32⟩
  | 112 => ⟨S8192x4096, .f32⟩
  | 113 => ⟨S_, .f32⟩
  | 114 => ⟨S_, .f32⟩
  | 115 => ⟨S8192x4096, .i1⟩
  | 116 => ⟨S8192x4096, .f32⟩
  | 117 => ⟨S8192x4096, .f32⟩
  | 118 => ⟨S8192x4096, .f32⟩
  | 119 => ⟨S_, .i32⟩
  | 120 => ⟨S8192, .i32⟩
  | 121 => ⟨S8192, .i1⟩
  | 122 => ⟨S8192x1, .i1⟩
  | 123 => ⟨S1x16x4096, .f32⟩
  | 124 => ⟨S16x4096, .f32⟩
  | 125 => ⟨S4096x16, .f32⟩
  | 126 => ⟨S8192x16, .f32⟩
  | 127 => ⟨S1x4096x16, .f32⟩
  | _ => ⟨S8192x4096, .f32⟩

abbrev hbmTy0_1 (i : Nat) : BufTy := match i % 128 with
  | 0 => ⟨S4096x16, .f32⟩
  | 1 => ⟨S16x4096, .f32⟩
  | 2 => ⟨S8192x4096, .f32⟩
  | 3 => ⟨S_, .f32⟩
  | 4 => ⟨S_, .f32⟩
  | 5 => ⟨S8192x4096, .i1⟩
  | 6 => ⟨S8192x4096, .f32⟩
  | 7 => ⟨S8192x4096, .f32⟩
  | 8 => ⟨S8192x4096, .f32⟩
  | 9 => ⟨S_, .i32⟩
  | 10 => ⟨S8192, .i32⟩
  | 11 => ⟨S8192, .i1⟩
  | 12 => ⟨S8192x1, .i1⟩
  | 13 => ⟨S1x16x4096, .f32⟩
  | 14 => ⟨S16x4096, .f32⟩
  | 15 => ⟨S4096x16, .f32⟩
  | 16 => ⟨S8192x16, .f32⟩
  | 17 => ⟨S1x4096x16, .f32⟩
  | 18 => ⟨S4096x16, .f32⟩
  | 19 => ⟨S16x4096, .f32⟩
  | 20 => ⟨S8192x4096, .f32⟩
  | 21 => ⟨S_, .f32⟩
  | 22 => ⟨S_, .f32⟩
  | 23 => ⟨S8192x4096, .i1⟩
  | 24 => ⟨S8192x4096, .f32⟩
  | 25 => ⟨S8192x4096, .f32⟩
  | 26 => ⟨S8192x4096, .f32⟩
  | 27 => ⟨S_, .f32⟩
  | 28 => ⟨S8192x4096, .f32⟩
  | 29 => ⟨S8192x4096, .f32⟩
  | 30 => ⟨S_, .i32⟩
  | 31 => ⟨S1, .i32⟩
  | 32 => ⟨S8192x8192, .f32⟩
  | 33 => ⟨S_, .f32⟩
  | 34 => ⟨S8192x4096, .f32⟩
  | 35 => ⟨S_, .i32⟩
  | 36 => ⟨S8192, .i32⟩
  | 37 => ⟨S8192, .i1⟩
  | 38 => ⟨S8192x1, .i1⟩
  | 39 => ⟨S1x16x4096, .f32⟩
  | 40 => ⟨S16x4096, .f32⟩
  | 41 => ⟨S4096x16, .f32⟩
  | 42 => ⟨S8192x16, .f32⟩
  | 43 => ⟨S1x4096x16, .f32⟩
  | 44 => ⟨S4096x16, .f32⟩
  | 45 => ⟨S16x4096, .f32⟩
  | 46 => ⟨S8192x4096, .f32⟩
  | 47 => ⟨S_, .f32⟩
  | 48 => ⟨S_, .f32⟩
  | 49 => ⟨S8192x4096, .i1⟩
  | 50 => ⟨S8192x4096, .f32⟩
  | 51 => ⟨S8192x4096, .f32⟩
  | 52 => ⟨S8192x4096, .f32⟩
  | 53 => ⟨S_, .i32⟩
  | 54 => ⟨S8192, .i32⟩
  | 55 => ⟨S8192, .i1⟩
  | 56 => ⟨S8192x1, .i1⟩
  | 57 => ⟨S1x16x4096, .f32⟩
  | 58 => ⟨S16x4096, .f32⟩
  | 59 => ⟨S4096x16, .f32⟩
  | 60 => ⟨S8192x16, .f32⟩
  | 61 => ⟨S1x4096x16, .f32⟩
  | 62 => ⟨S4096x16, .f32⟩
  | 63 => ⟨S16x4096, .f32⟩
  | 64 => ⟨S8192x4096, .f32⟩
  | 65 => ⟨S_, .f32⟩
  | 66 => ⟨S_, .f32⟩
  | 67 => ⟨S8192x4096, .i1⟩
  | 68 => ⟨S8192x4096, .f32⟩
  | 69 => ⟨S8192x4096, .f32⟩
  | 70 => ⟨S8192x4096, .f32⟩
  | 71 => ⟨S_, .i32⟩
  | 72 => ⟨S8192, .i32⟩
  | 73 => ⟨S8192, .i1⟩
  | 74 => ⟨S8192x1, .i1⟩
  | 75 => ⟨S1x16x4096, .f32⟩
  | 76 => ⟨S16x4096, .f32⟩
  | 77 => ⟨S4096x16, .f32⟩
  | 78 => ⟨S8192x16, .f32⟩
  | 79 => ⟨S1x4096x16, .f32⟩
  | 80 => ⟨S4096x16, .f32⟩
  | 81 => ⟨S16x4096, .f32⟩
  | 82 => ⟨S8192x4096, .f32⟩
  | 83 => ⟨S_, .f32⟩
  | 84 => ⟨S_, .f32⟩
  | 85 => ⟨S8192x4096, .i1⟩
  | 86 => ⟨S8192x4096, .f32⟩
  | 87 => ⟨S8192x4096, .f32⟩
  | 88 => ⟨S8192x4096, .f32⟩
  | 89 => ⟨S_, .i32⟩
  | 90 => ⟨S8192, .i32⟩
  | 91 => ⟨S8192, .i1⟩
  | 92 => ⟨S8192x1, .i1⟩
  | 93 => ⟨S1x16x4096, .f32⟩
  | 94 => ⟨S16x4096, .f32⟩
  | 95 => ⟨S4096x16, .f32⟩
  | 96 => ⟨S8192x16, .f32⟩
  | 97 => ⟨S1x4096x16, .f32⟩
  | 98 => ⟨S4096x16, .f32⟩
  | 99 => ⟨S16x4096, .f32⟩
  | 100 => ⟨S8192x4096, .f32⟩
  | 101 => ⟨S_, .f32⟩
  | 102 => ⟨S_, .f32⟩
  | 103 => ⟨S8192x4096, .i1⟩
  | 104 => ⟨S8192x4096, .f32⟩
  | 105 => ⟨S8192x4096, .f32⟩
  | 106 => ⟨S8192x4096, .f32⟩
  | 107 => ⟨S_, .i32⟩
  | 108 => ⟨S8192, .i32⟩
  | 109 => ⟨S8192, .i1⟩
  | 110 => ⟨S8192x1, .i1⟩
  | 111 => ⟨S1x16x4096, .f32⟩
  | 112 => ⟨S16x4096, .f32⟩
  | 113 => ⟨S4096x16, .f32⟩
  | 114 => ⟨S8192x16, .f32⟩
  | 115 => ⟨S1x4096x16, .f32⟩
  | 116 => ⟨S4096x16, .f32⟩
  | 117 => ⟨S16x4096, .f32⟩
  | 118 => ⟨S8192x4096, .f32⟩
  | 119 => ⟨S_, .f32⟩
  | 120 => ⟨S_, .f32⟩
  | 121 => ⟨S8192x4096, .i1⟩
  | 122 => ⟨S8192x4096, .f32⟩
  | 123 => ⟨S8192x4096, .f32⟩
  | 124 => ⟨S8192x4096, .f32⟩
  | 125 => ⟨S_, .i32⟩
  | 126 => ⟨S8192, .i32⟩
  | 127 => ⟨S8192, .i1⟩
  | _ => ⟨S8192x4096, .f32⟩

abbrev hbmTy0_2 (i : Nat) : BufTy := match i % 128 with
  | 0 => ⟨S8192x1, .i1⟩
  | 1 => ⟨S1x16x4096, .f32⟩
  | 2 => ⟨S16x4096, .f32⟩
  | 3 => ⟨S4096x16, .f32⟩
  | 4 => ⟨S8192x16, .f32⟩
  | 5 => ⟨S1x4096x16, .f32⟩
  | 6 => ⟨S4096x16, .f32⟩
  | 7 => ⟨S16x4096, .f32⟩
  | 8 => ⟨S8192x4096, .f32⟩
  | 9 => ⟨S_, .f32⟩
  | 10 => ⟨S_, .f32⟩
  | 11 => ⟨S8192x4096, .i1⟩
  | 12 => ⟨S8192x4096, .f32⟩
  | 13 => ⟨S8192x4096, .f32⟩
  | 14 => ⟨S8192x4096, .f32⟩
  | 15 => ⟨S_, .i32⟩
  | 16 => ⟨S8192, .i32⟩
  | 17 => ⟨S8192, .i1⟩
  | 18 => ⟨S8192x1, .i1⟩
  | 19 => ⟨S1x16x4096, .f32⟩
  | 20 => ⟨S16x4096, .f32⟩
  | 21 => ⟨S4096x16, .f32⟩
  | 22 => ⟨S8192x16, .f32⟩
  | 23 => ⟨S1x4096x16, .f32⟩
  | 24 => ⟨S4096x16, .f32⟩
  | 25 => ⟨S16x4096, .f32⟩
  | 26 => ⟨S8192x4096, .f32⟩
  | 27 => ⟨S_, .f32⟩
  | 28 => ⟨S_, .f32⟩
  | 29 => ⟨S8192x4096, .i1⟩
  | 30 => ⟨S8192x4096, .f32⟩
  | 31 => ⟨S8192x4096, .f32⟩
  | 32 => ⟨S8192x4096, .f32⟩
  | 33 => ⟨S_, .i32⟩
  | 34 => ⟨S8192, .i32⟩
  | 35 => ⟨S8192, .i1⟩
  | 36 => ⟨S8192x1, .i1⟩
  | 37 => ⟨S1x16x4096, .f32⟩
  | 38 => ⟨S16x4096, .f32⟩
  | 39 => ⟨S4096x16, .f32⟩
  | 40 => ⟨S8192x16, .f32⟩
  | 41 => ⟨S1x4096x16, .f32⟩
  | 42 => ⟨S4096x16, .f32⟩
  | 43 => ⟨S16x4096, .f32⟩
  | 44 => ⟨S8192x4096, .f32⟩
  | 45 => ⟨S_, .f32⟩
  | 46 => ⟨S_, .f32⟩
  | 47 => ⟨S8192x4096, .i1⟩
  | 48 => ⟨S8192x4096, .f32⟩
  | 49 => ⟨S8192x4096, .f32⟩
  | 50 => ⟨S8192x4096, .f32⟩
  | 51 => ⟨S_, .f32⟩
  | 52 => ⟨S8192x4096, .f32⟩
  | 53 => ⟨S8192x4096, .f32⟩
  | 54 => ⟨S_, .i32⟩
  | 55 => ⟨S1, .i32⟩
  | 56 => ⟨S8192x8192, .f32⟩
  | _ => ⟨S8192x4096, .f32⟩

abbrev hbmTy (i : Nat) : BufTy := match i / 128 with
  | 0 => hbmTy0_0 i
  | 1 => hbmTy0_1 i
  | 2 => hbmTy0_2 i
  | _ => ⟨S8192x4096, .f32⟩

abbrev bufTy : (tb : Table) → Fin (tcTables nBuf tb) → BufTy
  | .hbm, ⟨i, _⟩ => hbmTy i
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v27 : Ref sig .tc := ⟨.hbm, 45, rfl⟩
abbrev main_v28 : Ref sig .tc := ⟨.hbm, 46, rfl⟩
abbrev main_c_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v40 : Ref sig .tc := ⟨.hbm, 63, rfl⟩
abbrev main_v41 : Ref sig .tc := ⟨.hbm, 64, rfl⟩
abbrev main_c_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_v53 : Ref sig .tc := ⟨.hbm, 81, rfl⟩
abbrev main_v54 : Ref sig .tc := ⟨.hbm, 82, rfl⟩
abbrev main_c_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_8 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v66 : Ref sig .tc := ⟨.hbm, 99, rfl⟩
abbrev main_v67 : Ref sig .tc := ⟨.hbm, 100, rfl⟩
abbrev main_c_9 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_10 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v79 : Ref sig .tc := ⟨.hbm, 117, rfl⟩
abbrev main_v80 : Ref sig .tc := ⟨.hbm, 118, rfl⟩
abbrev main_c_11 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_cst_12 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v92 : Ref sig .tc := ⟨.hbm, 135, rfl⟩
abbrev main_v93 : Ref sig .tc := ⟨.hbm, 136, rfl⟩
abbrev main_c_13 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_14 : Ref sig .tc := ⟨.hbm, 149, rfl⟩
abbrev main_call7_v0 : Ref sig .tc := ⟨.hbm, 150, rfl⟩
abbrev main_call7_v1 : Ref sig .tc := ⟨.hbm, 151, rfl⟩
abbrev main_call7_v2 : Ref sig .tc := ⟨.hbm, 152, rfl⟩
abbrev main_v105 : Ref sig .tc := ⟨.hbm, 153, rfl⟩
abbrev main_v106 : Ref sig .tc := ⟨.hbm, 154, rfl⟩
abbrev main_cst_15 : Ref sig .tc := ⟨.hbm, 155, rfl⟩
abbrev main_v107 : Ref sig .tc := ⟨.hbm, 156, rfl⟩
abbrev main_v108 : Ref sig .tc := ⟨.hbm, 157, rfl⟩
abbrev main_c_16 : Ref sig .tc := ⟨.hbm, 158, rfl⟩
abbrev main_v109 : Ref sig .tc := ⟨.hbm, 159, rfl⟩
abbrev main_v110 : Ref sig .tc := ⟨.hbm, 160, rfl⟩
abbrev main_cst_17 : Ref sig .tc := ⟨.hbm, 161, rfl⟩
abbrev main_v111 : Ref sig .tc := ⟨.hbm, 162, rfl⟩
abbrev main_c_18 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_19 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_v123 : Ref sig .tc := ⟨.hbm, 179, rfl⟩
abbrev main_v124 : Ref sig .tc := ⟨.hbm, 180, rfl⟩
abbrev main_c_20 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_21 : Ref sig .tc := ⟨.hbm, 193, rfl⟩
abbrev main_call9_v0 : Ref sig .tc := ⟨.hbm, 194, rfl⟩
abbrev main_call9_v1 : Ref sig .tc := ⟨.hbm, 195, rfl⟩
abbrev main_call9_v2 : Ref sig .tc := ⟨.hbm, 196, rfl⟩
abbrev main_v136 : Ref sig .tc := ⟨.hbm, 197, rfl⟩
abbrev main_v137 : Ref sig .tc := ⟨.hbm, 198, rfl⟩
abbrev main_c_22 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_23 : Ref sig .tc := ⟨.hbm, 211, rfl⟩
abbrev main_call10_v0 : Ref sig .tc := ⟨.hbm, 212, rfl⟩
abbrev main_call10_v1 : Ref sig .tc := ⟨.hbm, 213, rfl⟩
abbrev main_call10_v2 : Ref sig .tc := ⟨.hbm, 214, rfl⟩
abbrev main_v149 : Ref sig .tc := ⟨.hbm, 215, rfl⟩
abbrev main_v150 : Ref sig .tc := ⟨.hbm, 216, rfl⟩
abbrev main_c_24 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_cst_25 : Ref sig .tc := ⟨.hbm, 229, rfl⟩
abbrev main_call11_v0 : Ref sig .tc := ⟨.hbm, 230, rfl⟩
abbrev main_call11_v1 : Ref sig .tc := ⟨.hbm, 231, rfl⟩
abbrev main_call11_v2 : Ref sig .tc := ⟨.hbm, 232, rfl⟩
abbrev main_v162 : Ref sig .tc := ⟨.hbm, 233, rfl⟩
abbrev main_v163 : Ref sig .tc := ⟨.hbm, 234, rfl⟩
abbrev main_c_26 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_cst_27 : Ref sig .tc := ⟨.hbm, 247, rfl⟩
abbrev main_call12_v0 : Ref sig .tc := ⟨.hbm, 248, rfl⟩
abbrev main_call12_v1 : Ref sig .tc := ⟨.hbm, 249, rfl⟩
abbrev main_call12_v2 : Ref sig .tc := ⟨.hbm, 250, rfl⟩
abbrev main_v175 : Ref sig .tc := ⟨.hbm, 251, rfl⟩
abbrev main_v176 : Ref sig .tc := ⟨.hbm, 252, rfl⟩
abbrev main_c_28 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_cst_29 : Ref sig .tc := ⟨.hbm, 265, rfl⟩
abbrev main_call13_v0 : Ref sig .tc := ⟨.hbm, 266, rfl⟩
abbrev main_call13_v1 : Ref sig .tc := ⟨.hbm, 267, rfl⟩
abbrev main_call13_v2 : Ref sig .tc := ⟨.hbm, 268, rfl⟩
abbrev main_v188 : Ref sig .tc := ⟨.hbm, 269, rfl⟩
abbrev main_v189 : Ref sig .tc := ⟨.hbm, 270, rfl⟩
abbrev main_c_30 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_cst_31 : Ref sig .tc := ⟨.hbm, 283, rfl⟩
abbrev main_call14_v0 : Ref sig .tc := ⟨.hbm, 284, rfl⟩
abbrev main_call14_v1 : Ref sig .tc := ⟨.hbm, 285, rfl⟩
abbrev main_call14_v2 : Ref sig .tc := ⟨.hbm, 286, rfl⟩
abbrev main_v201 : Ref sig .tc := ⟨.hbm, 287, rfl⟩
abbrev main_v202 : Ref sig .tc := ⟨.hbm, 288, rfl⟩
abbrev main_c_32 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_v206 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_cst_33 : Ref sig .tc := ⟨.hbm, 301, rfl⟩
abbrev main_call15_v0 : Ref sig .tc := ⟨.hbm, 302, rfl⟩
abbrev main_call15_v1 : Ref sig .tc := ⟨.hbm, 303, rfl⟩
abbrev main_call15_v2 : Ref sig .tc := ⟨.hbm, 304, rfl⟩
abbrev main_v214 : Ref sig .tc := ⟨.hbm, 305, rfl⟩
abbrev main_v215 : Ref sig .tc := ⟨.hbm, 306, rfl⟩
abbrev main_cst_34 : Ref sig .tc := ⟨.hbm, 307, rfl⟩
abbrev main_v216 : Ref sig .tc := ⟨.hbm, 308, rfl⟩
abbrev main_v217 : Ref sig .tc := ⟨.hbm, 309, rfl⟩
abbrev main_c_35 : Ref sig .tc := ⟨.hbm, 310, rfl⟩
abbrev main_v218 : Ref sig .tc := ⟨.hbm, 311, rfl⟩
abbrev main_v219 : Ref sig .tc := ⟨.hbm, 312, rfl⟩

abbrev nD : Nat := 1
abbrev τ : Topo := Topo.v7x

variable {F : FTy → Type} [FloatOps F]

class Facts₀ : Prop where
  transposes_S8192x4096_S4096x8192_1_0 : S8192x4096.Transposes [1, 0] S4096x8192
  bcast_S_S8192x4096 : S_.BroadcastsInDim S8192x4096 (![] : Fin 0 → Fin S8192x4096.rank)
  bcast_S_S8192 : S_.BroadcastsInDim S8192 (![] : Fin 0 → Fin S8192.rank)
  bcast_S8192_S8192x1_0 : S8192.BroadcastsInDim S8192x1 (![0] : Fin 1 → Fin S8192x1.rank)
  slices_S8x16x4096_S1x16x4096_0_0_0 : S8x16x4096.Slices ![0, 0, 0] S1x16x4096
  shapeCasts_S1x16x4096_S16x4096 : S1x16x4096.ShapeCasts S16x4096
  transposes_S16x4096_S4096x16_1_0 : S16x4096.Transposes [1, 0] S4096x16
  slices_S8x4096x16_S1x4096x16_0_0_0 : S8x4096x16.Slices ![0, 0, 0] S1x4096x16
  shapeCasts_S1x4096x16_S4096x16 : S1x4096x16.ShapeCasts S4096x16
  transposes_S4096x16_S16x4096_1_0 : S4096x16.Transposes [1, 0] S16x4096
  bcast_S8192x1_S8192x4096_0_1 : S8192x1.BroadcastsInDim S8192x4096 (![0, 1] : Fin 2 → Fin S8192x4096.rank)
  slices_S8x16x4096_S1x16x4096_1_0_0 : S8x16x4096.Slices ![1, 0, 0] S1x16x4096
  slices_S8x4096x16_S1x4096x16_1_0_0 : S8x4096x16.Slices ![1, 0, 0] S1x4096x16
  slices_S8x16x4096_S1x16x4096_2_0_0 : S8x16x4096.Slices ![2, 0, 0] S1x16x4096
  slices_S8x4096x16_S1x4096x16_2_0_0 : S8x4096x16.Slices ![2, 0, 0] S1x4096x16
  slices_S8x16x4096_S1x16x4096_3_0_0 : S8x16x4096.Slices ![3, 0, 0] S1x16x4096
  slices_S8x4096x16_S1x4096x16_3_0_0 : S8x4096x16.Slices ![3, 0, 0] S1x4096x16
  slices_S8x16x4096_S1x16x4096_4_0_0 : S8x16x4096.Slices ![4, 0, 0] S1x16x4096
  slices_S8x4096x16_S1x4096x16_4_0_0 : S8x4096x16.Slices ![4, 0, 0] S1x4096x16
  slices_S8x16x4096_S1x16x4096_5_0_0 : S8x16x4096.Slices ![5, 0, 0] S1x16x4096
  slices_S8x4096x16_S1x4096x16_5_0_0 : S8x4096x16.Slices ![5, 0, 0] S1x4096x16
  slices_S8x16x4096_S1x16x4096_6_0_0 : S8x16x4096.Slices ![6, 0, 0] S1x16x4096
  slices_S8x4096x16_S1x4096x16_6_0_0 : S8x4096x16.Slices ![6, 0, 0] S1x4096x16
  slices_S8x16x4096_S1x16x4096_7_0_0 : S8x16x4096.Slices ![7, 0, 0] S1x16x4096
  slices_S8x4096x16_S1x4096x16_7_0_0 : S8x4096x16.Slices ![7, 0, 0] S1x4096x16
  bcast_S_S1 : S_.BroadcastsInDim S1 (![] : Fin 0 → Fin S1.rank)
  dot_S8192x4096_S4096x8192_S8192x8192_1_0_0_1_n_n_wf : DotDims.WF S8192x4096 S4096x8192 S8192x8192 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []
  scatter_S8192x8192_S1_S8192x4096_01_n_1_0_wf : ScatterDims.WF S8192x8192 S1 S8192x4096 [0, 1] [] [1] 0

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def scatter_S8192x8192_S1_S8192x4096_01_n_1_0 : ScatterDims S8192x8192 S1 S8192x4096 where
  updateWindowDims := [0, 1]
  insertedWindowDims := []
  scatterDimsToOperandDims := [1]
  indexVectorDim := 0
  wf := scatter_S8192x8192_S1_S8192x4096_01_n_1_0_wf

class Facts : Prop extends Facts₀ where

variable [Facts]
-- ==== Proof.LoraSpec.lean ====
/-
  The function both programs compute, entry by entry, on the extended reals.

  A token t carries an adapter number tl t (a 32-bit word). An output column c lies in one of two slices of
  4096 columns: slice 0 (c < 4096, tables A0, B0) and slice 1 (c ≥ 4096, column c - 4096, tables A1, B1).

    out (t, c) = ∑ k, x (t, k) * W (c, k)  +  the low-rank term of the slice at (t, j),

  where the low-rank term with tables A (8 adapters, 16 ranks, 4096 inputs) and B (8 adapters, 4096 outputs,
  16 ranks) is

    ∑ l < 8, (if tl t = l then ∑ r < 16, (∑ k, x (t, k) * A (l, r, k)) * B (l, j, r) else 0):

  at most one adapter contributes, and none when tl t is not one of 0 … 7.
-/
import Idealize.ShloMosaic.PureOps.Ideal
import Idealize.ShloMosaic.PureOps.Ideal.Laws
import Idealize.ShloMosaic.Lib.ValueIdx

noncomputable section

namespace Cert.LoraSpec

open Idealize.ShloMosaic Idealize.ShloMosaic.ValueIdx

/-- tokens × inputs (the activations), and also outputs × inputs (the dense weights) -/
abbrev RowsIn : Shape := ⟨2, ![8192, 4096]⟩
/-- one adapter number per token -/
abbrev Toks : Shape := ⟨1, ![8192]⟩
/-- adapters × ranks × inputs -/
abbrev DownT : Shape := ⟨3, ![8, 16, 4096]⟩
/-- adapters × outputs × ranks -/
abbrev UpT : Shape := ⟨3, ![8, 4096, 16]⟩
/-- tokens × all output columns (two slices of 4096) -/
abbrev Outs : Shape := ⟨2, ![8192, 8192]⟩

/-- The dense term: row t of x against row c of W. -/
def dense (x W : RowsIn.Idx → EReal) (t c : Fin 8192) : EReal :=
  ∑ k : Fin 4096, x (ix2 t k) * W (ix2 c k)

/-- Token t projected on rank r of adapter l. -/
def proj (x : RowsIn.Idx → EReal) (A : DownT.Idx → EReal) (t : Fin 8192) (l : Fin 8) (r : Fin 16) : EReal :=
  ∑ k : Fin 4096, x (ix2 t k) * A (ix3 l r k)

/-- What adapter l adds to column j of its slice for token t, were it the token's adapter. -/
def adapterTerm (x : RowsIn.Idx → EReal) (A : DownT.Idx → EReal) (B : UpT.Idx → EReal)
    (t : Fin 8192) (j : Fin 4096) (l : Fin 8) : EReal :=
  ∑ r : Fin 16, proj x A t l r * B (ix3 l j r)

/-- The low-rank term of one slice: the term of the token's own adapter, zero when it has none of the eight. -/
def lowRank (x : RowsIn.Idx → EReal) (tl : Toks.Idx → BitVec 32) (A : DownT.Idx → EReal) (B : UpT.Idx → EReal)
    (t : Fin 8192) (j : Fin 4096) : EReal :=
  ∑ l : Fin 8, if tl (ix1 t) = BitVec.ofNat 32 l.val then adapterTerm x A B t j l else 0

/-- The whole result at an index: the dense term plus the low-rank term of the column's slice. -/
def out (x : RowsIn.Idx → EReal) (tl : Toks.Idx → BitVec 32) (W : RowsIn.Idx → EReal)
    (A0 A1 : DownT.Idx → EReal) (B0 B1 : UpT.Idx → EReal) (i : Outs.Idx) : EReal :=
  if h : (i 1).val < 4096 then dense x W (i 0) (i 1) + lowRank x tl A0 B0 (i 0) ⟨(i 1).val, h⟩
  else dense x W (i 0) (i 1) + lowRank x tl A1 B1 (i 0) ⟨(i 1).val - 4096, by have hlt : (i 1).val < 8192 := (i 1).isLt; omega⟩

/-- The f32 word of 1.0 is the number one. -/
theorem ofBits_one_f32 : Ideal.ofBits .f32 0x3F800000#32 = 1 := by
  simp [Ideal.ofBits, Ideal.ieee, -EReal.coe_mul]; norm_num

end Cert.LoraSpec

end
-- ==== Proof.LibChunkSum.lean ====
/-
  A finite sum over `N = n * m` consecutive indices, cut into `n` chunks of `m`: the sum of the chunk sums is the
  whole sum. Index `c * m + k` of the whole range is entry `k` of chunk `c`. Only commutativity and associativity
  of the addition are used, so the law holds in every commutative monoid — on the extended reals in particular,
  where nothing has to be finite.
-/
import Mathlib.Algebra.BigOperators.Fin
import Mathlib.Logic.Equiv.Fin.Basic
import Mathlib.Tactic.Ring
import Mathlib.Tactic.Linarith

namespace ChunkSum

theorem at_lt {n m N : ℕ} (h : n * m = N) (c : Fin n) (k : Fin m) : c.val * m + k.val < N := by
  have hc := c.isLt
  have hk := k.isLt
  subst h
  calc c.val * m + k.val < c.val * m + m := by omega
    _ = (c.val + 1) * m := by ring
    _ ≤ n * m := Nat.mul_le_mul_right m (by omega)

/-- Entry `k` of chunk `c`, as an index of the whole range: `c * m + k`. -/
def at_ {n m N : ℕ} (h : n * m = N) (c : Fin n) (k : Fin m) : Fin N := ⟨c.val * m + k.val, at_lt h c k⟩

@[simp] theorem at_val {n m N : ℕ} (h : n * m = N) (c : Fin n) (k : Fin m) : (at_ h c k).val = c.val * m + k.val := rfl

/-- The sum of the `n` chunk sums is the sum over all `N = n * m` indices. -/
theorem sum_chunks {M : Type*} [AddCommMonoid M] {n m N : ℕ} (h : n * m = N) (f : Fin N → M) :
    ∑ c : Fin n, ∑ k : Fin m, f (at_ h c k) = ∑ j : Fin N, f j := by
  subst h
  rw [← Equiv.sum_comp finProdFinEquiv f, Fintype.sum_prod_type]
  refine Finset.sum_congr rfl fun c _ => Finset.sum_congr rfl fun k _ => congrArg f (Fin.ext ?_)
  simp only [at_val, finProdFinEquiv, Equiv.coe_fn_mk]
  ring

/-- Eight terms added one after the other onto a zero, from the left, are their sum. -/
theorem fold8 {M : Type*} [AddCommMonoid M] (g : Fin 8 → M) :
    0 + g 0 + g 1 + g 2 + g 3 + g 4 + g 5 + g 6 + g 7 = ∑ c : Fin 8, g c := by
  rw [Fin.sum_univ_eight, zero_add]

/-- A contraction over `N = 8 * m` indices accumulated chunk by chunk onto a zero is the whole contraction. -/
theorem fold8_chunks {M : Type*} [AddCommMonoid M] {m N : ℕ} (h : 8 * m = N) (f : Fin N → M) :
    0 + (∑ k : Fin m, f (at_ h 0 k)) + (∑ k : Fin m, f (at_ h 1 k)) + (∑ k : Fin m, f (at_ h 2 k))
      + (∑ k : Fin m, f (at_ h 3 k)) + (∑ k : Fin m, f (at_ h 4 k)) + (∑ k : Fin m, f (at_ h 5 k))
      + (∑ k : Fin m, f (at_ h 6 k)) + (∑ k : Fin m, f (at_ h 7 k)) = ∑ j : Fin N, f j := by
  rw [fold8 (fun c => ∑ k : Fin m, f (at_ h c k)), sum_chunks h f]

end ChunkSum
-- ==== Proof.LoraAlgebra.lean ====
/-
  The two regroupings that join the kernel's arrangement of the sums to the specification's.

  1. A contraction over 4096 inputs accumulated in 16 steps of 256: `upTo f n` is the sum of the first n blocks of
     256 consecutive terms of f. It starts at the first block, grows by one block per step, and after 16 steps it
     is the whole sum. Only associativity and commutativity of + are used.

  2. The kernel lays the 8 adapters × 16 ranks out along one axis of 128 lanes, lane p = l * 16 + r, keeps a
     lane's projection only where the lane's adapter p / 16 is the token's, and contracts all 128 lanes at once.
     Since 0 * b = 0 for every extended real b (infinite ones too), the kept-or-zero factor can be moved outside
     the product and then outside the sum over the ranks of one adapter: the 128-lane sum is the sum over the 8
     adapters of (the adapter's 16-rank sum if it is the token's adapter, else 0). No finiteness is needed.
-/
import proofs.«110651_j74938589381272_2_alg».proof.Proof.LoraSpec
import proofs.«110651_j74938589381272_2_alg».proof.Proof.LibChunkSum

noncomputable section

namespace Cert.LoraAlgebra

open Idealize.ShloMosaic Idealize.ShloMosaic.ValueIdx Cert.LoraSpec

/-! ## A contraction accumulated block by block -/

theorem h16 : 16 * 256 = 4096 := by norm_num
theorem h8 : 8 * 16 = 128 := by norm_num

/-- Block k of f: its 256 consecutive terms from 256 * k on (nothing beyond the sixteenth block). -/
def blockSum (f : Fin 4096 → EReal) (k : ℕ) : EReal :=
  if h : k < 16 then ∑ kk : Fin 256, f (ChunkSum.at_ h16 ⟨k, h⟩ kk) else 0

/-- The first n blocks of f, summed. -/
def upTo (f : Fin 4096 → EReal) (n : ℕ) : EReal := ∑ k ∈ Finset.range n, blockSum f k

theorem upTo_one (f : Fin 4096 → EReal) : upTo f 1 = blockSum f 0 := by
  unfold upTo; rw [Finset.sum_range_one]

theorem upTo_succ (f : Fin 4096 → EReal) (n : ℕ) : upTo f (n + 1) = upTo f n + blockSum f n := by
  unfold upTo; rw [Finset.sum_range_succ]

/-- Sixteen blocks are the whole contraction. -/
theorem upTo_all (f : Fin 4096 → EReal) : upTo f 16 = ∑ j : Fin 4096, f j := by
  unfold upTo
  rw [Finset.sum_range (fun k => blockSum f k), ← ChunkSum.sum_chunks h16 f]
  refine Finset.sum_congr rfl fun k _ => ?_
  unfold blockSum
  rw [dif_pos k.isLt]

/-- A block of f written with the block's own number and the position inside it. -/
theorem blockSum_eq (f : Fin 4096 → EReal) (k : ℕ) (hk : k < 16) (g : Fin 256 → EReal)
    (hg : ∀ kk : Fin 256, g kk = f ⟨k * 256 + kk.val, by have := kk.isLt; omega⟩) :
    ∑ kk : Fin 256, g kk = blockSum f k := by
  unfold blockSum
  rw [dif_pos hk]
  exact Finset.sum_congr rfl fun kk _ => (hg kk).trans (congrArg f (Fin.ext rfl))

/-! ## The 128 lanes regrouped by adapter -/

/-- Lane p's adapter and rank. -/
def laneAdapter (p : Fin 128) : Fin 8 := ⟨p.val / 16, by have := p.isLt; omega⟩
def laneRank (p : Fin 128) : Fin 16 := ⟨p.val % 16, Nat.mod_lt _ (by norm_num)⟩

theorem laneAdapter_at (l : Fin 8) (r : Fin 16) : laneAdapter (ChunkSum.at_ h8 l r) = l := by
  apply Fin.ext; show (l.val * 16 + r.val) / 16 = l.val; have := r.isLt; omega

theorem laneRank_at (l : Fin 8) (r : Fin 16) : laneRank (ChunkSum.at_ h8 l r) = r := by
  apply Fin.ext; show (l.val * 16 + r.val) % 16 = r.val; have := r.isLt; omega

/-- The masked 128-lane contraction is the sum over adapters of the token's own adapter's 16-rank contraction. -/
theorem lanes_eq (word : BitVec 32) (h : Fin 8 → Fin 16 → EReal) (b : Fin 8 → Fin 16 → EReal) :
    ∑ p : Fin 128, (if word = BitVec.ofNat 32 (p.val / 16) then h (laneAdapter p) (laneRank p) else 0)
        * b (laneAdapter p) (laneRank p)
      = ∑ l : Fin 8, if word = BitVec.ofNat 32 l.val then ∑ r : Fin 16, h l r * b l r else 0 := by
  rw [← ChunkSum.sum_chunks h8]
  refine Finset.sum_congr rfl fun l _ => ?_
  have e : ∀ r : Fin 16,
      (if word = BitVec.ofNat 32 ((ChunkSum.at_ h8 l r).val / 16) then h (laneAdapter (ChunkSum.at_ h8 l r)) (laneRank (ChunkSum.at_ h8 l r)) else 0)
        * b (laneAdapter (ChunkSum.at_ h8 l r)) (laneRank (ChunkSum.at_ h8 l r))
      = if word = BitVec.ofNat 32 l.val then h l r * b l r else 0 := by
    intro r
    have hl : (ChunkSum.at_ h8 l r).val / 16 = l.val := congrArg Fin.val (laneAdapter_at l r)
    rw [hl, laneAdapter_at, laneRank_at]
    by_cases hw : word = BitVec.ofNat 32 l.val
    · rw [if_pos hw, if_pos hw]
    · rw [if_neg hw, if_neg hw, zero_mul]
  rw [Finset.sum_congr rfl fun r _ => e r]
  by_cases hw : word = BitVec.ofNat 32 l.val
  · simp only [if_pos hw]
  · simp only [if_neg hw, Finset.sum_const_zero]

/-! ## The kernel's arrangement is the specification -/

/-- What the kernel leaves at a token `row`, a row `wrow` of the dense weights and a column j of a slice with tables
    A, B: the 16-step dense contraction plus the masked 128-lane contraction of the 16-step projections. -/
theorem kernel_form (x : RowsIn.Idx → EReal) (tl : Toks.Idx → BitVec 32) (W : RowsIn.Idx → EReal)
    (A : DownT.Idx → EReal) (B : UpT.Idx → EReal) (row wrow : Fin 8192) (j : Fin 4096) :
    upTo (fun k => x (ix2 row k) * W (ix2 wrow k)) 16
      + ∑ p : Fin 128, (if tl (ix1 row) = BitVec.ofNat 32 (p.val / 16)
            then upTo (fun k => x (ix2 row k) * A (ix3 (laneAdapter p) (laneRank p) k)) 16 else 0)
          * B (ix3 (laneAdapter p) j (laneRank p))
      = dense x W row wrow + lowRank x tl A B row j := by
  rw [upTo_all]
  have e := lanes_eq (tl (ix1 row)) (fun l r => upTo (fun k => x (ix2 row k) * A (ix3 l r k)) 16)
    (fun l r => B (ix3 l j r))
  rw [e]
  unfold dense lowRank adapterTerm proj
  simp only [upTo_all]

end Cert.LoraAlgebra

end
-- ==== Proof.KernelPieces.lean ====
/-
  What one step of the kernel body leaves in its two accumulators and in the output block, as arithmetic.

  The body keeps two accumulators across the 16 steps k = 0 … 15 of one output block: `acc` (1024 × 2048, the
  dense product so far) and `xa` (1024 × 128, the projections on all 8 × 16 adapter ranks so far). A step adds to
  `acc` the product of the step's 256 input columns of x with the same columns of W (`k0_pay4`), and to `xa` their
  product with the same columns of the slice's down-projection table (`k0_pay5`; the table is resident whole, and
  the step cuts its 256 columns out: `aCols`). The first step starts both from zero (`k0_pay1`, `k0_pay2`); the
  last step then adds the masked up-projection of `xa` to `acc` (`k0_pay7`) and copies `acc` to the output block.
  Each lemma says which of these terms a step of each kind leaves where; they hold for every float model.
-/
import proofs.«110651_j74938589381272_2_alg».proof.Proof.Gen.KernelIdeal.Frame
import Idealize.ShloMosaic.Lib.Pipeline.Value
import Idealize.ShloMosaic.Lib.Tactic

set_option maxRecDepth 16384

noncomputable section

namespace Cert.KernelSide

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-shape load after stores of which the LAST covered the whole shape reads that store's payload. -/
theorem readCov_last_whole {Val : EltTy → Type} [∀ e, Nonempty (Val e)] {sig : RefSig} {κ : Kind} {sp : Space}
    {S : Shape} {e : EltTy} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-- The step's 256 columns of the resident down-projection block: columns 256 k … 256 k + 255 at step k. -/
def aCols (i : grid0.Coords) (x3 : Vec F S1x128x4096 .bf16) : Vec F S1x128x256 .bf16 :=
  View.ld x3 (Rect.unit (s := S1x128x4096) (k0_off1 i) S1x128x256.size (k0_off1_inb i))

/-! ## A middle step -/

theorem mid_acc (c : Dev nD) (i : grid0.Coords) (arg4 : Memref sig .tc .vmem S1024x256 .bf16) (harg4 : arg4.IsWhole) (arg5 : Memref sig .tc .vmem S2048x256 .bf16) (harg5 : arg5.IsWhole) (arg6 : Memref sig .tc .vmem S1024x1 .i32) (harg6 : arg6.IsWhole) (arg7 : Memref sig .tc .vmem S1x128x4096 .bf16) (harg7 : arg7.IsWhole) (arg8 : Memref sig .tc .vmem S1x128x2048 .bf16) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S1024x128 .f32) (harg11 : arg11.IsWhole) (hc0 : ¬cond0_0 i) (hc1 : ¬cond0_1 i) (x0 : Vec F S1024x256 .bf16) (x1 : Vec F S2048x256 .bf16) (x2 : Vec F S1024x1 .i32) (x3 : Vec F S1x128x4096 .bf16) (x4 : Vec F S1x128x2048 .bf16) (xs0 : Vec F S1024x2048 .f32) (xs1 : Vec F S1024x128 .f32) :
    sout0_B_0 c i arg4 harg4 arg5 harg5 arg6 harg6 arg7 harg7 arg8 harg8 arg9 harg9 arg10 harg10 arg11 harg11 hc0 hc1 x0 x1 x2 x3 x4 xs0 xs1 = k0_pay4 x0 x1 xs0 := by
  unfold sout0_B_0
  rw [View.read_writes_eq_canon _ _ _ (scover0_B_0 c i arg4 harg4 arg5 harg5 arg6 harg6 arg7 harg7 arg8 harg8 arg9 harg9 arg10 harg10 arg11 harg11 hc0 hc1 x0 x1 x2 x3 x4 xs0 xs1)]
  unfold kernelRun0_B
  dsimp only
  rw [View.canon_unit_zero hz2]
  simp only [View.readAt_eq_ld, harg4.read_unread, harg5.read_unread, harg6.read_unread, harg7.read_unread, harg8.read_unread, harg10.read_unread, harg11.read_unread, View.ld_unit_zero (S := S1024x256) hz2, View.ld_unit_zero (S := S2048x256) hz2, View.ld_unit_zero (S := S1024x2048) hz2, View.ld_unit_zero (S := S1024x128) hz2, View.ld_unit_zero (S := S1024x1) hz2, View.ld_unit_zero (S := S1x128x2048) hz3]

theorem mid_xa (c : Dev nD) (i : grid0.Coords) (arg4 : Memref sig .tc .vmem S1024x256 .bf16) (harg4 : arg4.IsWhole) (arg5 : Memref sig .tc .vmem S2048x256 .bf16) (harg5 : arg5.IsWhole) (arg6 : Memref sig .tc .vmem S1024x1 .i32) (harg6 : arg6.IsWhole) (arg7 : Memref sig .tc .vmem S1x128x4096 .bf16) (harg7 : arg7.IsWhole) (arg8 : Memref sig .tc .vmem S1x128x2048 .bf16) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S1024x128 .f32) (harg11 : arg11.IsWhole) (hc0 : ¬cond0_0 i) (hc1 : ¬cond0_1 i) (x0 : Vec F S1024x256 .bf16) (x1 : Vec F S2048x256 .bf16) (x2 : Vec F S1024x1 .i32) (x3 : Vec F S1x128x4096 .bf16) (x4 : Vec F S1x128x2048 .bf16) (xs0 : Vec F S1024x2048 .f32) (xs1 : Vec F S1024x128 .f32) :
    sout0_B_1 c i arg4 harg4 arg5 harg5 arg6 harg6 arg7 harg7 arg8 harg8 arg9 harg9 arg10 harg10 arg11 harg11 hc0 hc1 x0 x1 x2 x3 x4 xs0 xs1 = k0_pay5 x0 (aCols i x3) xs1 := by
  unfold sout0_B_1
  rw [View.read_writes_eq_canon _ _ _ (scover0_B_1 c i arg4 harg4 arg5 harg5 arg6 harg6 arg7 harg7 arg8 harg8 arg9 harg9 arg10 harg10 arg11 harg11 hc0 hc1 x0 x1 x2 x3 x4 xs0 xs1)]
  unfold kernelRun0_B
  dsimp only
  rw [View.canon_unit_zero hz2]
  simp only [View.readAt_eq_ld, harg4.read_unread, harg5.read_unread, harg6.read_unread, harg7.read_unread, harg8.read_unread, harg10.read_unread, harg11.read_unread, View.ld_unit_zero (S := S1024x256) hz2, View.ld_unit_zero (S := S2048x256) hz2, View.ld_unit_zero (S := S1024x2048) hz2, View.ld_unit_zero (S := S1024x128) hz2, View.ld_unit_zero (S := S1024x1) hz2, View.ld_unit_zero (S := S1x128x2048) hz3]
  rfl

/-! ## The first step: both accumulators start from zero -/

theorem first_acc (c : Dev nD) (i : grid0.Coords) (arg4 : Memref sig .tc .vmem S1024x256 .bf16) (harg4 : arg4.IsWhole) (arg5 : Memref sig .tc .vmem S2048x256 .bf16) (harg5 : arg5.IsWhole) (arg6 : Memref sig .tc .vmem S1024x1 .i32) (harg6 : arg6.IsWhole) (arg7 : Memref sig .tc .vmem S1x128x4096 .bf16) (harg7 : arg7.IsWhole) (arg8 : Memref sig .tc .vmem S1x128x2048 .bf16) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S1024x128 .f32) (harg11 : arg11.IsWhole) (hc0 : cond0_0 i) (hc1 : ¬cond0_1 i) (x0 : Vec F S1024x256 .bf16) (x1 : Vec F S2048x256 .bf16) (x2 : Vec F S1024x1 .i32) (x3 : Vec F S1x128x4096 .bf16) (x4 : Vec F S1x128x2048 .bf16) :
    sout0_A_0 c i arg4 harg4 arg5 harg5 arg6 harg6 arg7 harg7 arg8 harg8 arg9 harg9 arg10 harg10 arg11 harg11 hc0 hc1 x0 x1 x2 x3 x4 = k0_pay4 x0 x1 k0_pay1 := by
  unfold sout0_A_0
  rw [View.read_writes_eq_canon _ _ _ (scover0_A_0 c i arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x2048) hz2, View.readCov_unit_zero (S := S1024x2048) _ hz2]
  simp only [View.readAt_eq_ld, harg4.read_unread, harg5.read_unread, harg6.read_unread, harg7.read_unread, harg8.read_unread, harg10.read_unread, harg11.read_unread, View.ld_unit_zero (S := S1024x256) hz2, View.ld_unit_zero (S := S2048x256) hz2, View.ld_unit_zero (S := S1024x2048) hz2, View.ld_unit_zero (S := S1024x128) hz2, View.ld_unit_zero (S := S1024x1) hz2, View.ld_unit_zero (S := S1x128x2048) hz3]

theorem first_xa (c : Dev nD) (i : grid0.Coords) (arg4 : Memref sig .tc .vmem S1024x256 .bf16) (harg4 : arg4.IsWhole) (arg5 : Memref sig .tc .vmem S2048x256 .bf16) (harg5 : arg5.IsWhole) (arg6 : Memref sig .tc .vmem S1024x1 .i32) (harg6 : arg6.IsWhole) (arg7 : Memref sig .tc .vmem S1x128x4096 .bf16) (harg7 : arg7.IsWhole) (arg8 : Memref sig .tc .vmem S1x128x2048 .bf16) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S1024x128 .f32) (harg11 : arg11.IsWhole) (hc0 : cond0_0 i) (hc1 : ¬cond0_1 i) (x0 : Vec F S1024x256 .bf16) (x1 : Vec F S2048x256 .bf16) (x2 : Vec F S1024x1 .i32) (x3 : Vec F S1x128x4096 .bf16) (x4 : Vec F S1x128x2048 .bf16) :
    sout0_A_1 c i arg4 harg4 arg5 harg5 arg6 harg6 arg7 harg7 arg8 harg8 arg9 harg9 arg10 harg10 arg11 harg11 hc0 hc1 x0 x1 x2 x3 x4 = k0_pay5 x0 (aCols i x3) k0_pay2 := by
  unfold sout0_A_1
  rw [View.read_writes_eq_canon _ _ _ (scover0_A_1 c i arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x128) hz2, View.readCov_unit_zero (S := S1024x128) _ hz2]
  simp only [View.readAt_eq_ld, harg4.read_unread, harg5.read_unread, harg6.read_unread, harg7.read_unread, harg8.read_unread, harg10.read_unread, harg11.read_unread, View.ld_unit_zero (S := S1024x256) hz2, View.ld_unit_zero (S := S2048x256) hz2, View.ld_unit_zero (S := S1024x2048) hz2, View.ld_unit_zero (S := S1024x128) hz2, View.ld_unit_zero (S := S1024x1) hz2, View.ld_unit_zero (S := S1x128x2048) hz3]
  rfl

/-! ## The last step: the low-rank term joins, and the block is written out -/

/-- What the last step computes: the updated `acc` plus the masked up-projection of the updated `xa`. -/
def lastValue (i : grid0.Coords) (x0 : Vec F S1024x256 .bf16) (x1 : Vec F S2048x256 .bf16) (x2 : Vec F S1024x1 .i32)
    (x3 : Vec F S1x128x4096 .bf16) (x4 : Vec F S1x128x2048 .bf16) (xs0 : Vec F S1024x2048 .f32) (xs1 : Vec F S1024x128 .f32) :
    Vec F S1024x2048 .f32 :=
  k0_pay6 (k0_pay7 x2 (k0_pay5 x0 (aCols i x3) xs1) x4 (k0_pay4 x0 x1 xs0))

theorem last_out (c : Dev nD) (i : grid0.Coords) (arg4 : Memref sig .tc .vmem S1024x256 .bf16) (harg4 : arg4.IsWhole) (arg5 : Memref sig .tc .vmem S2048x256 .bf16) (harg5 : arg5.IsWhole) (arg6 : Memref sig .tc .vmem S1024x1 .i32) (harg6 : arg6.IsWhole) (arg7 : Memref sig .tc .vmem S1x128x4096 .bf16) (harg7 : arg7.IsWhole) (arg8 : Memref sig .tc .vmem S1x128x2048 .bf16) (harg8 : arg8.IsWhole) (arg9 : Memref sig .tc .vmem S1024x2048 .f32) (harg9 : arg9.IsWhole) (arg10 : Memref sig .tc .vmem S1024x2048 .f32) (harg10 : arg10.IsWhole) (arg11 : Memref sig .tc .vmem S1024x128 .f32) (harg11 : arg11.IsWhole) (hc0 : ¬cond0_0 i) (hc1 : cond0_1 i) (x0 : Vec F S1024x256 .bf16) (x1 : Vec F S2048x256 .bf16) (x2 : Vec F S1024x1 .i32) (x3 : Vec F S1x128x4096 .bf16) (x4 : Vec F S1x128x2048 .bf16) (xs0 : Vec F S1024x2048 .f32) (xs1 : Vec F S1024x128 .f32) :
    out0_C_5 c i arg4 harg4 arg5 harg5 arg6 harg6 arg7 harg7 arg8 harg8 arg9 harg9 arg10 harg10 arg11 harg11 hc0 hc1 x0 x1 x2 x3 x4 xs0 xs1 = lastValue i x0 x1 x2 x3 x4 xs0 xs1 := by
  unfold out0_C_5
  rw [View.read_writes_eq_canon _ _ _ (cover0_C_5 c i arg4 harg4 arg5 harg5 arg6 harg6 arg7 harg7 arg8 harg8 arg9 harg9 arg10 harg10 arg11 harg11 hc0 hc1 x0 x1 x2 x3 x4 xs0 xs1)]
  unfold kernelRun0_C
  dsimp only
  sl_unfold_words
  rw [View.canon_unit_zero hz2, readCov_last_whole (S := S1024x2048) _ hz2,
    View.readCov_unit_zero (S := S1024x2048) _ hz2, View.readCov_unit_zero (S := S1024x128) _ hz2]
  simp only [View.readAt_eq_ld, harg4.read_unread, harg5.read_unread, harg6.read_unread, harg7.read_unread, harg8.read_unread, harg10.read_unread, harg11.read_unread, View.ld_unit_zero (S := S1024x256) hz2, View.ld_unit_zero (S := S2048x256) hz2, View.ld_unit_zero (S := S1024x2048) hz2, View.ld_unit_zero (S := S1024x128) hz2, View.ld_unit_zero (S := S1024x1) hz2, View.ld_unit_zero (S := S1x128x2048) hz3]
  rfl

end Cert.KernelSide

end
-- ==== Proof.KernelInputs.lean ====
/-
  What the first three input windows of the kernel hold at a grid point.

  The grid has 512 points; point `t` has coordinates (t/256, t/32 % 8, t/16 % 2, t % 16): the output slice, the
  row tile, the column tile inside the slice, and the chunk of the contraction axis. Each window stages one
  rectangular block of an array; the block's coordinate on an axis is always (block index) × (block size) + (the
  coordinate inside the block). The activations are cut in blocks of 1024 rows × 256 columns at block index
  (row tile, chunk), the weights in blocks of 2048 × 256 at (2·slice + column tile, chunk), and the column of
  adapter numbers in blocks of 1024 × 1 at (row tile, 0).

  The arrays staged are the arguments themselves: on the extended reals a change of float format is the identity,
  and the column of adapter numbers is the argument vector read in row-major order.
-/
import proofs.«110651_j74938589381272_2_alg».proof.Proof.Gen.KernelIdeal.Frame.Runs
import Idealize.ShloMosaic.Lib.StableHlo.Run
import Idealize.ShloMosaic.Lib.ValueLayout
import Idealize.ShloMosaic.Lib.ValueIdx
import Idealize.ShloMosaic.Lib.Pipeline.Value

noncomputable section

namespace Cert.KernelSide

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## The grid -/

theorem tlt (t : Fin cfg0.N) : t.val < 512 := lt_of_lt_of_eq t.isLt Gen.N_0

/-! ## The index maps, decided once over the grid -/

theorem idx0 : ∀ t : Fin cfg0.N, win0_0.index t (0 : Fin 2) = t.val/32%8 ∧ win0_0.index t (1 : Fin 2) = t.val%16 :=
  (by decide +kernel : ∀ t : Fin grid0.N, _)

theorem idx1 : ∀ t : Fin cfg0.N, win0_1.index t (0 : Fin 2) = t.val/256*2 + t.val/16%2 ∧ win0_1.index t (1 : Fin 2) = t.val%16 :=
  (by decide +kernel : ∀ t : Fin grid0.N, _)

theorem idx2 : ∀ t : Fin cfg0.N, win0_2.index t (0 : Fin 2) = t.val/32%8 ∧ win0_2.index t (1 : Fin 2) = 0 :=
  (by decide +kernel : ∀ t : Fin grid0.N, _)

/-! ## The arrays the windows stage, as the host operations leave them

On the extended reals a change of float format is the identity, so the two converted operands are the arguments
themselves; the other three are re-layouts of arguments. -/

theorem V_v0 : (V m c main_v0 : S8192x4096.Idx → EReal) = m ((c : Thread nD τ).loc main_arg0) := by
  dsimp only [Gen.V, Gen.hostOps0]; after_results; rfl

theorem V_v1 : (V m c main_v1 : S8192x4096.Idx → EReal) = m ((c : Thread nD τ).loc main_arg2) := by
  dsimp only [Gen.V, Gen.hostOps0]; after_results; rfl

theorem V_v13 : (V m c main_v13 : S8192x1.Idx → BitVec 32)
    = shapeCast S8192x1 (m ((c : Thread nD τ).loc main_arg1) : S8192.Idx → BitVec 32) shapeCasts_S8192_S8192x1 := by
  dsimp only [Gen.V, Gen.hostOps0]; after_results; rfl

/-! ## A block read where the index map says

Stated for any contents `X` of the staged array. -/

theorem read0 (X : S8192x4096.Idx → EReal) (t : Fin cfg0.N) (r : Fin 1024) (kk : Fin 256) :
    (((cfg0.win 0).blk t).view.read (Elt Ideal) X : S1024x256.Idx → EReal) (ix2 r kk)
      = X (ix2 ⟨t.val/32%8*1024 + r.val, by have := tlt t; omega⟩ ⟨t.val%16*256 + kk.val, by omega⟩) := by
  show X (((cfg0.win 0).blk t).view.emb (ix2 r kk)) = _
  refine congrArg X ?_
  funext a; apply Fin.ext
  match a with
  | ⟨0, _⟩ => show win0_0.index t (0 : Fin 2) * 1024 + 1 * r.val = t.val/32%8*1024 + r.val; rw [(idx0 t).1]; omega
  | ⟨1, _⟩ => show win0_0.index t (1 : Fin 2) * 256 + 1 * kk.val = t.val%16*256 + kk.val; rw [(idx0 t).2]; omega

theorem read1 (X : S8192x4096.Idx → EReal) (t : Fin cfg0.N) (q : Fin 2048) (kk : Fin 256) :
    (((cfg0.win 1).blk t).view.read (Elt Ideal) X : S2048x256.Idx → EReal) (ix2 q kk)
      = X (ix2 ⟨(t.val/256*2 + t.val/16%2)*2048 + q.val, by have := tlt t; omega⟩ ⟨t.val%16*256 + kk.val, by omega⟩) := by
  show X (((cfg0.win 1).blk t).view.emb (ix2 q kk)) = _
  refine congrArg X ?_
  funext a; apply Fin.ext
  match a with
  | ⟨0, _⟩ => show win0_1.index t (0 : Fin 2) * 2048 + 1 * q.val = (t.val/256*2 + t.val/16%2)*2048 + q.val; rw [(idx1 t).1]; omega
  | ⟨1, _⟩ => show win0_1.index t (1 : Fin 2) * 256 + 1 * kk.val = t.val%16*256 + kk.val; rw [(idx1 t).2]; omega

theorem read2 (X : S8192x1.Idx → BitVec 32) (t : Fin cfg0.N) (r : Fin 1024) :
    (((cfg0.win 2).blk t).view.read (Elt Ideal) X : S1024x1.Idx → BitVec 32) (ix2 r 0)
      = X (ix2 ⟨t.val/32%8*1024 + r.val, by have := tlt t; omega⟩ 0) := by
  show X (((cfg0.win 2).blk t).view.emb (ix2 r (0 : Fin 1))) = _
  refine congrArg X ?_
  funext a; apply Fin.ext
  match a with
  | ⟨0, _⟩ => show win0_2.index t (0 : Fin 2) * 1024 + 1 * r.val = t.val/32%8*1024 + r.val; rw [(idx2 t).1]; omega
  | ⟨1, _⟩ => show win0_2.index t (1 : Fin 2) * 1 + 1 * 0 = 0; rw [(idx2 t).2]

/-! ## Blocks of the two matrix operands and of the column of adapter numbers -/

theorem xblk (t : Fin cfg0.N) (r : Fin 1024) (kk : Fin 256) :
    (iblk m c 0 t : S1024x256.Idx → EReal) (ix2 r kk)
      = m ((c : Thread nD τ).loc main_arg0) (ix2 ⟨t.val/32%8*1024 + r.val, by have := tlt t; omega⟩ ⟨t.val%16*256 + kk.val, by omega⟩) := by
  refine (read0 (V m c main_v0) t r kk).trans ?_
  rw [V_v0]

theorem wblk (t : Fin cfg0.N) (q : Fin 2048) (kk : Fin 256) :
    (iblk m c 1 t : S2048x256.Idx → EReal) (ix2 q kk)
      = m ((c : Thread nD τ).loc main_arg2) (ix2 ⟨(t.val/256*2 + t.val/16%2)*2048 + q.val, by have := tlt t; omega⟩ ⟨t.val%16*256 + kk.val, by omega⟩) := by
  refine (read1 (V m c main_v1) t q kk).trans ?_
  rw [V_v1]

theorem tlblk (t : Fin cfg0.N) (r : Fin 1024) :
    (iblk m c 2 t : S1024x1.Idx → BitVec 32) (ix2 r 0)
      = m ((c : Thread nD τ).loc main_arg1) (ix1 ⟨t.val/32%8*1024 + r.val, by have := tlt t; omega⟩) := by
  refine (read2 (V m c main_v13) t r).trans ?_
  rw [V_v13]
  refine shapeCast_apply _ shapeCasts_S8192_S8192x1 _ _ ?_
  rw [Shape.rowMajor_val_one, Shape.rowMajor_val_two]
  show t.val/32%8*1024 + r.val = (t.val/32%8*1024 + r.val) * 1 + 0
  omega

end Cert.KernelSide

end
-- ==== Proof.KernelInputsAB.lean ====
/-
  What the two adapter-table windows of the kernel hold at a grid point.

  The host stacks the two A tables (each [8,16,4096]: adapter, rank, input column) into [2,8,16,4096] and flattens
  adapter and rank into one axis of 128: entry (s, l·16 + r, k) of the result is entry (l, r, k) of table s. It
  stacks the two B tables (each [8,4096,16]: adapter, output column, rank), swaps their last two axes and flattens
  adapter and rank likewise: entry (s, l·16 + r, j) of the result is entry (l, j, r) of table s. On the extended
  reals the change of float format that follows is the identity.

  At grid point `t` (coordinates (t/256, t/32 % 8, t/16 % 2, t % 16): slice, row tile, column tile, chunk) the
  first window holds all of table t/256 of the stacked A's, and the second the 2048 columns of column tile
  t/16 % 2 of table t/256 of the stacked B's.
-/
import proofs.«110651_j74938589381272_2_alg».proof.Proof.Gen.KernelIdeal.Frame.Runs
import Idealize.ShloMosaic.Lib.StableHlo.Run
import Idealize.ShloMosaic.Lib.ValueLayout
import Idealize.ShloMosaic.Lib.ValueIdx
import Idealize.ShloMosaic.Lib.Pipeline.Value

noncomputable section

namespace Cert.KernelSide

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## The two stacked adapter tables, read at an entry

Two tables of shape [8,16,4096] are stacked into [2,8,16,4096] and the middle two axes flattened: entry
(s, l*16 + r, k) of the result is entry (l, r, k) of table s. Likewise two tables of shape [8,4096,16] are
stacked, their last two axes swapped and the middle two flattened: entry (s, l*16 + r, j) of the result is entry
(l, j, r) of table s. -/

section HostLayout
variable {α : Type}

theorem stackRows_apply (hb : S8x16x4096.BroadcastsInDim S1x8x16x4096 (![1, 2, 3] : Fin 3 → Fin S1x8x16x4096.rank))
    (hc : Shape.Concatenates [S1x8x16x4096, S1x8x16x4096] S2x8x16x4096 0)
    (hs : S2x8x16x4096.ShapeCasts S2x128x4096)
    (a0 a1 : S8x16x4096.Idx → α) (s : Fin 2) (p : Fin 128) (k : Fin 4096) :
    shapeCast S2x128x4096 (concatenate S2x8x16x4096 0 [⟨S1x8x16x4096, broadcastInDim S1x8x16x4096 ![1, 2, 3] hb a0⟩, ⟨S1x8x16x4096, broadcastInDim S1x8x16x4096 ![1, 2, 3] hb a1⟩] hc) hs (ix3 s p k)
      = (if s.val = 0 then a0 else a1) (ix3 ⟨p.val/16, by omega⟩ ⟨p.val%16, by omega⟩ k) := by
  refine (shapeCast_apply _ hs (ix3 s p k) (ix4 s ⟨p.val/16, by omega⟩ ⟨p.val%16, by omega⟩ k) ?_).trans ?_
  · rw [Shape.rowMajor_val_four, Shape.rowMajor_val_three]
    show ((s.val * 8 + p.val/16) * 16 + p.val%16) * 4096 + k.val = (s.val * 128 + p.val) * 4096 + k.val
    omega
  · by_cases h0 : s.val = 0
    · rw [if_pos h0]
      refine (concatenate_pair_apply_left _ _ _ hc _ rfl (ix4 (0 : Fin 1) ⟨p.val/16, by omega⟩ ⟨p.val%16, by omega⟩ k) (fun b => ?_)).trans ?_
      · match b with
        | ⟨0, _⟩ => show (0 : Nat) = s.val; omega
        | ⟨1, _⟩ => rfl
        | ⟨2, _⟩ => rfl
        | ⟨3, _⟩ => rfl
      · exact broadcastInDim_apply _ hb a0 _ _ (fun a => match a with
          | ⟨0, _⟩ => by show p.val/16 = if (8 : Nat) = 1 then 0 else p.val/16; rw [if_neg (by decide)]
          | ⟨1, _⟩ => by show p.val%16 = if (16 : Nat) = 1 then 0 else p.val%16; rw [if_neg (by decide)]
          | ⟨2, _⟩ => by show k.val = if (4096 : Nat) = 1 then 0 else k.val; rw [if_neg (by decide)])
    · rw [if_neg h0]
      refine (concatenate_pair_apply_right _ _ _ hc _ rfl rfl (ix4 (0 : Fin 1) ⟨p.val/16, by omega⟩ ⟨p.val%16, by omega⟩ k) (fun b hb' => ?_) ?_).trans ?_
      · match b with
        | ⟨0, _⟩ => exact absurd rfl hb'
        | ⟨1, _⟩ => rfl
        | ⟨2, _⟩ => rfl
        | ⟨3, _⟩ => rfl
      · show (0 : Nat) + 1 = s.val; omega
      · exact broadcastInDim_apply _ hb a1 _ _ (fun a => match a with
          | ⟨0, _⟩ => by show p.val/16 = if (8 : Nat) = 1 then 0 else p.val/16; rw [if_neg (by decide)]
          | ⟨1, _⟩ => by show p.val%16 = if (16 : Nat) = 1 then 0 else p.val%16; rw [if_neg (by decide)]
          | ⟨2, _⟩ => by show k.val = if (4096 : Nat) = 1 then 0 else k.val; rw [if_neg (by decide)])

theorem stackCols_apply (hb : S8x4096x16.BroadcastsInDim S1x8x4096x16 (![1, 2, 3] : Fin 3 → Fin S1x8x4096x16.rank))
    (hc : Shape.Concatenates [S1x8x4096x16, S1x8x4096x16] S2x8x4096x16 0)
    (ht : S2x8x4096x16.Transposes [0, 1, 3, 2] S2x8x16x4096)
    (hs : S2x8x16x4096.ShapeCasts S2x128x4096)
    (b0 b1 : S8x4096x16.Idx → α) (s : Fin 2) (p : Fin 128) (j : Fin 4096) :
    shapeCast S2x128x4096 (transpose S2x8x16x4096 [0, 1, 3, 2] (concatenate S2x8x4096x16 0 [⟨S1x8x4096x16, broadcastInDim S1x8x4096x16 ![1, 2, 3] hb b0⟩, ⟨S1x8x4096x16, broadcastInDim S1x8x4096x16 ![1, 2, 3] hb b1⟩] hc) ht) hs (ix3 s p j)
      = (if s.val = 0 then b0 else b1) (ix3 ⟨p.val/16, by omega⟩ j ⟨p.val%16, by omega⟩) := by
  refine (shapeCast_apply _ hs (ix3 s p j) (ix4 s ⟨p.val/16, by omega⟩ ⟨p.val%16, by omega⟩ j) ?_).trans ?_
  · rw [Shape.rowMajor_val_four, Shape.rowMajor_val_three]
    show ((s.val * 8 + p.val/16) * 16 + p.val%16) * 4096 + j.val = (s.val * 128 + p.val) * 4096 + j.val
    omega
  refine (transpose_apply [0, 1, 3, 2] _ ht _ (ix4 s ⟨p.val/16, by omega⟩ j ⟨p.val%16, by omega⟩) (fun b => match b with
    | ⟨0, _⟩ => rfl
    | ⟨1, _⟩ => rfl
    | ⟨2, _⟩ => rfl
    | ⟨3, _⟩ => rfl)).trans ?_
  by_cases h0 : s.val = 0
  · rw [if_pos h0]
    refine (concatenate_pair_apply_left _ _ _ hc _ rfl (ix4 (0 : Fin 1) ⟨p.val/16, by omega⟩ j ⟨p.val%16, by omega⟩) (fun b => ?_)).trans ?_
    · match b with
      | ⟨0, _⟩ => show (0 : Nat) = s.val; omega
      | ⟨1, _⟩ => rfl
      | ⟨2, _⟩ => rfl
      | ⟨3, _⟩ => rfl
    · exact broadcastInDim_apply _ hb b0 _ _ (fun a => match a with
        | ⟨0, _⟩ => by show p.val/16 = if (8 : Nat) = 1 then 0 else p.val/16; rw [if_neg (by decide)]
        | ⟨1, _⟩ => by show j.val = if (4096 : Nat) = 1 then 0 else j.val; rw [if_neg (by decide)]
        | ⟨2, _⟩ => by show p.val%16 = if (16 : Nat) = 1 then 0 else p.val%16; rw [if_neg (by decide)])
  · rw [if_neg h0]
    refine (concatenate_pair_apply_right _ _ _ hc _ rfl rfl (ix4 (0 : Fin 1) ⟨p.val/16, by omega⟩ j ⟨p.val%16, by omega⟩) (fun b hb' => ?_) ?_).trans ?_
    · match b with
      | ⟨0, _⟩ => exact absurd rfl hb'
      | ⟨1, _⟩ => rfl
      | ⟨2, _⟩ => rfl
      | ⟨3, _⟩ => rfl
    · show (0 : Nat) + 1 = s.val; omega
    · exact broadcastInDim_apply _ hb b1 _ _ (fun a => match a with
        | ⟨0, _⟩ => by show p.val/16 = if (8 : Nat) = 1 then 0 else p.val/16; rw [if_neg (by decide)]
        | ⟨1, _⟩ => by show j.val = if (4096 : Nat) = 1 then 0 else j.val; rw [if_neg (by decide)]
        | ⟨2, _⟩ => by show p.val%16 = if (16 : Nat) = 1 then 0 else p.val%16; rw [if_neg (by decide)])

end HostLayout

/-! ## The index maps of the two table windows, decided once over the grid -/

theorem idx3 : ∀ t : Fin cfg0.N, win0_3.index t (0 : Fin 3) = t.val/256 ∧ win0_3.index t (1 : Fin 3) = 0 ∧ win0_3.index t (2 : Fin 3) = 0 :=
  (by decide +kernel : ∀ t : Fin grid0.N, _)

theorem idx4 : ∀ t : Fin cfg0.N, win0_4.index t (0 : Fin 3) = t.val/256 ∧ win0_4.index t (1 : Fin 3) = 0 ∧ win0_4.index t (2 : Fin 3) = t.val/16%2 :=
  (by decide +kernel : ∀ t : Fin grid0.N, _)

/-! ## The two stacked arrays, as the host operations leave them -/

theorem V_v6 : (V m c main_v6 : S2x128x4096.Idx → EReal)
    = shapeCast S2x128x4096 (concatenate S2x8x16x4096 0 [⟨S1x8x16x4096, broadcastInDim S1x8x16x4096 ![1, 2, 3] bcast_S8x16x4096_S1x8x16x4096_1_2_3 (m ((c : Thread nD τ).loc main_arg3) : S8x16x4096.Idx → EReal)⟩, ⟨S1x8x16x4096, broadcastInDim S1x8x16x4096 ![1, 2, 3] bcast_S8x16x4096_S1x8x16x4096_1_2_3 (m ((c : Thread nD τ).loc main_arg4) : S8x16x4096.Idx → EReal)⟩] concatenates_S1x8x16x4096_S1x8x16x4096_S2x8x16x4096_d0) shapeCasts_S2x8x16x4096_S2x128x4096 := by
  dsimp only [Gen.V, Gen.hostOps0]; after_results; rfl

theorem V_v12 : (V m c main_v12 : S2x128x4096.Idx → EReal)
    = shapeCast S2x128x4096 (transpose S2x8x16x4096 [0, 1, 3, 2] (concatenate S2x8x4096x16 0 [⟨S1x8x4096x16, broadcastInDim S1x8x4096x16 ![1, 2, 3] bcast_S8x4096x16_S1x8x4096x16_1_2_3 (m ((c : Thread nD τ).loc main_arg5) : S8x4096x16.Idx → EReal)⟩, ⟨S1x8x4096x16, broadcastInDim S1x8x4096x16 ![1, 2, 3] bcast_S8x4096x16_S1x8x4096x16_1_2_3 (m ((c : Thread nD τ).loc main_arg6) : S8x4096x16.Idx → EReal)⟩] concatenates_S1x8x4096x16_S1x8x4096x16_S2x8x4096x16_d0) transposes_S2x8x4096x16_S2x8x16x4096_0_1_3_2) shapeCasts_S2x8x16x4096_S2x128x4096 := by
  dsimp only [Gen.V, Gen.hostOps0]; after_results; rfl

/-! ## A block read where the index map says

Both windows take whole rows of one table: the block of the first is all 128 rows × 4096 columns of table
t/256; the block of the second is its 128 rows × the 2048 columns of column tile t/16 % 2. Stated for any
contents `X` of the staged array. -/

theorem read3 (X : S2x128x4096.Idx → EReal) (t : Fin cfg0.N) (p : Fin 128) (k : Fin 4096) :
    (((cfg0.win 3).blk t).view.read (Elt Ideal) X : S1x128x4096.Idx → EReal) (ix3 0 p k)
      = X (ix3 ⟨t.val/256, by have := lt_of_lt_of_eq t.isLt Gen.N_0; omega⟩ p k) := by
  show X (((cfg0.win 3).blk t).view.emb (ix3 (0 : Fin 1) p k)) = _
  refine congrArg X ?_
  funext a; apply Fin.ext
  match a with
  | ⟨0, _⟩ => show win0_3.index t (0 : Fin 3) * 1 + 1 * 0 = t.val/256; rw [(idx3 t).1]; omega
  | ⟨1, _⟩ => show win0_3.index t (1 : Fin 3) * 128 + 1 * p.val = p.val; rw [(idx3 t).2.1]; omega
  | ⟨2, _⟩ => show win0_3.index t (2 : Fin 3) * 4096 + 1 * k.val = k.val; rw [(idx3 t).2.2]; omega

theorem read4 (X : S2x128x4096.Idx → EReal) (t : Fin cfg0.N) (p : Fin 128) (q : Fin 2048) :
    (((cfg0.win 4).blk t).view.read (Elt Ideal) X : S1x128x2048.Idx → EReal) (ix3 0 p q)
      = X (ix3 ⟨t.val/256, by have := lt_of_lt_of_eq t.isLt Gen.N_0; omega⟩ p ⟨t.val/16%2*2048 + q.val, by omega⟩) := by
  show X (((cfg0.win 4).blk t).view.emb (ix3 (0 : Fin 1) p q)) = _
  refine congrArg X ?_
  funext a; apply Fin.ext
  match a with
  | ⟨0, _⟩ => show win0_4.index t (0 : Fin 3) * 1 + 1 * 0 = t.val/256; rw [(idx4 t).1]; omega
  | ⟨1, _⟩ => show win0_4.index t (1 : Fin 3) * 128 + 1 * p.val = p.val; rw [(idx4 t).2.1]; omega
  | ⟨2, _⟩ => show win0_4.index t (2 : Fin 3) * 2048 + 1 * q.val = t.val/16%2*2048 + q.val; rw [(idx4 t).2.2]; omega

/-! ## Blocks of the two stacked adapter tables -/

theorem ablk (t : Fin cfg0.N) (p : Fin 128) (k : Fin 4096) :
    (iblk m c 3 t : S1x128x4096.Idx → EReal) (ix3 0 p k)
      = (if t.val/256 = 0 then (m ((c : Thread nD τ).loc main_arg3) : S8x16x4096.Idx → EReal) else m ((c : Thread nD τ).loc main_arg4))
          (ix3 ⟨p.val/16, by omega⟩ ⟨p.val%16, by omega⟩ k) := by
  refine (read3 (V m c main_v6) t p k).trans ?_
  rw [V_v6]
  exact stackRows_apply _ _ _ _ _ _ p k

theorem bblk (t : Fin cfg0.N) (p : Fin 128) (q : Fin 2048) :
    (iblk m c 4 t : S1x128x2048.Idx → EReal) (ix3 0 p q)
      = (if t.val/256 = 0 then (m ((c : Thread nD τ).loc main_arg5) : S8x4096x16.Idx → EReal) else m ((c : Thread nD τ).loc main_arg6))
          (ix3 ⟨p.val/16, by omega⟩ ⟨t.val/16%2*2048 + q.val, by omega⟩ ⟨p.val%16, by omega⟩) := by
  refine (read4 (V m c main_v12) t p q).trans ?_
  rw [V_v12]
  exact stackCols_apply _ _ _ _ _ _ _ p _

end Cert.KernelSide

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«110651_j74938589381272_2_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Payloads.lean ====
/-
  The kernel body's arithmetic, entry by entry, on the extended reals.

  One step of the kernel holds a block of 1024 rows of the input `x` (256 of its 4096 columns), the matching
  256 columns of 2048 rows of the dense weight `w`, and the matching 256 columns of the 128 stacked rows of the
  low-rank factor `a` (8 adapters of rank 16, stacked adapter by adapter). It adds to two running sums:

    acc (r, q) += ∑ k, x (r, k) · w (q, k)          -- the dense product  x · wᵀ
    xa  (r, p) += ∑ k, x (r, k) · a (p, k)          -- the down-projection x · aᵀ, all 8 adapters at once

  and, on the last step over the contraction, keeps of row r's 128 down-projected numbers only the 16 that belong to
  the row's own adapter — lane p belongs to adapter p / 16 — and multiplies by the stacked up-projection `b`:

    out (r, q) = acc (r, q) + ∑ p, (if adapter r = p / 16 then xa (r, p) else 0) · b (p, q).

  A product with the matrix transposed is read through the transpose; a change of float format is the identity on
  the extended reals, so the casts to the 16-bit format do not appear; the factor 1.0 the kernel multiplies the
  low-rank term by is the number one. Nothing here needs an entry to be finite: every equation is between the
  same sums of the same products.
-/
import proofs.«110651_j74938589381272_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«110651_j74938589381272_2_alg».proof.Proof.LibRowsCols
import proofs.«110651_j74938589381272_2_alg».proof.Proof.LoraSpec

noncomputable section

namespace Cert.KernelSide

open Cert.KernelIdeal Cert.KernelIdeal.Gen Idealize.ShloMosaic Idealize.ShloMosaic.ValueIdx

/-! ## The three products contract one axis, rows times columns -/

/-- `(a · w) (r, q)` with the entry's two coordinates named. -/
theorem rowsTimes_ix2 {M K N : Nat} (a : (⟨2, ![M, K]⟩ : Shape).Idx → EReal) (w : (⟨2, ![K, N]⟩ : Shape).Idx → EReal)
    (r : Fin M) (q : Fin N) : Cert.Dense.rowsTimes a w (ix2 r q) = ∑ k : Fin K, a (ix2 r k) * w (ix2 k q) := rfl

/-- The dense product [1024, 256] × [256, 2048]: left index (row, k), right index (k, column). -/
theorem rowsCols_dense [Facts₀] : Cert.Dense.RowsCols dot_S1024x256_S256x2048_S1024x2048_1_0_0_1_n_n :=
  ⟨rfl, rfl, fun _ _ => rfl, fun j k => dot_S1024x256_S256x2048_S1024x2048_1_0_0_1_n_n.lhsIdx_val_of_single rfl j k,
   fun j k => dot_S1024x256_S256x2048_S1024x2048_1_0_0_1_n_n.rhsIdx_val_of_single rfl j k, fun _ _ => rfl⟩

/-- The down-projection [1024, 256] × [256, 128], likewise. -/
theorem rowsCols_down [Facts₀] : Cert.Dense.RowsCols dot_S1024x256_S256x128_S1024x128_1_0_0_1_n_n :=
  ⟨rfl, rfl, fun _ _ => rfl, fun j k => dot_S1024x256_S256x128_S1024x128_1_0_0_1_n_n.lhsIdx_val_of_single rfl j k,
   fun j k => dot_S1024x256_S256x128_S1024x128_1_0_0_1_n_n.rhsIdx_val_of_single rfl j k, fun _ _ => rfl⟩

/-- The up-projection [1024, 128] × [128, 2048], likewise. -/
theorem rowsCols_up [Facts₀] : Cert.Dense.RowsCols dot_S1024x128_S128x2048_S1024x2048_1_0_0_1_n_n :=
  ⟨rfl, rfl, fun _ _ => rfl, fun j k => dot_S1024x128_S128x2048_S1024x2048_1_0_0_1_n_n.lhsIdx_val_of_single rfl j k,
   fun j k => dot_S1024x128_S128x2048_S1024x2048_1_0_0_1_n_n.rhsIdx_val_of_single rfl j k, fun _ _ => rfl⟩

/-! ## The initial values: both running sums start at zero -/

/-- The dense running sum is initialised to zero everywhere. -/
theorem pay1_apply (i : S1024x2048.Idx) : k0_pay1 (F := Ideal) i = 0 := by
  unfold k0_pay1
  rw [shapeCast_self]
  exact Ideal.ofBits_zero_f32

/-- The down-projected running sum is initialised to zero everywhere. -/
theorem pay2_apply (i : S1024x128.Idx) : k0_pay2 (F := Ideal) i = 0 := by
  unfold k0_pay2
  rw [shapeCast_self]
  exact Ideal.ofBits_zero_f32

/-- The input block is used as it was loaded (a cast to its own shape). -/
theorem pay3_eq (v3 : Vec Ideal S1024x256 .bf16) : k0_pay3 v3 = v3 := by
  unfold k0_pay3
  exact shapeCast_self _ _

/-! ## One step of the two running sums -/

/-- The dense step: entry (r, q) gains `∑ k, x (r, k) · w (q, k)` — the product with `w` transposed. -/
theorem pay4_apply (v3 : Vec Ideal S1024x256 .bf16) (v5 : Vec Ideal S2048x256 .bf16) (v7 : Vec Ideal S1024x2048 .f32)
    (r : Fin 1024) (q : Fin 2048) :
    k0_pay4 v3 v5 v7 (ix2 r q) = v7 (ix2 r q) + ∑ kk : Fin 256, v3 (ix2 r kk) * v5 (ix2 q kk) := by
  unfold k0_pay4
  rw [shapeCast_self, shapeCast_self, pay3_eq, addf_apply]
  congr 1
  refine (Cert.Dense.matmul_zero_apply rowsCols_dense none _ _ (ix2 r q)).trans ((rowsTimes_ix2 _ _ r q).trans ?_)
  refine Finset.sum_congr rfl fun kk _ => ?_
  congr 1
  exact transpose_ix2_apply v5 _ kk q

/-- The down-projection step: entry (r, p) gains `∑ k, x (r, k) · a (p, k)`, `a` being the one [128, 256] block of
    the stacked factor (its leading axis of extent one dropped) read transposed. -/
theorem pay5_apply (v3 : Vec Ideal S1024x256 .bf16) (v17 : Vec Ideal S1x128x256 .bf16) (v19 : Vec Ideal S1024x128 .f32)
    (r : Fin 1024) (p : Fin 128) :
    k0_pay5 v3 v17 v19 (ix2 r p) = v19 (ix2 r p) + ∑ kk : Fin 256, v3 (ix2 r kk) * v17 (ix3 0 p kk) := by
  unfold k0_pay5
  rw [shapeCast_self, pay3_eq, addf_apply]
  congr 1
  refine (Cert.Dense.matmul_zero_apply rowsCols_down none _ _ (ix2 r p)).trans ((rowsTimes_ix2 _ _ r p).trans ?_)
  refine Finset.sum_congr rfl fun kk _ => ?_
  congr 1
  refine (transpose_ix2_apply _ _ kk p).trans ?_
  exact shapeCast_1ab_ab_apply v17 _ p kk

/-- What the last step stores is what it computed (a cast to its own shape). -/
theorem pay6_apply (v68 : FVec Ideal S1024x2048 .f32) (i : S1024x2048.Idx) : k0_pay6 v68 i = v68 i := by
  unfold k0_pay6
  rw [shapeCast_self]

/-! ## The last step: each row keeps its own adapter's sixteen lanes -/

/-- The group of sixteen lanes a lane belongs to, as the kernel computes it from the lane's 32-bit number `x`:
    the signed quotient of `x` by 16 rounded toward zero, lowered by one when `x` and 16 differ in sign and the
    remainder is not zero — floor division spelt with truncating division. -/
def laneGroup (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 16#32 0#32)) (Scalar.extui (Scalar.cmpi .slt 16#32 0#32))))
      (IntOp.cmpi .ne (IntOp.remsi .vector x 16#32) 0#32))
    (IntOp.subi (IntOp.divsi .vector x 16#32) 1#32)
    (IntOp.divsi .vector x 16#32)

/-- On the 128 lanes, which are not negative, the floor division is the plain quotient: lane p is in group p / 16
    (a closed computation on each of the 128 words). -/
theorem floordiv16 : ∀ p : Fin 128, laneGroup (BitVec.ofNat 32 p.val) = BitVec.ofNat 32 (p.val / 16) := by
  decide +kernel

/-- The lane counter along the second axis holds, at (r, p), the word of p. -/
theorem lane_word (r : Fin 1024) (p : Fin 128) :
    iota .tc S1024x128 32 [1] iota_S1024x128_d1_w32 (ix2 r p) = BitVec.ofNat 32 p.val :=
  iota_single_apply .tc S1024x128 32 1 _ (ix2 r p)

/-- A [1024, 1] column spread over 128 lanes holds, at (r, p), the column's entry of row r. -/
theorem column_word (v : S1024x1.Idx → BitVec 32) (r : Fin 1024) (p : Fin 128) :
    broadcastTo S1024x128 v broadcasts_S1024x1_S1024x128 (ix2 r p) = v (ix2 r 0) :=
  broadcastTo_apply v _ (ix2 r p) (ix2 r 0) fun a => match a with
    | ⟨0, _⟩ => rfl
    | ⟨1, _⟩ => rfl

/-- Choosing by the one-bit answer of a comparison of two words for equality is choosing by their equality. -/
theorem select_cmpi_eq {α : Type} (x y : BitVec 32) (a b : α) :
    Scalar.select (IntOp.cmpi .eq x y) a b = if y = x then a else b := by
  by_cases h : y = x
  · rw [if_pos h, h]; simp [Scalar.select, IntOp.cmpi]
  · rw [if_neg h]
    have hne : (x == y) = false := by
      rw [beq_eq_false_iff_ne]; exact fun e => h e.symm
    simp [Scalar.select, IntOp.cmpi, hne]

/-- The last step: entry (r, q) is the dense sum plus `∑ p, (xa (r, p) if lane p is of row r's adapter, else 0) · b (p, q)`,
    `b` being the one [128, 2048] block of the stacked up-projection; the factor 1.0 is the number one. -/
theorem pay7_apply (v29 : Vec Ideal S1024x1 .i32) (v58 : Vec Ideal S1024x128 .f32) (v62 : Vec Ideal S1x128x2048 .bf16)
    (v65 : Vec Ideal S1024x2048 .f32) (r : Fin 1024) (q : Fin 2048) :
    k0_pay7 v29 v58 v62 v65 (ix2 r q) = v65 (ix2 r q) + ∑ p : Fin 128,
      (if v29 (ix2 r 0) = BitVec.ofNat 32 (p.val / 16) then v58 (ix2 r p) else 0) * v62 (ix3 0 p q) := by
  unfold k0_pay7
  rw [addf_apply, mulf_apply, broadcast_apply]
  congr 1
  refine (congrArg (_ * ·) Cert.LoraSpec.ofBits_one_f32).trans ?_
  rw [mul_one]
  refine (Cert.Dense.matmul_zero_apply rowsCols_up none _ _ (ix2 r q)).trans ((rowsTimes_ix2 _ _ r q).trans ?_)
  refine Finset.sum_congr rfl fun p _ => ?_
  congr 1
  · -- the left factor at (r, p): every integer operation is entry by entry, so the chosen value is a function of
    -- the lane's word and the row's adapter word alone
    show Scalar.select (IntOp.cmpi .eq (laneGroup (iota .tc S1024x128 32 [1] iota_S1024x128_d1_w32 (ix2 r p)))
          (broadcastTo S1024x128 (shapeCast S1024x1 v29 shapeCasts_S1024x1_S1024x1) broadcasts_S1024x1_S1024x128 (ix2 r p)))
        (v58 (ix2 r p)) (Ideal.ofBits .f32 0x00000000#32) = _
    rw [lane_word, floordiv16 p, shapeCast_self, column_word, Ideal.ofBits_zero_f32, select_cmpi_eq]
  · exact shapeCast_1ab_ab_apply v62 _ p q

end Cert.KernelSide

end
-- ==== Proof.OutputBlock.lean ====
/-
  Where the kernel's output blocks lie in the [8192, 8192] result, and when they are written.

  The grid has 2 × 8 × 2 × 16 points, numbered t = ((s · 8 + m) · 2 + n) · 16 + k: s is the half of the output
  columns (the slice), m the block of 1024 rows, n the block of 2048 columns inside the half, k the step over the
  contraction. The output block of point t is the [1024, 2048] block at block row m = t / 32 % 8 and block column
  s · 2 + n = t / 256 · 2 + t / 16 % 2; it is written back to the result only after the last step, k = 15.
  So entry y of the block is entry (m · 1024 + y₀, (s · 2 + n) · 2048 + y₁) of the result, an entry i of the result
  lies in the block of the points with m = i₀ / 1024 and s · 2 + n = i₁ / 2048, and every entry of the result lies in
  the block of exactly one written-back point: the 8 × 4 blocks tile the result.

  The down-projection factor of a slice stays resident whole ([1, 128, 4096]); step k reads its columns
  k · 256 … k · 256 + 255.
-/
import proofs.«110651_j74938589381272_2_alg».proof.Proof.Gen.KernelIdeal.Value
import Idealize.ShloMosaic.Lib.ValueIdx
import proofs.«110651_j74938589381272_2_alg».proof.Proof.KernelPieces

noncomputable section

namespace Cert.KernelSide

open Cert.KernelIdeal Cert.KernelIdeal.Gen Idealize.ShloMosaic Idealize.ShloMosaic.ValueIdx Idealize.ShloMosaic.TcCoe Idealize.SL.Sem
open Idealize.ShloMosaic.Pipeline (Dat)

/-- The grid has 512 points. -/
theorem point_lt (t : Fin cfg0.N) : t.val < 512 := lt_of_lt_of_eq t.isLt Gen.N_0

/-- The output window's block index at point t: block row t / 32 % 8, block column t / 256 · 2 + t / 16 % 2
    (the printed index map, decided over the 512 points). -/
theorem oidx : ∀ t : Fin cfg0.N, win0_5.index t (0 : Fin 2) = t.val / 32 % 8
    ∧ win0_5.index t (1 : Fin 2) = t.val / 256 * 2 + t.val / 16 % 2 :=
  (by decide +kernel : ∀ t : Fin grid0.N, win0_5.index t (0 : Fin 2) = t.val / 32 % 8
    ∧ win0_5.index t (1 : Fin 2) = t.val / 256 * 2 + t.val / 16 % 2)

/-- The output block is written back exactly after the last of a block's 16 steps. -/
theorem oflush : ∀ t : Fin cfg0.N, (cfg0.win 5).flush t = true ↔ t.val % 16 = 15 := Gen.flush0_5

/-- The result's row under row y₀ of point t's block is inside the result. -/
theorem orow_lt (t : Fin cfg0.N) (y : S1024x2048.Idx) : t.val / 32 % 8 * 1024 + (y 0).val < 8192 := by
  have hy : (y 0).val < 1024 := (y 0).isLt
  omega

/-- The result's column under column y₁ of point t's block is inside the result. -/
theorem ocol_lt (t : Fin cfg0.N) (y : S1024x2048.Idx) :
    (t.val / 256 * 2 + t.val / 16 % 2) * 2048 + (y 1).val < 8192 := by
  have hy : (y 1).val < 2048 := (y 1).isLt
  have ht := point_lt t
  omega

/-- Entry y of point t's output block is the result's entry (block row · 1024 + y₀, block column · 2048 + y₁). -/
theorem oemb (t : Fin cfg0.N) (y : S1024x2048.Idx) :
    ((cfg0.win 5).blk t).view.emb y
      = (ix2 ⟨t.val / 32 % 8 * 1024 + (y 0).val, orow_lt t y⟩
          ⟨(t.val / 256 * 2 + t.val / 16 % 2) * 2048 + (y 1).val, ocol_lt t y⟩ : S8192x8192.Idx) := by
  obtain ⟨e0, e1⟩ := oidx t
  funext a; apply Fin.ext
  match a with
  | ⟨0, _⟩ => show win0_5.index t (0 : Fin 2) * 1024 + 1 * (y 0).val = t.val / 32 % 8 * 1024 + (y 0).val; omega
  | ⟨1, _⟩ => show win0_5.index t (1 : Fin 2) * 2048 + 1 * (y 1).val = (t.val / 256 * 2 + t.val / 16 % 2) * 2048 + (y 1).val; omega

/-- An entry of the result lies in point t's block iff its row is in the block's 1024 rows and its column in the
    block's 2048 columns. -/
theorem omem (t : Fin cfg0.N) (i : S8192x8192.Idx) :
    i ∈ ((cfg0.win 5).blk t).view.set
      ↔ (i 0).val / 1024 = t.val / 32 % 8 ∧ (i 1).val / 2048 = t.val / 256 * 2 + t.val / 16 % 2 := by
  show i ∈ ((View.whole main_v14).slice (win0_5.rect t)).set ↔ _
  rw [View.set_slice_whole, Rect.mem_set_unit]
  obtain ⟨e0, e1⟩ := oidx t
  constructor
  · intro h
    have b0 : win0_5.index t (0 : Fin 2) * 1024 ≤ (i 0).val ∧ (i 0).val < win0_5.index t (0 : Fin 2) * 1024 + 1024 := h 0
    have b1 : win0_5.index t (1 : Fin 2) * 2048 ≤ (i 1).val ∧ (i 1).val < win0_5.index t (1 : Fin 2) * 2048 + 2048 := h 1
    omega
  · rintro ⟨h0, h1⟩ a
    match a with
    | ⟨0, _⟩ => show win0_5.index t (0 : Fin 2) * 1024 ≤ (i 0).val ∧ (i 0).val < win0_5.index t (0 : Fin 2) * 1024 + 1024; omega
    | ⟨1, _⟩ => show win0_5.index t (1 : Fin 2) * 2048 ≤ (i 1).val ∧ (i 1).val < win0_5.index t (1 : Fin 2) * 2048 + 2048; omega

/-- The written-back blocks cover the result: entry i lies in the block of the last step (k = 15) of the point with
    s = i₁ / 4096, m = i₀ / 1024, n = i₁ / 2048 % 2. -/
theorem ocover : ∀ i : S8192x8192.Idx, ∃ t : Fin cfg0.N, (cfg0.win 5).flush t = true ∧ i ∈ ((cfg0.win 5).blk t).view.set := by
  intro i
  have hi0 : (i 0).val < 8192 := (i 0).isLt
  have hi1 : (i 1).val < 8192 := (i 1).isLt
  have hlt : (((i 1).val / 4096 * 8 + (i 0).val / 1024) * 2 + (i 1).val / 2048 % 2) * 16 + 15 < cfg0.N := by
    show _ < grid0.N
    rw [Gen.N_0]; omega
  refine ⟨⟨_, hlt⟩, ?_, ?_⟩
  · rw [oflush]
    show ((((i 1).val / 4096 * 8 + (i 0).val / 1024) * 2 + (i 1).val / 2048 % 2) * 16 + 15) % 16 = 15
    omega
  · rw [omem]
    show (i 0).val / 1024 = ((((i 1).val / 4096 * 8 + (i 0).val / 1024) * 2 + (i 1).val / 2048 % 2) * 16 + 15) / 32 % 8
      ∧ (i 1).val / 2048 = ((((i 1).val / 4096 * 8 + (i 0).val / 1024) * 2 + (i 1).val / 2048 % 2) * 16 + 15) / 256 * 2
        + ((((i 1).val / 4096 * 8 + (i 0).val / 1024) * 2 + (i 1).val / 2048 % 2) * 16 + 15) / 16 % 2
    constructor <;> omega

variable {F : FTy → Type} [FloatOps F]

/-! ## The step's columns of the resident down-projection block -/

/-- The offsets at which step k = t % 16 cuts its 256 columns out of the resident [1, 128, 4096] block:
    (0, 0, k · 256) (the printed offsets, decided over the 512 points). -/
theorem off_facts : ∀ t : Fin cfg0.N, k0_off1 (grid0.coords t) (0 : Fin 3) = 0
    ∧ k0_off1 (grid0.coords t) (1 : Fin 3) = 0
    ∧ k0_off1 (grid0.coords t) (2 : Fin 3) = t.val % 16 * 256 :=
  (by decide +kernel : ∀ t : Fin grid0.N, k0_off1 (grid0.coords t) (0 : Fin 3) = 0
    ∧ k0_off1 (grid0.coords t) (1 : Fin 3) = 0
    ∧ k0_off1 (grid0.coords t) (2 : Fin 3) = t.val % 16 * 256)

/-- Column kk of step k's 256 columns is inside the block's 4096 columns. -/
theorem acol_lt (t : Fin cfg0.N) (kk : Fin 256) : t.val % 16 * 256 + kk.val < 4096 := by
  have hk : kk.val < 256 := kk.isLt
  omega

/-- Entry (0, p, kk) of the step's columns is entry (0, p, k · 256 + kk) of the resident block. -/
theorem aCols_apply (t : Fin cfg0.N) (x3 : Vec F S1x128x4096 .bf16) (p : Fin 128) (kk : Fin 256) :
    aCols (grid0.coords t) x3 (ix3 0 p kk) = x3 (ix3 0 p ⟨t.val % 16 * 256 + kk.val, acol_lt t kk⟩) := by
  obtain ⟨e0, e1, e2⟩ := off_facts t
  unfold aCols
  show x3 _ = x3 _
  refine congrArg x3 (funext fun a => Fin.ext ?_)
  match a with
  | ⟨0, _⟩ => show k0_off1 (grid0.coords t) (0 : Fin 3) + 1 * 0 = 0; omega
  | ⟨1, _⟩ => show k0_off1 (grid0.coords t) (1 : Fin 3) + 1 * p.val = p.val; omega
  | ⟨2, _⟩ => show k0_off1 (grid0.coords t) (2 : Fin 3) + 1 * kk.val = t.val % 16 * 256 + kk.val; omega

end Cert.KernelSide

end
-- ==== Proof.KernelAccum.lean ====
/-
  The kernel's accumulators, step by step, and the block it writes out.

  The 512 grid points run in 32 blocks of 16 consecutive steps; block b = n / 16 computes the output block of
  rows `rowB b r` (1024 tokens) and columns `wrowB b q` (2048 columns: 1024-token block b / 2 % 8, slice
  b / 16 % 2, column half b % 2). Within a block, step k = n % 16 brings input columns 256 k … 256 k + 255.

  Invariant (by induction on the point): after step k < 15 of its block, `acc (r, q)` is the first k + 1 blocks of
  the dense contraction of token row r with weight row q, and `xa (r, p)` the first k + 1 blocks of the projection
  of token row r on lane p's adapter and rank. The first step starts from the stored zeros; a middle step adds one
  block to what the step before left. At step 15 the body adds the sixteenth blocks, contracts the masked `xa` with
  the up-projection block and writes the sum out: by the regrouping lemma that is the specification's entry.
-/
import proofs.«110651_j74938589381272_2_alg».proof.Proof.Gen.KernelIdeal.Value
import proofs.«110651_j74938589381272_2_alg».proof.Proof.LoraAlgebra
import proofs.«110651_j74938589381272_2_alg».proof.Proof.KernelPieces
import proofs.«110651_j74938589381272_2_alg».proof.Proof.KernelInputs
import proofs.«110651_j74938589381272_2_alg».proof.Proof.KernelInputsAB
import proofs.«110651_j74938589381272_2_alg».proof.Proof.Payloads
import proofs.«110651_j74938589381272_2_alg».proof.Proof.OutputBlock

set_option maxRecDepth 16384

noncomputable section

namespace Cert.KernelSide

open Cert.KernelIdeal Cert.KernelIdeal.Gen Idealize.ShloMosaic Idealize.ShloMosaic.TcCoe Idealize.SL.Sem
open Idealize.ShloMosaic.ValueIdx Cert.LoraSpec Cert.LoraAlgebra

variable (m : (ℓ : Loc nD τ sig) → Buf (Elt Ideal) ℓ) (c : Dev nD)

/-- The argument arrays on core c. -/
abbrev aX : RowsIn.Idx → EReal := m ((c.tc : Thread nD τ).loc main_arg0)
abbrev aTL : Toks.Idx → BitVec 32 := m ((c.tc : Thread nD τ).loc main_arg1)
abbrev aW : RowsIn.Idx → EReal := m ((c.tc : Thread nD τ).loc main_arg2)
abbrev aA0 : DownT.Idx → EReal := m ((c.tc : Thread nD τ).loc main_arg3)
abbrev aA1 : DownT.Idx → EReal := m ((c.tc : Thread nD τ).loc main_arg4)
abbrev aB0 : UpT.Idx → EReal := m ((c.tc : Thread nD τ).loc main_arg5)
abbrev aB1 : UpT.Idx → EReal := m ((c.tc : Thread nD τ).loc main_arg6)

/-- Block b's token rows, weight rows (= output columns), and columns inside the slice. -/
def rowB (b : ℕ) (r : Fin 1024) : Fin 8192 := ⟨b / 2 % 8 * 1024 + r.val, by have := r.isLt; omega⟩
def wrowB (b : ℕ) (q : Fin 2048) : Fin 8192 := ⟨(b / 16 % 2 * 2 + b % 2) * 2048 + q.val, by have := q.isLt; omega⟩
def colB (b : ℕ) (q : Fin 2048) : Fin 4096 := ⟨b % 2 * 2048 + q.val, by have := q.isLt; omega⟩

/-- The slice's tables. -/
def aA (b : ℕ) : DownT.Idx → EReal := if b / 16 = 0 then aA0 m c else aA1 m c
def aB (b : ℕ) : UpT.Idx → EReal := if b / 16 = 0 then aB0 m c else aB1 m c

/-- The dense contraction's terms for output (r, q) of block b, and the projection's for lane p. -/
def fD (b : ℕ) (r : Fin 1024) (q : Fin 2048) : Fin 4096 → EReal :=
  fun k => aX m c (ix2 (rowB b r) k) * aW m c (ix2 (wrowB b q) k)
def fP (b : ℕ) (r : Fin 1024) (p : Fin 128) : Fin 4096 → EReal :=
  fun k => aX m c (ix2 (rowB b r) k) * aA m c b (ix3 (laneAdapter p) (laneRank p) k)

/-! ## Indices -/

omit m c in
theorem ix2_congr {n0 n1 : Nat} {a a' : Fin n0} {b b' : Fin n1} (ha : a.val = a'.val) (hb : b.val = b'.val) :
    (ix2 a b : (⟨2, ![n0, n1]⟩ : Shape).Idx) = ix2 a' b' := by
  obtain rfl := Fin.ext ha; obtain rfl := Fin.ext hb; rfl

omit m c in
theorem ix3_congr {n0 n1 n2 : Nat} {a a' : Fin n0} {b b' : Fin n1} {d d' : Fin n2} (ha : a.val = a'.val) (hb : b.val = b'.val)
    (hd : d.val = d'.val) : (ix3 a b d : (⟨3, ![n0, n1, n2]⟩ : Shape).Idx) = ix3 a' b' d' := by
  obtain rfl := Fin.ext ha; obtain rfl := Fin.ext hb; obtain rfl := Fin.ext hd; rfl

omit m c in
theorem t_lt (t : Fin cfg0.N) : t.val < 512 := lt_of_lt_of_eq t.isLt N_0

/-- The slice's tables at point t, by the slice number t / 256. -/
theorem aA_at (t : Fin cfg0.N) : aA m c (t.val / 16) = if t.val / 256 = 0 then aA0 m c else aA1 m c := by
  unfold aA; simp only [Nat.div_div_eq_div_mul, Nat.reduceMul]
theorem aB_at (t : Fin cfg0.N) : aB m c (t.val / 16) = if t.val / 256 = 0 then aB0 m c else aB1 m c := by
  unfold aB; simp only [Nat.div_div_eq_div_mul, Nat.reduceMul]

/-! ## One step adds one block -/

/-- The dense accumulator after a step: what it held plus block k of the dense contraction. -/
theorem step_acc (t : Fin cfg0.N) (prev : Vec Ideal S1024x2048 .f32) (r : Fin 1024) (q : Fin 2048) :
    k0_pay4 (iblk m c 0 t) (iblk m c 1 t) prev (ix2 r q)
      = prev (ix2 r q) + blockSum (fD m c (t.val / 16) r q) (t.val % 16) := by
  have ht := t_lt t
  refine (pay4_apply (iblk m c 0 t) (iblk m c 1 t) prev r q).trans ?_
  congr 1
  refine blockSum_eq (fD m c (t.val / 16) r q) (t.val % 16) (Nat.mod_lt _ (by norm_num)) _ (fun kk => ?_)
  rw [xblk m c t r kk, wblk m c t q kk]
  unfold fD
  exact congrArg₂ (· * ·)
    (congrArg _ (ix2_congr (by simp only [rowB]; omega) rfl))
    (congrArg _ (ix2_congr (by simp only [wrowB]; omega) rfl))

/-- The projection accumulator after a step: what it held plus block k of the projection on lane p. -/
theorem step_xa (t : Fin cfg0.N) (prev : Vec Ideal S1024x128 .f32) (r : Fin 1024) (p : Fin 128) :
    k0_pay5 (iblk m c 0 t) (aCols (grid0.coords t) (iblk m c 3 t)) prev (ix2 r p)
      = prev (ix2 r p) + blockSum (fP m c (t.val / 16) r p) (t.val % 16) := by
  have ht := t_lt t
  refine (pay5_apply (iblk m c 0 t) (aCols (grid0.coords t) (iblk m c 3 t)) prev r p).trans ?_
  congr 1
  refine blockSum_eq (fP m c (t.val / 16) r p) (t.val % 16) (Nat.mod_lt _ (by norm_num)) _ (fun kk => ?_)
  rw [xblk m c t r kk, aCols_apply t (iblk m c 3 t) p kk, ablk m c t p _]
  unfold fP
  rw [aA_at m c t]
  exact congrArg₂ (· * ·)
    (congrArg _ (ix2_congr (by simp only [rowB]; omega) rfl))
    (congrArg _ (ix3_congr rfl rfl rfl))

/-! ## The invariant -/

theorem inv : ∀ (n : ℕ) (h : n < cfg0.N), n % 16 ≠ 15 →
    (∀ (r : Fin 1024) (q : Fin 2048), (outsAt0 m c n h).2.1 (ix2 r q) = upTo (fD m c (n / 16) r q) (n % 16 + 1))
    ∧ (∀ (r : Fin 1024) (p : Fin 128), (outsAt0 m c n h).2.2 (ix2 r p) = upTo (fP m c (n / 16) r p) (n % 16 + 1))
  | 0, h, _ => by
    have e : outsAt0 m c 0 h = _ := outsAt0_A m c ⟨0, h⟩ rfl (show ¬ (0 % 16 = 15) by decide)
    constructor
    · intro r q
      rw [e]; dsimp only
      rw [first_acc]
      refine (step_acc m c ⟨0, h⟩ (k0_pay1 (F := Ideal)) r q).trans ?_
      rw [pay1_apply, zero_add]
      exact (upTo_one _).symm
    · intro r p
      rw [e]; dsimp only
      rw [first_xa]
      refine (step_xa m c ⟨0, h⟩ (k0_pay2 (F := Ideal)) r p).trans ?_
      rw [pay2_apply, zero_add]
      exact (upTo_one _).symm
  | n + 1, h, hne => by
    have hN : n + 1 < 512 := lt_of_lt_of_eq h N_0
    by_cases h0 : (n + 1) % 16 = 0
    · have e : outsAt0 m c (n + 1) h = _ := outsAt0_A m c ⟨n + 1, h⟩ h0 hne
      constructor
      · intro r q
        rw [e]; dsimp only
        rw [first_acc]
        refine (step_acc m c ⟨n + 1, h⟩ (k0_pay1 (F := Ideal)) r q).trans ?_
        rw [pay1_apply, zero_add]
        dsimp only
        rw [h0]
        exact (upTo_one _).symm
      · intro r p
        rw [e]; dsimp only
        rw [first_xa]
        refine (step_xa m c ⟨n + 1, h⟩ (k0_pay2 (F := Ideal)) r p).trans ?_
        rw [pay2_apply, zero_add]
        dsimp only
        rw [h0]
        exact (upTo_one _).symm
    · have e : outsAt0 m c (n + 1) h = _ := outsAt0_B m c ⟨n + 1, h⟩ h0 hne
      obtain ⟨ih1, ih2⟩ := inv n (Nat.lt_of_succ_lt h) (by omega)
      have hb : (n + 1) / 16 = n / 16 := by omega
      have hk : (n + 1) % 16 = n % 16 + 1 := by omega
      constructor
      · intro r q
        rw [e]; dsimp only
        rw [mid_acc]
        refine (step_acc m c ⟨n + 1, h⟩ _ r q).trans ?_
        dsimp only
        rw [hb, hk, upTo_succ]
        exact congrArg (· + _) (ih1 r q)
      · intro r p
        rw [e]; dsimp only
        rw [mid_xa]
        refine (step_xa m c ⟨n + 1, h⟩ _ r p).trans ?_
        dsimp only
        rw [hb, hk, upTo_succ]
        exact congrArg (· + _) (ih2 r p)

/-! ## The last step of a block -/

/-- What the last step of block b leaves in the output block, entry (r, q): the specification's entry for token row
    `rowB b r` and output column `wrowB b q` (column `colB b q` of its slice). -/
theorem last_apply (t : Fin cfg0.N) (h15 : t.val % 16 = 15) (r : Fin 1024) (q : Fin 2048) :
    (outsAt0 m c t.val t.isLt).1 (ix2 r q)
      = dense (aX m c) (aW m c) (rowB (t.val / 16) r) (wrowB (t.val / 16) q)
        + lowRank (aX m c) (aTL m c) (aA m c (t.val / 16)) (aB m c (t.val / 16)) (rowB (t.val / 16) r) (colB (t.val / 16) q) := by
  have ht := t_lt t
  have h0 : ¬ t.val % 16 = 0 := by omega
  have e := outsAt0_C m c t h0 h15
  obtain ⟨ih1, ih2⟩ := inv m c (t.val - 1) (Nat.lt_of_le_of_lt (Nat.sub_le _ _) t.isLt) (by omega)
  have hb : (t.val - 1) / 16 = t.val / 16 := by omega
  have hk : (t.val - 1) % 16 + 1 = 15 := by omega
  rw [hb, hk] at ih1 ih2
  rw [e]; dsimp only
  rw [last_out]
  unfold lastValue
  rw [pay6_apply, pay7_apply]
  rw [step_acc m c t _ r q, ih1 r q, h15, ← upTo_succ]
  have e2 : ∀ p : Fin 128,
      k0_pay5 (iblk m c 0 t) (aCols (grid0.coords t) (iblk m c 3 t)) (outsAt0 m c (t.val - 1) (Nat.lt_of_le_of_lt (Nat.sub_le _ _) t.isLt)).2.2 (ix2 r p)
        = upTo (fP m c (t.val / 16) r p) 16 := fun p => by
    rw [step_xa m c t _ r p, ih2 r p, h15, ← upTo_succ]
  simp only [e2]
  rw [tlblk m c t r]
  have e3 : ∀ p : Fin 128, (iblk m c 4 t : S1x128x2048.Idx → EReal) (ix3 0 p q)
      = aB m c (t.val / 16) (ix3 (laneAdapter p) (colB (t.val / 16) q) (laneRank p)) := fun p => by
    rw [bblk m c t p q]
    rw [aB_at m c t]
    exact congrArg _ (ix3_congr rfl rfl rfl)
  simp only [e3]
  have e4 : (⟨t.val / 32 % 8 * 1024 + r.val, by omega⟩ : Fin 8192) = rowB (t.val / 16) r :=
    Fin.ext (by simp only [rowB]; omega)
  rw [e4]
  exact kernel_form (aX m c) (aTL m c) (aW m c) (aA m c (t.val / 16)) (aB m c (t.val / 16)) (rowB (t.val / 16) r)
    (wrowB (t.val / 16) q) (colB (t.val / 16) q)

/-! ## The result array -/

/-- The specification on core c's argument arrays. -/
abbrev spec : S8192x8192.Idx → EReal :=
  Cert.LoraSpec.out (aX m c) (aTL m c) (aW m c) (aA0 m c) (aA1 m c) (aB0 m c) (aB1 m c)

/-- The specification's entry at row `rowB b r`, column `wrowB b q`, for a block b < 32: the column lies in slice
    b / 16, at column `colB b q` of it. -/
theorem spec_block (b : ℕ) (hb : b < 32) (r : Fin 1024) (q : Fin 2048) :
    spec m c (ix2 (rowB b r) (wrowB b q))
      = dense (aX m c) (aW m c) (rowB b r) (wrowB b q)
        + lowRank (aX m c) (aTL m c) (aA m c b) (aB m c b) (rowB b r) (colB b q) := by
  have hq := q.isLt
  unfold spec Cert.LoraSpec.out aA aB
  by_cases hs : b / 16 = 0
  · have hlt : ((ix2 (rowB b r) (wrowB b q) : S8192x8192.Idx) 1).val < 4096 := by
      show (wrowB b q).val < 4096
      simp only [wrowB]; omega
    rw [dif_pos hlt, if_pos hs, if_pos hs]
    refine congrArg (_ + ·) (congrArg _ (Fin.ext ?_))
    show (wrowB b q).val = (colB b q).val
    simp only [wrowB, colB]; omega
  · have hlt : ¬ ((ix2 (rowB b r) (wrowB b q) : S8192x8192.Idx) 1).val < 4096 := by
      show ¬ (wrowB b q).val < 4096
      simp only [wrowB]; omega
    rw [dif_neg hlt, if_neg hs, if_neg hs]
    refine congrArg (_ + ·) (congrArg _ (Fin.ext ?_))
    show (wrowB b q).val - 4096 = (colB b q).val
    simp only [wrowB, colB]; omega

/-- What a block's last point writes back is the block of the specification. -/
theorem flushed_eq (t : Fin cfg0.N) (hf : (cfg0.win 5).flush t = true) :
    (dats m 0 c).flushed 5 t = ((cfg0.win 5).blk t).view.read (Elt Ideal) (spec m c) := by
  have h15 : t.val % 16 = 15 := (oflush t).mp hf
  have ht := t_lt t
  rw [Cert.KernelIdeal.Value.flushed5]
  funext y
  obtain ⟨r, q, rfl⟩ : ∃ (r : Fin 1024) (q : Fin 2048), y = ix2 r q := ⟨y 0, y 1, eq_ix2 y⟩
  show (outsAt0 m c t.val t.isLt).1 (ix2 r q) = spec m c (((cfg0.win 5).blk t).view.emb (ix2 r q))
  rw [oemb t (ix2 r q), last_apply m c t h15 r q, ← spec_block m c (t.val / 16) (by omega) r q]
  refine congrArg (spec m c) (ix2_congr ?_ ?_)
  · show (rowB (t.val / 16) r).val = t.val / 32 % 8 * 1024 + r.val
    simp only [rowB]; omega
  · show (wrowB (t.val / 16) q).val = (t.val / 256 * 2 + t.val / 16 % 2) * 2048 + q.val
    simp only [wrowB]; omega

/-- So the result array ends holding the specification: the 32 written-back blocks tile it. -/
theorem final : (dats m 0 c).arrAt 5 cfg0.N = spec m c :=
  (dats m 0 c).arrAt_eq_of_cover 5 (spec m c) (flushed_eq m c) ocover

/-- The run, read: the result array at the specification, the seven arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v14) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelSide

end
-- ==== Proof.RefOps.lean ====
/-
  The reference program as a list of array operations, cut into stretches.

  @main is a straight line of 306 operations: the dense product x · Wᵀ; then, for each of the two slices, a zero
  array, eight stretches of eighteen operations (one per adapter: compare the tokens' adapter numbers with l, cut
  adapter l out of the two tables, the two rank-16 products, keep the product on the tokens of adapter l, add it
  onto the running sum) and a closing stretch (times one, and added into the slice's columns of the result so
  far). The stretches are listed here one by one, each entry as the program prints it, and `ops` is their
  concatenation.
-/
import proofs.«110651_j74938589381272_2_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The dense product and the zero array the first slice's sum starts from (%0, %1, %cst, %2). -/
def wHead : List (HloOp τ sig (Elt F)) :=
  [ unary main_arg2 main_v0 ((transpose S4096x8192 [1, 0] · transposes_S8192x4096_S4096x8192_1_0) : (⟨S8192x4096, .f32⟩ : BufTy).Contents (Elt F) → (⟨S4096x8192, .f32⟩ : BufTy).Contents (Elt F)),
    binary main_arg0 main_v0 main_v1 ((fun l r => Host.dotGeneral dot_S8192x4096_S4096x8192_S8192x8192_1_0_0_1_n_n none l r) : (⟨S8192x4096, .f32⟩ : BufTy).Contents (Elt F) → (⟨S4096x8192, .f32⟩ : BufTy).Contents (Elt F) → (⟨S8192x8192, .f32⟩ : BufTy).Contents (Elt F)),
    nullary main_cst (constant S_ .f32 0x00000000#32),
    unary main_cst main_v2 (broadcastInDim S8192x4096 ![] bcast_S_S8192x4096 : (⟨S_, .f32⟩ : BufTy).Contents (Elt F) → (⟨S8192x4096, .f32⟩ : BufTy).Contents (Elt F)) ]

/-- Adapter 0 of slice 0: its mask, its two rank-16 products, the select, and the addition onto the running sum. -/
def w0_0 : List (HloOp τ sig (Elt F)) :=
  [ nullary main_c (constantI S_ 32 0#32),
    unary main_c main_v3 (broadcastInDim S8192 ![] bcast_S_S8192 : (⟨S_, .i32⟩ : BufTy).Contents (Elt F) → (⟨S8192, .i32⟩ : BufTy).Contents (Elt F)),
    binary main_arg1 main_v3 main_v4 (cmpi .eq : (⟨S8192, .i32⟩ : BufTy).Contents (Elt F) → (⟨S8192, .i32⟩ : BufTy).Contents (Elt F) → (⟨S8192, .i1⟩ : BufTy).Contents (Elt F)),
    unary main_v4 main_v5 (broadcastInDim S8192x1 ![0] bcast_S8192_S8192x1_0 : (⟨S8192, .i1⟩ : BufTy).Contents (Elt F) → (⟨S8192x1, .i1⟩ : BufTy).Contents (Elt F)),
    unary main_arg3 main_v6 ((extractStridedSlice S1x16x4096 ![0, 0, 0] · slices_S8x16x4096_S1x16x4096_0_0_0) : (⟨S8x16x4096, .f32⟩ : BufTy).Contents (Elt F) → (⟨S1x16x4096, .f32⟩ : BufTy).Contents (Elt F)),
    reshape main_v6 main_v7 rfl shapeCasts_S1x16x4096_S16x4096,
    unary main_v7 main_v8 ((transpose S4096x16 [1, 0] · transposes_S16x4096_S4096x16_1_0) : (⟨S16x4096, .f32⟩ : BufTy).Contents (Elt F) → (⟨S4096x16, .f32⟩ : BufTy).Contents (Elt F)),
    binary main_arg0 main_v8 main_v9 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v10 ((extractStridedSlice S1x4096x16 ![0, 0, 0] · slices_S8x4096x16_S1x4096x16_0_0_0) : (⟨S8x4096x16, .f32⟩ : BufTy).Contents (Elt F) → (⟨S1x4096x16, .f32⟩ : BufTy).Contents (Elt F)),
    reshape main_v10 main_v11 rfl shapeCasts_S1x4096x16_S4096x16,
    unary main_v11 main_v12 ((transpose S16x4096 [1, 0] · transposes_S4096x16_S16x4096_1_0) : (⟨S4096x16, .f32⟩ : BufTy).Contents (Elt F) → (⟨S16x4096, .f32⟩ : BufTy).Contents (Elt F)),
    binary main_v9 main_v12 main_v13 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_0 (constant S_ .f32 0x00000000#32),
    TRef.unary (TRef.of (T := ⟨S_, .f32⟩) main_cst_0) (TRef.of (T := ⟨S_, .f32⟩) main_call0_v0) id,
    TRef.unary (TRef.of (T := ⟨S8192x1, .i1⟩) main_v5) (TRef.of (T := ⟨S8192x4096, .i1⟩) main_call0_v1) (broadcastInDim S8192x4096 ![0, 1] bcast_S8192x1_S8192x4096_0_1),
    TRef.unary (TRef.of (T := ⟨S_, .f32⟩) main_call0_v0) (TRef.of (T := ⟨S8192x4096, .f32⟩) main_call0_v2) (broadcastInDim S8192x4096 ![] bcast_S_S8192x4096),
    TRef.ternary (TRef.of (T := ⟨S8192x4096, .i1⟩) main_call0_v1) (TRef.of (T := ⟨S8192x4096, .f32⟩) main_v13) (TRef.of (T := ⟨S8192x4096, .f32⟩) main_call0_v2) (TRef.of (T := ⟨S8192x4096, .f32⟩) main_v14) select,
    binary main_v2 main_v14 main_v15 (addf : (⟨S8192x4096, .f32⟩ : BufTy).Contents (Elt F) → (⟨S8192x4096, .f32⟩ : BufTy).Contents (Elt F) → (⟨S8192x4096, .f32⟩ : BufTy).Contents (Elt F)) ]

/-- Adapter 1 of slice 0: its mask, its two rank-16 products, the select, and the addition onto the running sum. -/
def w0_1 : List (HloOp τ sig (Elt F)) :=
  [ nullary main_c_1 (constantI S_ 32 1#32),
    unary main_c_1 main_v16 (broadcastInDim S8192 ![] bcast_S_S8192 : (⟨S_, .i32⟩ : BufTy).Contents (Elt F) → (⟨S8192, .i32⟩ : BufTy).Contents (Elt F)),
    binary main_arg1 main_v16 main_v17 (cmpi .eq : (⟨S8192, .i32⟩ : BufTy).Contents (Elt F) → (⟨S8192, .i32⟩ : BufTy).Contents (Elt F) → (⟨S8192, .i1⟩ : BufTy).Contents (Elt F)),
    unary main_v17 main_v18 (broadcastInDim S8192x1 ![0] bcast_S8192_S8192x1_0 : (⟨S8192, .i1⟩ : BufTy).Contents (Elt F) → (⟨S8192x1, .i1⟩ : BufTy).Contents (Elt F)),
    unary main_arg3 main_v19 ((extractStridedSlice S1x16x4096 ![1, 0, 0] · slices_S8x16x4096_S1x16x4096_1_0_0) : (⟨S8x16x4096, .f32⟩ : BufTy).Contents (Elt F) → (⟨S1x16x4096, .f32⟩ : BufTy).Contents (Elt F)),
    reshape main_v19 main_v20 rfl shapeCasts_S1x16x4096_S16x4096,
    unary main_v20 main_v21 ((transpose S4096x16 [1, 0] · transposes_S16x4096_S4096x16_1_0) : (⟨S16x4096, .f32⟩ : BufTy).Contents (Elt F) → (⟨S4096x16, .f32⟩ : BufTy).Contents (Elt F)),
    binary main_arg0 main_v21 main_v22 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v23 ((extractStridedSlice S1x4096x16 ![1, 0, 0] · slices_S8x4096x16_S1x4096x16_1_0_0) : (⟨S8x4096x16, .f32⟩ : BufTy).Contents (Elt F) → (⟨S1x4096x16, .f32⟩ : BufTy).Contents (Elt F)),
    reshape main_v23 main_v24 rfl shapeCasts_S1x4096x16_S4096x16,
    unary main_v24 main_v25 ((transpose S16x4096 [1, 0] · transposes_S4096x16_S16x4096_1_0) : (⟨S4096x16, .f32⟩ : BufTy).Contents (Elt F) → (⟨S16x4096, .f32⟩ : BufTy).Contents (Elt F)),
    binary main_v22 main_v25 main_v26 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_2 (constant S_ .f32 0x00000000#32),
    TRef.unary (TRef.of (T := ⟨S_, .f32⟩) main_cst_2) (TRef.of (T := ⟨S_, .f32⟩) main_call1_v0) id,
    TRef.unary (TRef.of (T := ⟨S8192x1, .i1⟩) main_v18) (TRef.of (T := ⟨S8192x4096, .i1⟩) main_call1_v1) (broadcastInDim S8192x4096 ![0, 1] bcast_S8192x1_S8192x4096_0_1),
    TRef.unary (TRef.of (T := ⟨S_, .f32⟩) main_call1_v0) (TRef.of (T := ⟨S8192x4096, .f32⟩) main_call1_v2) (broadcastInDim S8192x4096 ![] bcast_S_S8192x4096),
    TRef.ternary (TRef.of (T := ⟨S8192x4096, .i1⟩) main_call1_v1) (TRef.of (T := ⟨S8192x4096, .f32⟩) main_v26) (TRef.of (T := ⟨S8192x4096, .f32⟩) main_call1_v2) (TRef.of (T := ⟨S8192x4096, .f32⟩) main_v27) select,
    binary main_v15 main_v27 main_v28 (addf : (⟨S8192x4096, .f32⟩ : BufTy).Contents (Elt F) → (⟨S8192x4096, .f32⟩ : BufTy).Contents (Elt F) → (⟨S8192x4096, .f32⟩ : BufTy).Contents (Elt F)) ]

/-- Adapter 2 of slice 0: its mask, its two rank-16 products, the select, and the addition onto the running sum. -/
def w0_2 : List (HloOp τ sig (Elt F)) :=
  [ nullary main_c_3 (constantI S_ 32 2#32),
    unary main_c_3 main_v29 (broadcastInDim S8192 ![] bcast_S_S8192 : (⟨S_, .i32⟩ : BufTy).Contents (Elt F) → (⟨S8192, .i32⟩ : BufTy).Contents (Elt F)),
    binary main_arg1 main_v29 main_v30 (cmpi .eq : (⟨S8192, .i32⟩ : BufTy).Contents (Elt F) → (⟨S8192, .i32⟩ : BufTy).Contents (Elt F) → (⟨S8192, .i1⟩ : BufTy).Contents (Elt F)),
    unary main_v30 main_v31 (broadcastInDim S8192x1 ![0] bcast_S8192_S8192x1_0 : (⟨S8192, .i1⟩ : BufTy).Contents (Elt F) → (⟨S8192x1, .i1⟩ : BufTy).Contents (Elt F)),
    unary main_arg3 main_v32 ((extractStridedSlice S1x16x4096 ![2, 0, 0] · slices_S8x16x4096_S1x16x4096_2_0_0) : (⟨S8x16x4096, .f32⟩ : BufTy).Contents (Elt F) → (⟨S1x16x4096, .f32⟩ : BufTy).Contents (Elt F)),
    reshape main_v32 main_v33 rfl shapeCasts_S1x16x4096_S16x4096,
    unary main_v33 main_v34 ((transpose S4096x16 [1, 0] · transposes_S16x4096_S4096x16_1_0) : (⟨S16x4096, .f32⟩ : BufTy).Contents (Elt F) → (⟨S4096x16, .f32⟩ : BufTy).Contents (Elt F)),
    binary main_arg0 main_v34 main_v35 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v36 ((extractStridedSlice S1x4096x16 ![2, 0, 0] · slices_S8x4096x16_S1x4096x16_2_0_0) : (⟨S8x4096x16, .f32⟩ : BufTy).Contents (Elt F) → (⟨S1x4096x16, .f32⟩ : BufTy).Contents (Elt F)),
    reshape main_v36 main_v37 rfl shapeCasts_S1x4096x16_S4096x16,
    unary main_v37 main_v38 ((transpose S16x4096 [1, 0] · transposes_S4096x16_S16x4096_1_0) : (⟨S4096x16, .f32⟩ : BufTy).Contents (Elt F) → (⟨S16x4096, .f32⟩ : BufTy).Contents (Elt F)),
    binary main_v35 main_v38 main_v39 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S8192x1, .i1⟩) main_v31) (TRef.of (T := ⟨S8192x4096, .i1⟩) main_call2_v1) (broadcastInDim S8192x4096 ![0, 1] bcast_S8192x1_S8192x4096_0_1),
    TRef.unary (TRef.of (T := ⟨S_, .f32⟩) main_call2_v0) (TRef.of (T := ⟨S8192x4096, .f32⟩) main_call2_v2) (broadcastInDim S8192x4096 ![] bcast_S_S8192x4096),
    TRef.ternary (TRef.of (T := ⟨S8192x4096, .i1⟩) main_call2_v1) (TRef.of (T := ⟨S8192x4096, .f32⟩) main_v39) (TRef.of (T := ⟨S8192x4096, .f32⟩) main_call2_v2) (TRef.of (T := ⟨S8192x4096, .f32⟩) main_v40) select,
    binary main_v28 main_v40 main_v41 (addf : (⟨S8192x4096, .f32⟩ : BufTy).Contents (Elt F) → (⟨S8192x4096, .f32⟩ : BufTy).Contents (Elt F) → (⟨S8192x4096, .f32⟩ : BufTy).Contents (Elt F)) ]

/-- Adapter 3 of slice 0: its mask, its two rank-16 products, the select, and the addition onto the running sum. -/
def w0_3 : List (HloOp τ sig (Elt F)) :=
  [ nullary main_c_5 (constantI S_ 32 3#32),
    unary main_c_5 main_v42 (broadcastInDim S8192 ![] bcast_S_S8192 : (⟨S_, .i32⟩ : BufTy).Contents (Elt F) → (⟨S8192, .i32⟩ : BufTy).Contents (Elt F)),
    binary main_arg1 main_v42 main_v43 (cmpi .eq : (⟨S8192, .i32⟩ : BufTy).Contents (Elt F) → (⟨S8192, .i32⟩ : BufTy).Contents (Elt F) → (⟨S8192, .i1⟩ : BufTy).Contents (Elt F)),
    unary main_v43 main_v44 (broadcastInDim S8192x1 ![0] bcast_S8192_S8192x1_0 : (⟨S8192, .i1⟩ : BufTy).Contents (Elt F) → (⟨S8192x1, .i1⟩ : BufTy).Contents (Elt F)),
    unary main_arg3 main_v45 ((extractStridedSlice S1x16x4096 ![3, 0, 0] · slices_S8x16x4096_S1x16x4096_3_0_0) : (⟨S8x16x4096, .f32⟩ : BufTy).Contents (Elt F) → (⟨S1x16x4096, .f32⟩ : BufTy).Contents (Elt F)),
    reshape main_v45 main_v46 rfl shapeCasts_S1x16x4096_S16x4096,
    unary main_v46 main_v47 ((transpose S4096x16 [1, 0] · transposes_S16x4096_S4096x16_1_0) : (⟨S16x4096, .f32⟩ : BufTy).Contents (Elt F) → (⟨S4096x16, .f32⟩ : BufTy).Contents (Elt F)),
    binary main_arg0 main_v47 main_v48 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v49 ((extractStridedSlice S1x4096x16 ![3, 0, 0] · slices_S8x4096x16_S1x4096x16_3_0_0) : (⟨S8x4096x16, .f32⟩ : BufTy).Contents (Elt F) → (⟨S1x4096x16, .f32⟩ : BufTy).Contents (Elt F)),
    reshape main_v49 main_v50 rfl shapeCasts_S1x4096x16_S4096x16,
    unary main_v50 main_v51 ((transpose S16x4096 [1, 0] · transposes_S4096x16_S16x4096_1_0) : (⟨S4096x16, .f32⟩ : BufTy).Contents (Elt F) → (⟨S16x4096, .f32⟩ : BufTy).Contents (Elt F)),
    binary main_v48 main_v51 main_v52 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_6 (constant S_ .f32 0x00000000#32),
    TRef.unary (TRef.of (T := ⟨S_, .f32⟩) main_cst_6) (TRef.of (T := ⟨S_, .f32⟩) main_call3_v0) id,
    TRef.unary (TRef.of (T := ⟨S8192x1, .i1⟩) main_v44) (TRef.of (T := ⟨S8192x4096, .i1⟩) main_call3_v1) (broadcastInDim S8192x4096 ![0, 1] bcast_S8192x1_S8192x4096_0_1),
    TRef.unary (TRef.of (T := ⟨S_, .f32⟩) main_call3_v0) (TRef.of (T := ⟨S8192x4096, .f32⟩) main_call3_v2) (broadcastInDim S8192x4096 ![] bcast_S_S8192x4096),
    TRef.ternary (TRef.of (T := ⟨S8192x4096, .i1⟩) main_call3_v1) (TRef.of (T := ⟨S8192x4096, .f32⟩) main_v52) (TRef.of (T := ⟨S8192x4096, .f32⟩) main_call3_v2) (TRef.of (T := ⟨S8192x4096, .f32⟩) main_v53) select,
    binary main_v41 main_v53 main_v54 (addf : (⟨S8192x4096, .f32⟩ : BufTy).Contents (Elt F) → (⟨S8192x4096, .f32⟩ : BufTy).Contents (Elt F) → (⟨S8192x4096, .f32⟩ : BufTy).Contents (Elt F)) ]

/-- Adapter 4 of slice 0: its mask, its two rank-16 products, the select, and the addition onto the running sum. -/
def w0_4 : List (HloOp τ sig (Elt F)) :=
  [ nullary main_c_7 (constantI S_ 32 4#32),
    unary main_c_7 main_v55 (broadcastInDim S8192 ![] bcast_S_S8192 : (⟨S_, .i32⟩ : BufTy).Contents (Elt F) → (⟨S8192, .i32⟩ : BufTy).Contents (Elt F)),
    binary main_arg1 main_v55 main_v56 (cmpi .eq : (⟨S8192, .i32⟩ : BufTy).Contents (Elt F) → (⟨S8192, .i32⟩ : BufTy).Contents (Elt F) → (⟨S8192, .i1⟩ : BufTy).Contents (Elt F)),
    unary main_v56 main_v57 (broadcastInDim S8192x1 ![0] bcast_S8192_S8192x1_0 : (⟨S8192, .i1⟩ : BufTy).Contents (Elt F) → (⟨S8192x1, .i1⟩ : BufTy).Contents (Elt F)),
    unary main_arg3 main_v58 ((extractStridedSlice S1x16x4096 ![4, 0, 0] · slices_S8x16x4096_S1x16x4096_4_0_0) : (⟨S8x16x4096, .f32⟩ : BufTy).Contents (Elt F) → (⟨S1x16x4096, .f32⟩ : BufTy).Contents (Elt F)),
    reshape main_v58 main_v59 rfl shapeCasts_S1x16x4096_S16x4096,
    unary main_v59 main_v60 ((transpose S4096x16 [1, 0] · transposes_S16x4096_S4096x16_1_0) : (⟨S16x4096, .f32⟩ : BufTy).Contents (Elt F) → (⟨S4096x16, .f32⟩ : BufTy).Contents (Elt F)),
    binary main_arg0 main_v60 main_v61 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v62 ((extractStridedSlice S1x4096x16 ![4, 0, 0] · slices_S8x4096x16_S1x4096x16_4_0_0) : (⟨S8x4096x16, .f32⟩ : BufTy).Contents (Elt F) → (⟨S1x4096x16, .f32⟩ : BufTy).Contents (Elt F)),
    reshape main_v62 main_v63 rfl shapeCasts_S1x4096x16_S4096x16,
    unary main_v63 main_v64 ((transpose S16x4096 [1, 0] · transposes_S4096x16_S16x4096_1_0) : (⟨S4096x16, .f32⟩ : BufTy).Contents (Elt F) → (⟨S16x4096, .f32⟩ : BufTy).Contents (Elt F)),
    binary main_v61 main_v64 main_v65 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_8 (constant S_ .f32 0x00000000#32),
    TRef.unary (TRef.of (T := ⟨S_, .f32⟩) main_cst_8) (TRef.of (T := ⟨S_, .f32⟩) main_call4_v0) id,
    TRef.unary (TRef.of (T := ⟨S8192x1, .i1⟩) main_v57) (TRef.of (T := ⟨S8192x4096, .i1⟩) main_call4_v1) (broadcastInDim S8192x4096 ![0, 1] bcast_S8192x1_S8192x4096_0_1),
    TRef.unary (TRef.of (T := ⟨S_, .f32⟩) main_call4_v0) (TRef.of (T := ⟨S8192x4096, .f32⟩) main_call4_v2) (broadcastInDim S8192x4096 ![] bcast_S_S8192x4096),
    TRef.ternary (TRef.of (T := ⟨S8192x4096, .i1⟩) main_call4_v1) (TRef.of (T := ⟨S8192x4096, .f32⟩) main_v65) (TRef.of (T := ⟨S8192x4096, .f32⟩) main_call4_v2) (TRef.of (T := ⟨S8192x4096, .f32⟩) main_v66) select,
    binary main_v54 main_v66 main_v67 (addf : (⟨S8192x4096, .f32⟩ : BufTy).Contents (Elt F) → (⟨S8192x4096, .f32⟩ : BufTy).Contents (Elt F) → (⟨S8192x4096, .f32⟩ : BufTy).Contents (Elt F)) ]

/-- Adapter 5 of slice 0: its mask, its two rank-16 products, the select, and the addition onto the running sum. -/
def w0_5 : List (HloOp τ sig (Elt F)) :=
  [ nullary main_c_9 (constantI S_ 32 5#32),
    unary main_c_9 main_v68 (broadcastInDim S8192 ![] bcast_S_S8192 : (⟨S_, .i32⟩ : BufTy).Contents (Elt F) → (⟨S8192, .i32⟩ : BufTy).Contents (Elt F)),
    binary main_arg1 main_v68 main_v69 (cmpi .eq : (⟨S8192, .i32⟩ : BufTy).Contents (Elt F) → (⟨S8192, .i32⟩ : BufTy).Contents (Elt F) → (⟨S8192, .i1⟩ : BufTy).Contents (Elt F)),
    unary main_v69 main_v70 (broadcastInDim S8192x1 ![0] bcast_S8192_S8192x1_0 : (⟨S8192, .i1⟩ : BufTy).Contents (Elt F) → (⟨S8192x1, .i1⟩ : BufTy).Contents (Elt F)),
    unary main_arg3 main_v71 ((extractStridedSlice S1x16x4096 ![5, 0, 0] · slices_S8x16x4096_S1x16x4096_5_0_0) : (⟨S8x16x4096, .f32⟩ : BufTy).Contents (Elt F) → (⟨S1x16x4096, .f32⟩ : BufTy).Contents (Elt F)),
    reshape main_v71 main_v72 rfl shapeCasts_S1x16x4096_S16x4096,
    unary main_v72 main_v73 ((transpose S4096x16 [1, 0] · transposes_S16x4096_S4096x16_1_0) : (⟨S16x4096, .f32⟩ : BufTy).Contents (Elt F) → (⟨S4096x16, .f32⟩ : BufTy).Contents (Elt F)),
    binary main_arg0 main_v73 main_v74 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v75 ((extractStridedSlice S1x4096x16 ![5, 0, 0] · slices_S8x4096x16_S1x4096x16_5_0_0) : (⟨S8x4096x16, .f32⟩ : BufTy).Contents (Elt F) → (⟨S1x4096x16, .f32⟩ : BufTy).Contents (Elt F)),
    reshape main_v75 main_v76 rfl shapeCasts_S1x4096x16_S4096x16,
    unary main_v76 main_v77 ((transpose S16x4096 [1, 0] · transposes_S4096x16_S16x4096_1_0) : (⟨S4096x16, .f32⟩ : BufTy).Contents (Elt F) → (⟨S16x4096, .f32⟩ : BufTy).Contents (Elt F)),
    binary main_v74 main_v77 main_v78 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_10 (constant S_ .f32 0x00000000#32),
    TRef.unary (TRef.of (T := ⟨S_, .f32⟩) main_cst_10) (TRef.of (T := ⟨S_, .f32⟩) main_call5_v0) id,
    TRef.unary (TRef.of (T := ⟨S8192x1, .i1⟩) main_v70) (TRef.of (T := ⟨S8192x4096, .i1⟩) main_call5_v1) (broadcastInDim S8192x4096 ![0, 1] bcast_S8192x1_S8192x4096_0_1),
    TRef.unary (TRef.of (T := ⟨S_, .f32⟩) main_call5_v0) (TRef.of (T := ⟨S8192x4096, .f32⟩) main_call5_v2) (broadcastInDim S8192x4096 ![] bcast_S_S8192x4096),
    TRef.ternary (TRef.of (T := ⟨S8192x4096, .i1⟩) main_call5_v1) (TRef.of (T := ⟨S8192x4096, .f32⟩) main_v78) (TRef.of (T := ⟨S8192x4096, .f32⟩) main_call5_v2) (TRef.of (T := ⟨S8192x4096, .f32⟩) main_v79) select,
    binary main_v67 main_v79 main_v80 (addf : (⟨S8192x4096, .f32⟩ : BufTy).Contents (Elt F) → (⟨S8192x4096, .f32⟩ : BufTy).Contents (Elt F) → (⟨S8192x4096, .f32⟩ : BufTy).Contents (Elt F)) ]

/-- Adapter 6 of slice 0: its mask, its two rank-16 products, the select, and the addition onto the running sum. -/
def w0_6 : List (HloOp τ sig (Elt F)) :=
  [ nullary main_c_11 (constantI S_ 32 6#32),
    unary main_c_11 main_v81 (broadcastInDim S8192 ![] bcast_S_S8192 : (⟨S_, .i32⟩ : BufTy).Contents (Elt F) → (⟨S8192, .i32⟩ : BufTy).Contents (Elt F)),
    binary main_arg1 main_v81 main_v82 (cmpi .eq : (⟨S8192, .i32⟩ : BufTy).Contents (Elt F) → (⟨S8192, .i32⟩ : BufTy).Contents (Elt F) → (⟨S8192, .i1⟩ : BufTy).Contents (Elt F)),
    unary main_v82 main_v83 (broadcastInDim S8192x1 ![0] bcast_S8192_S8192x1_0 : (⟨S8192, .i1⟩ : BufTy).Contents (Elt F) → (⟨S8192x1, .i1⟩ : BufTy).Contents (Elt F)),
    unary main_arg3 main_v84 ((extractStridedSlice S1x16x4096 ![6, 0, 0] · slices_S8x16x4096_S1x16x4096_6_0_0) : (⟨S8x16x4096, .f32⟩ : BufTy).Contents (Elt F) → (⟨S1x16x4096, .f32⟩ : BufTy).Contents (Elt F)),
    reshape main_v84 main_v85 rfl shapeCasts_S1x16x4096_S16x4096,
    unary main_v85 main_v86 ((transpose S4096x16 [1, 0] · transposes_S16x4096_S4096x16_1_0) : (⟨S16x4096, .f32⟩ : BufTy).Contents (Elt F) → (⟨S4096x16, .f32⟩ : BufTy).Contents (Elt F)),
    binary main_arg0 main_v86 main_v87 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v88 ((extractStridedSlice S1x4096x16 ![6, 0, 0] · slices_S8x4096x16_S1x4096x16_6_0_0) : (⟨S8x4096x16, .f32⟩ : BufTy).Contents (Elt F) → (⟨S1x4096x16, .f32⟩ : BufTy).Contents (Elt F)),
    reshape main_v88 main_v89 rfl shapeCasts_S1x4096x16_S4096x16,
    unary main_v89 main_v90 ((transpose S16x4096 [1, 0] · transposes_S4096x16_S16x4096_1_0) : (⟨S4096x16, .f32⟩ : BufTy).Contents (Elt F) → (⟨S16x4096, .f32⟩ : BufTy).Contents (Elt F)),
    binary main_v87 main_v90 main_v91 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_12 (constant S_ .f32 0x00000000#32),
    TRef.unary (TRef.of (T := ⟨S_, .f32⟩) main_cst_12) (TRef.of (T := ⟨S_, .f32⟩) main_call6_v0) id,
    TRef.unary (TRef.of (T := ⟨S8192x1, .i1⟩) main_v83) (TRef.of (T := ⟨S8192x4096, .i1⟩) main_call6_v1) (broadcastInDim S8192x4096 ![0, 1] bcast_S8192x1_S8192x4096_0_1),
    TRef.unary (TRef.of (T := ⟨S_, .f32⟩) main_call6_v0) (TRef.of (T := ⟨S8192x4096, .f32⟩) main_call6_v2) (broadcastInDim S8192x4096 ![] bcast_S_S8192x4096),
    TRef.ternary (TRef.of (T := ⟨S8192x4096, .i1⟩) main_call6_v1) (TRef.of (T := ⟨S8192x4096, .f32⟩) main_v91) (TRef.of (T := ⟨S8192x4096, .f32⟩) main_call6_v2) (TRef.of (T := ⟨S8192x4096, .f32⟩) main_v92) select,
    binary main_v80 main_v92 main_v93 (addf : (⟨S8192x4096, .f32⟩ : BufTy).Contents (Elt F) → (⟨S8192x4096, .f32⟩ : BufTy).Contents (Elt F) → (⟨S8192x4096, .f32⟩ : BufTy).Contents (Elt F)) ]

/-- Adapter 7 of slice 0: its mask, its two rank-16 products, the select, and the addition onto the running sum. -/
def w0_7 : List (HloOp τ sig (Elt F)) :=
  [ nullary main_c_13 (constantI S_ 32 7#32),
    unary main_c_13 main_v94 (broadcastInDim S8192 ![] bcast_S_S8192 : (⟨S_, .i32⟩ : BufTy).Contents (Elt F) → (⟨S8192, .i32⟩ : BufTy).Contents (Elt F)),
    binary main_arg1 main_v94 main_v95 (cmpi .eq : (⟨S8192, .i32⟩ : BufTy).Contents (Elt F) → (⟨S8192, .i32⟩ : BufTy).Contents (Elt F) → (⟨S8192, .i1⟩ : BufTy).Contents (Elt F)),
    unary main_v95 main_v96 (broadcastInDim S8192x1 ![0] bcast_S8192_S8192x1_0 : (⟨S8192, .i1⟩ : BufTy).Contents (Elt F) → (⟨S8192x1, .i1⟩ : BufTy).Contents (Elt F)),
    unary main_arg3 main_v97 ((extractStridedSlice S1x16x4096 ![7, 0, 0] · slices_S8x16x4096_S1x16x4096_7_0_0) : (⟨S8x16x4096, .f32⟩ : BufTy).Contents (Elt F) → (⟨S1x16x4096, .f32⟩ : BufTy).Contents (Elt F)),
    reshape main_v97 main_v98 rfl shapeCasts_S1x16x4096_S16x4096,
    unary main_v98 main_v99 ((transpose S4096x16 [1, 0] · transposes_S16x4096_S4096x16_1_0) : (⟨S16x4096, .f32⟩ : BufTy).Contents (Elt F) → (⟨S4096x16, .f32⟩ : BufTy).Contents (Elt F)),
    binary main_arg0 main_v99 main_v100 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v101 ((extractStridedSlice S1x4096x16 ![7, 0, 0] · slices_S8x4096x16_S1x4096x16_7_0_0) : (⟨S8x4096x16, .f32⟩ : BufTy).Contents (Elt F) → (⟨S1x4096x16, .f32⟩ : BufTy).Contents (Elt F)),
    reshape main_v101 main_v102 rfl shapeCasts_S1x4096x16_S4096x16,
    unary main_v102 main_v103 ((transpose S16x4096 [1, 0] · transposes_S4096x16_S16x4096_1_0) : (⟨S4096x16, .f32⟩ : BufTy).Contents (Elt F) → (⟨S16x4096, .f32⟩ : BufTy).Contents (Elt F)),
    binary main_v100 main_v103 main_v104 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_14 (constant S_ .f32 0x00000000#32),
    TRef.unary (TRef.of (T := ⟨S_, .f32⟩) main_cst_14) (TRef.of (T := ⟨S_, .f32⟩) main_call7_v0) id,
    TRef.unary (TRef.of (T := ⟨S8192x1, .i1⟩) main_v96) (TRef.of (T := ⟨S8192x4096, .i1⟩) main_call7_v1) (broadcastInDim S8192x4096 ![0, 1] bcast_S8192x1_S8192x4096_0_1),
    TRef.unary (TRef.of (T := ⟨S_, .f32⟩) main_call7_v0) (TRef.of (T := ⟨S8192x4096, .f32⟩) main_call7_v2) (broadcastInDim S8192x4096 ![] bcast_S_S8192x4096),
    TRef.ternary (TRef.of (T := ⟨S8192x4096, .i1⟩) main_call7_v1) (TRef.of (T := ⟨S8192x4096, .f32⟩) main_v104) (TRef.of (T := ⟨S8192x4096, .f32⟩) main_call7_v2) (TRef.of (T := ⟨S8192x4096, .f32⟩) main_v105) select,
    binary main_v93 main_v105 main_v106 (addf : (⟨S8192x4096, .f32⟩ : BufTy).Contents (Elt F) → (⟨S8192x4096, .f32⟩ : BufTy).Contents (Elt F) → (⟨S8192x4096, .f32⟩ : BufTy).Contents (Elt F)) ]

/-- Slice 0's sum times one, added into columns 0 … 4095 of the dense product (%110). -/
def wTail0 : List (HloOp τ sig (Elt F)) :=
  [ nullary main_cst_15 (constant S_ .f32 0x3F800000#32),
    unary main_cst_15 main_v107 (broadcastInDim S8192x4096 ![] bcast_S_S8192x4096 : (⟨S_, .f32⟩ : BufTy).Contents (Elt F) → (⟨S8192x4096, .f32⟩ : BufTy).Contents (Elt F)),
    binary main_v107 main_v106 main_v108 (mulf : (⟨S8192x4096, .f32⟩ : BufTy).Contents (Elt F) → (⟨S8192x4096, .f32⟩ : BufTy).Contents (Elt F) → (⟨S8192x4096, .f32⟩ : BufTy).Contents (Elt F)),
    nullary main_c_16 (constantI S_ 32 0#32),
    unary main_c_16 main_v109 (broadcastInDim S1 ![] bcast_S_S1 : (⟨S_, .i32⟩ : BufTy).Contents (Elt F) → (⟨S1, .i32⟩ : BufTy).Contents (Elt F)),
    ternary main_v1 main_v109 main_v108 main_v110 ((fun x i u => Host.scatter scatter_S8192x8192_S1_S8192x4096_01_n_1_0 FloatOps.addf x i u) : (⟨S8192x8192, .f32⟩ : BufTy).Contents (Elt F) → (⟨S1, .i32⟩ : BufTy).Contents (Elt F) → (⟨S8192x4096, .f32⟩ : BufTy).Contents (Elt F) → (⟨S8192x8192, .f32⟩ : BufTy).Contents (Elt F)) ]

/-- The zero array the second slice's sum starts from (%cst_17, %111). -/
def wHead1 : List (HloOp τ sig (Elt F)) :=
  [ nullary main_cst_17 (constant S_ .f32 0x00000000#32),
    unary main_cst_17 main_v111 (broadcastInDim S8192x4096 ![] bcast_S_S8192x4096 : (⟨S_, .f32⟩ : BufTy).Contents (Elt F) → (⟨S8192x4096, .f32⟩ : BufTy).Contents (Elt F)) ]

/-- Adapter 0 of slice 1. -/
def w1_0 : List (HloOp τ sig (Elt F)) :=
  [ nullary main_c_18 (constantI S_ 32 0#32),
    unary main_c_18 main_v112 (broadcastInDim S8192 ![] bcast_S_S8192 : (⟨S_, .i32⟩ : BufTy).Contents (Elt F) → (⟨S8192, .i32⟩ : BufTy).Contents (Elt F)),
    binary main_arg1 main_v112 main_v113 (cmpi .eq : (⟨S8192, .i32⟩ : BufTy).Contents (Elt F) → (⟨S8192, .i32⟩ : BufTy).Contents (Elt F) → (⟨S8192, .i1⟩ : BufTy).Contents (Elt F)),
    unary main_v113 main_v114 (broadcastInDim S8192x1 ![0] bcast_S8192_S8192x1_0 : (⟨S8192, .i1⟩ : BufTy).Contents (Elt F) → (⟨S8192x1, .i1⟩ : BufTy).Contents (Elt F)),
    unary main_arg4 main_v115 ((extractStridedSlice S1x16x4096 ![0, 0, 0] · slices_S8x16x4096_S1x16x4096_0_0_0) : (⟨S8x16x4096, .f32⟩ : BufTy).Contents (Elt F) → (⟨S1x16x4096, .f32⟩ : BufTy).Contents (Elt F)),
    reshape main_v115 main_v116 rfl shapeCasts_S1x16x4096_S16x4096,
    unary main_v116 main_v117 ((transpose S4096x16 [1, 0] · transposes_S16x4096_S4096x16_1_0) : (⟨S16x4096, .f32⟩ : BufTy).Contents (Elt F) → (⟨S4096x16, .f32⟩ : BufTy).Contents (Elt F)),
    binary main_arg0 main_v117 main_v118 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v119 ((extractStridedSlice S1x4096x16 ![0, 0, 0] · slices_S8x4096x16_S1x4096x16_0_0_0) : (⟨S8x4096x16, .f32⟩ : BufTy).Contents (Elt F) → (⟨S1x4096x16, .f32⟩ : BufTy).Contents (Elt F)),
    reshape main_v119 main_v120 rfl shapeCasts_S1x4096x16_S4096x16,
    unary main_v120 main_v121 ((transpose S16x4096 [1, 0] · transposes_S4096x16_S16x4096_1_0) : (⟨S4096x16, .f32⟩ : BufTy).Contents (Elt F) → (⟨S16x4096, .f32⟩ : BufTy).Contents (Elt F)),
    binary main_v118 main_v121 main_v122 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_19 (constant S_ .f32 0x00000000#32),
    TRef.unary (TRef.of (T := ⟨S_, .f32⟩) main_cst_19) (TRef.of (T := ⟨S_, .f32⟩) main_call8_v0) id,
    TRef.unary (TRef.of (T := ⟨S8192x1, .i1⟩) main_v114) (TRef.of (T := ⟨S8192x4096, .i1⟩) main_call8_v1) (broadcastInDim S8192x4096 ![0, 1] bcast_S8192x1_S8192x4096_0_1),
    TRef.unary (TRef.of (T := ⟨S_, .f32⟩) main_call8_v0) (TRef.of (T := ⟨S8192x4096, .f32⟩) main_call8_v2) (broadcastInDim S8192x4096 ![] bcast_S_S8192x4096),
    TRef.ternary (TRef.of (T := ⟨S8192x4096, .i1⟩) main_call8_v1) (TRef.of (T := ⟨S8192x4096, .f32⟩) main_v122) (TRef.of (T := ⟨S8192x4096, .f32⟩) main_call8_v2) (TRef.of (T := ⟨S8192x4096, .f32⟩) main_v123) select,
    binary main_v111 main_v123 main_v124 (addf : (⟨S8192x4096, .f32⟩ : BufTy).Contents (Elt F) → (⟨S8192x4096, .f32⟩ : BufTy).Contents (Elt F) → (⟨S8192x4096, .f32⟩ : BufTy).Contents (Elt F)) ]

/-- Adapter 1 of slice 1. -/
def w1_1 : List (HloOp τ sig (Elt F)) :=
  [ nullary main_c_20 (constantI S_ 32 1#32),
    unary main_c_20 main_v125 (broadcastInDim S8192 ![] bcast_S_S8192 : (⟨S_, .i32⟩ : BufTy).Contents (Elt F) → (⟨S8192, .i32⟩ : BufTy).Contents (Elt F)),
    binary main_arg1 main_v125 main_v126 (cmpi .eq : (⟨S8192, .i32⟩ : BufTy).Contents (Elt F) → (⟨S8192, .i32⟩ : BufTy).Contents (Elt F) → (⟨S8192, .i1⟩ : BufTy).Contents (Elt F)),
    unary main_v126 main_v127 (broadcastInDim S8192x1 ![0] bcast_S8192_S8192x1_0 : (⟨S8192, .i1⟩ : BufTy).Contents (Elt F) → (⟨S8192x1, .i1⟩ : BufTy).Contents (Elt F)),
    unary main_arg4 main_v128 ((extractStridedSlice S1x16x4096 ![1, 0, 0] · slices_S8x16x4096_S1x16x4096_1_0_0) : (⟨S8x16x4096, .f32⟩ : BufTy).Contents (Elt F) → (⟨S1x16x4096, .f32⟩ : BufTy).Contents (Elt F)),
    reshape main_v128 main_v129 rfl shapeCasts_S1x16x4096_S16x4096,
    unary main_v129 main_v130 ((transpose S4096x16 [1, 0] · transposes_S16x4096_S4096x16_1_0) : (⟨S16x4096, .f32⟩ : BufTy).Contents (Elt F) → (⟨S4096x16, .f32⟩ : BufTy).Contents (Elt F)),
    binary main_arg0 main_v130 main_v131 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v132 ((extractStridedSlice S1x4096x16 ![1, 0, 0] · slices_S8x4096x16_S1x4096x16_1_0_0) : (⟨S8x4096x16, .f32⟩ : BufTy).Contents (Elt F) → (⟨S1x4096x16, .f32⟩ : BufTy).Contents (Elt F)),
    reshape main_v132 main_v133 rfl shapeCasts_S1x4096x16_S4096x16,
    unary main_v133 main_v134 ((transpose S16x4096 [1, 0] · transposes_S4096x16_S16x4096_1_0) : (⟨S4096x16, .f32⟩ : BufTy).Contents (Elt F) → (⟨S16x4096, .f32⟩ : BufTy).Contents (Elt F)),
    binary main_v131 main_v134 main_v135 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_21 (constant S_ .f32 0x00000000#32),
    TRef.unary (TRef.of (T := ⟨S_, .f32⟩) main_cst_21) (TRef.of (T := ⟨S_, .f32⟩) main_call9_v0) id,
    TRef.unary (TRef.of (T := ⟨S8192x1, .i1⟩) main_v127) (TRef.of (T := ⟨S8192x4096, .i1⟩) main_call9_v1) (broadcastInDim S8192x4096 ![0, 1] bcast_S8192x1_S8192x4096_0_1),
    TRef.unary (TRef.of (T := ⟨S_, .f32⟩) main_call9_v0) (TRef.of (T := ⟨S8192x4096, .f32⟩) main_call9_v2) (broadcastInDim S8192x4096 ![] bcast_S_S8192x4096),
    TRef.ternary (TRef.of (T := ⟨S8192x4096, .i1⟩) main_call9_v1) (TRef.of (T := ⟨S8192x4096, .f32⟩) main_v135) (TRef.of (T := ⟨S8192x4096, .f32⟩) main_call9_v2) (TRef.of (T := ⟨S8192x4096, .f32⟩) main_v136) select,
    binary main_v124 main_v136 main_v137 (addf : (⟨S8192x4096, .f32⟩ : BufTy).Contents (Elt F) → (⟨S8192x4096, .f32⟩ : BufTy).Contents (Elt F) → (⟨S8192x4096, .f32⟩ : BufTy).Contents (Elt F)) ]

/-- Adapter 2 of slice 1. -/
def w1_2 : List (HloOp τ sig (Elt F)) :=
  [ nullary main_c_22 (constantI S_ 32 2#32),
    unary main_c_22 main_v138 (broadcastInDim S8192 ![] bcast_S_S8192 : (⟨S_, .i32⟩ : BufTy).Contents (Elt F) → (⟨S8192, .i32⟩ : BufTy).Contents (Elt F)),
    binary main_arg1 main_v138 main_v139 (cmpi .eq : (⟨S8192, .i32⟩ : BufTy).Contents (Elt F) → (⟨S8192, .i32⟩ : BufTy).Contents (Elt F) → (⟨S8192, .i1⟩ : BufTy).Contents (Elt F)),
    unary main_v139 main_v140 (broadcastInDim S8192x1 ![0] bcast_S8192_S8192x1_0 : (⟨S8192, .i1⟩ : BufTy).Contents (Elt F) → (⟨S8192x1, .i1⟩ : BufTy).Contents (Elt F)),
    unary main_arg4 main_v141 ((extractStridedSlice S1x16x4096 ![2, 0, 0] · slices_S8x16x4096_S1x16x4096_2_0_0) : (⟨S8x16x4096, .f32⟩ : BufTy).Contents (Elt F) → (⟨S1x16x4096, .f32⟩ : BufTy).Contents (Elt F)),
    reshape main_v141 main_v142 rfl shapeCasts_S1x16x4096_S16x4096,
    unary main_v142 main_v143 ((transpose S4096x16 [1, 0] · transposes_S16x4096_S4096x16_1_0) : (⟨S16x4096, .f32⟩ : BufTy).Contents (Elt F) → (⟨S4096x16, .f32⟩ : BufTy).Contents (Elt F)),
    binary main_arg0 main_v143 main_v144 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v145 ((extractStridedSlice S1x4096x16 ![2, 0, 0] · slices_S8x4096x16_S1x4096x16_2_0_0) : (⟨S8x4096x16, .f32⟩ : BufTy).Contents (Elt F) → (⟨S1x4096x16, .f32⟩ : BufTy).Contents (Elt F)),
    reshape main_v145 main_v146 rfl shapeCasts_S1x4096x16_S4096x16,
    unary main_v146 main_v147 ((transpose S16x4096 [1, 0] · transposes_S4096x16_S16x4096_1_0) : (⟨S4096x16, .f32⟩ : BufTy).Contents (Elt F) → (⟨S16x4096, .f32⟩ : BufTy).Contents (Elt F)),
    binary main_v144 main_v147 main_v148 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_23 (constant S_ .f32 0x00000000#32),
    TRef.unary (TRef.of (T := ⟨S_, .f32⟩) main_cst_23) (TRef.of (T := ⟨S_, .f32⟩) main_call10_v0) id,
    TRef.unary (TRef.of (T := ⟨S8192x1, .i1⟩) main_v140) (TRef.of (T := ⟨S8192x4096, .i1⟩) main_call10_v1) (broadcastInDim S8192x4096 ![0, 1] bcast_S8192x1_S8192x4096_0_1),
    TRef.unary (TRef.of (T := ⟨S_, .f32⟩) main_call10_v0) (TRef.of (T := ⟨S8192x4096, .f32⟩) main_call10_v2) (broadcastInDim S8192x4096 ![] bcast_S_S8192x4096),
    TRef.ternary (TRef.of (T := ⟨S8192x4096, .i1⟩) main_call10_v1) (TRef.of (T := ⟨S8192x4096, .f32⟩) main_v148) (TRef.of (T := ⟨S8192x4096, .f32⟩) main_call10_v2) (TRef.of (T := ⟨S8192x4096, .f32⟩) main_v149) select,
    binary main_v137 main_v149 main_v150 (addf : (⟨S8192x4096, .f32⟩ : BufTy).Contents (Elt F) → (⟨S8192x4096, .f32⟩ : BufTy).Contents (Elt F) → (⟨S8192x4096, .f32⟩ : BufTy).Contents (Elt F)) ]

/-- Adapter 3 of slice 1. -/
def w1_3 : List (HloOp τ sig (Elt F)) :=
  [ nullary main_c_24 (constantI S_ 32 3#32),
    unary main_c_24 main_v151 (broadcastInDim S8192 ![] bcast_S_S8192 : (⟨S_, .i32⟩ : BufTy).Contents (Elt F) → (⟨S8192, .i32⟩ : BufTy).Contents (Elt F)),
    binary main_arg1 main_v151 main_v152 (cmpi .eq : (⟨S8192, .i32⟩ : BufTy).Contents (Elt F) → (⟨S8192, .i32⟩ : BufTy).Contents (Elt F) → (⟨S8192, .i1⟩ : BufTy).Contents (Elt F)),
    unary main_v152 main_v153 (broadcastInDim S8192x1 ![0] bcast_S8192_S8192x1_0 : (⟨S8192, .i1⟩ : BufTy).Contents (Elt F) → (⟨S8192x1, .i1⟩ : BufTy).Contents (Elt F)),
    unary main_arg4 main_v154 ((extractStridedSlice S1x16x4096 ![3, 0, 0] · slices_S8x16x4096_S1x16x4096_3_0_0) : (⟨S8x16x4096, .f32⟩ : BufTy).Contents (Elt F) → (⟨S1x16x4096, .f32⟩ : BufTy).Contents (Elt F)),
    reshape main_v154 main_v155 rfl shapeCasts_S1x16x4096_S16x4096,
    unary main_v155 main_v156 ((transpose S4096x16 [1, 0] · transposes_S16x4096_S4096x16_1_0) : (⟨S16x4096, .f32⟩ : BufTy).Contents (Elt F) → (⟨S4096x16, .f32⟩ : BufTy).Contents (Elt F)),
    binary main_arg0 main_v156 main_v157 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v158 ((extractStridedSlice S1x4096x16 ![3, 0, 0] · slices_S8x4096x16_S1x4096x16_3_0_0) : (⟨S8x4096x16, .f32⟩ : BufTy).Contents (Elt F) → (⟨S1x4096x16, .f32⟩ : BufTy).Contents (Elt F)),
    reshape main_v158 main_v159 rfl shapeCasts_S1x4096x16_S4096x16,
    unary main_v159 main_v160 ((transpose S16x4096 [1, 0] · transposes_S4096x16_S16x4096_1_0) : (⟨S4096x16, .f32⟩ : BufTy).Contents (Elt F) → (⟨S16x4096, .f32⟩ : BufTy).Contents (Elt F)),
    binary main_v157 main_v160 main_v161 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_25 (constant S_ .f32 0x00000000#32),
    TRef.unary (TRef.of (T := ⟨S_, .f32⟩) main_cst_25) (TRef.of (T := ⟨S_, .f32⟩) main_call11_v0) id,
    TRef.unary (TRef.of (T := ⟨S8192x1, .i1⟩) main_v153) (TRef.of (T := ⟨S8192x4096, .i1⟩) main_call11_v1) (broadcastInDim S8192x4096 ![0, 1] bcast_S8192x1_S8192x4096_0_1),
    TRef.unary (TRef.of (T := ⟨S_, .f32⟩) main_call11_v0) (TRef.of (T := ⟨S8192x4096, .f32⟩) main_call11_v2) (broadcastInDim S8192x4096 ![] bcast_S_S8192x4096),
    TRef.ternary (TRef.of (T := ⟨S8192x4096, .i1⟩) main_call11_v1) (TRef.of (T := ⟨S8192x4096, .f32⟩) main_v161) (TRef.of (T := ⟨S8192x4096, .f32⟩) main_call11_v2) (TRef.of (T := ⟨S8192x4096, .f32⟩) main_v162) select,
    binary main_v150 main_v162 main_v163 (addf : (⟨S8192x4096, .f32⟩ : BufTy).Contents (Elt F) → (⟨S8192x4096, .f32⟩ : BufTy).Contents (Elt F) → (⟨S8192x4096, .f32⟩ : BufTy).Contents (Elt F)) ]

/-- Adapter 4 of slice 1. -/
def w1_4 : List (HloOp τ sig (Elt F)) :=
  [ nullary main_c_26 (constantI S_ 32 4#32),
    unary main_c_26 main_v164 (broadcastInDim S8192 ![] bcast_S_S8192 : (⟨S_, .i32⟩ : BufTy).Contents (Elt F) → (⟨S8192, .i32⟩ : BufTy).Contents (Elt F)),
    binary main_arg1 main_v164 main_v165 (cmpi .eq : (⟨S8192, .i32⟩ : BufTy).Contents (Elt F) → (⟨S8192, .i32⟩ : BufTy).Contents (Elt F) → (⟨S8192, .i1⟩ : BufTy).Contents (Elt F)),
    unary main_v165 main_v166 (broadcastInDim S8192x1 ![0] bcast_S8192_S8192x1_0 : (⟨S8192, .i1⟩ : BufTy).Contents (Elt F) → (⟨S8192x1, .i1⟩ : BufTy).Contents (Elt F)),
    unary main_arg4 main_v167 ((extractStridedSlice S1x16x4096 ![4, 0, 0] · slices_S8x16x4096_S1x16x4096_4_0_0) : (⟨S8x16x4096, .f32⟩ : BufTy).Contents (Elt F) → (⟨S1x16x4096, .f32⟩ : BufTy).Contents (Elt F)),
    reshape main_v167 main_v168 rfl shapeCasts_S1x16x4096_S16x4096,
    unary main_v168 main_v169 ((transpose S4096x16 [1, 0] · transposes_S16x4096_S4096x16_1_0) : (⟨S16x4096, .f32⟩ : BufTy).Contents (Elt F) → (⟨S4096x16, .f32⟩ : BufTy).Contents (Elt F)),
    binary main_arg0 main_v169 main_v170 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v171 ((extractStridedSlice S1x4096x16 ![4, 0, 0] · slices_S8x4096x16_S1x4096x16_4_0_0) : (⟨S8x4096x16, .f32⟩ : BufTy).Contents (Elt F) → (⟨S1x4096x16, .f32⟩ : BufTy).Contents (Elt F)),
    reshape main_v171 main_v172 rfl shapeCasts_S1x4096x16_S4096x16,
    unary main_v172 main_v173 ((transpose S16x4096 [1, 0] · transposes_S4096x16_S16x4096_1_0) : (⟨S4096x16, .f32⟩ : BufTy).Contents (Elt F) → (⟨S16x4096, .f32⟩ : BufTy).Contents (Elt F)),
    binary main_v170 main_v173 main_v174 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_27 (constant S_ .f32 0x00000000#32),
    TRef.unary (TRef.of (T := ⟨S_, .f32⟩) main_cst_27) (TRef.of (T := ⟨S_, .f32⟩) main_call12_v0) id,
    TRef.unary (TRef.of (T := ⟨S8192x1, .i1⟩) main_v166) (TRef.of (T := ⟨S8192x4096, .i1⟩) main_call12_v1) (broadcastInDim S8192x4096 ![0, 1] bcast_S8192x1_S8192x4096_0_1),
    TRef.unary (TRef.of (T := ⟨S_, .f32⟩) main_call12_v0) (TRef.of (T := ⟨S8192x4096, .f32⟩) main_call12_v2) (broadcastInDim S8192x4096 ![] bcast_S_S8192x4096),
    TRef.ternary (TRef.of (T := ⟨S8192x4096, .i1⟩) main_call12_v1) (TRef.of (T := ⟨S8192x4096, .f32⟩) main_v174) (TRef.of (T := ⟨S8192x4096, .f32⟩) main_call12_v2) (TRef.of (T := ⟨S8192x4096, .f32⟩) main_v175) select,
    binary main_v163 main_v175 main_v176 (addf : (⟨S8192x4096, .f32⟩ : BufTy).Contents (Elt F) → (⟨S8192x4096, .f32⟩ : BufTy).Contents (Elt F) → (⟨S8192x4096, .f32⟩ : BufTy).Contents (Elt F)) ]

/-- Adapter 5 of slice 1. -/
def w1_5 : List (HloOp τ sig (Elt F)) :=
  [ nullary main_c_28 (constantI S_ 32 5#32),
    unary main_c_28 main_v177 (broadcastInDim S8192 ![] bcast_S_S8192 : (⟨S_, .i32⟩ : BufTy).Contents (Elt F) → (⟨S8192, .i32⟩ : BufTy).Contents (Elt F)),
    binary main_arg1 main_v177 main_v178 (cmpi .eq : (⟨S8192, .i32⟩ : BufTy).Contents (Elt F) → (⟨S8192, .i32⟩ : BufTy).Contents (Elt F) → (⟨S8192, .i1⟩ : BufTy).Contents (Elt F)),
    unary main_v178 main_v179 (broadcastInDim S8192x1 ![0] bcast_S8192_S8192x1_0 : (⟨S8192, .i1⟩ : BufTy).Contents (Elt F) → (⟨S8192x1, .i1⟩ : BufTy).Contents (Elt F)),
    unary main_arg4 main_v180 ((extractStridedSlice S1x16x4096 ![5, 0, 0] · slices_S8x16x4096_S1x16x4096_5_0_0) : (⟨S8x16x4096, .f32⟩ : BufTy).Contents (Elt F) → (⟨S1x16x4096, .f32⟩ : BufTy).Contents (Elt F)),
    reshape main_v180 main_v181 rfl shapeCasts_S1x16x4096_S16x4096,
    unary main_v181 main_v182 ((transpose S4096x16 [1, 0] · transposes_S16x4096_S4096x16_1_0) : (⟨S16x4096, .f32⟩ : BufTy).Contents (Elt F) → (⟨S4096x16, .f32⟩ : BufTy).Contents (Elt F)),
    binary main_arg0 main_v182 main_v183 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v184 ((extractStridedSlice S1x4096x16 ![5, 0, 0] · slices_S8x4096x16_S1x4096x16_5_0_0) : (⟨S8x4096x16, .f32⟩ : BufTy).Contents (Elt F) → (⟨S1x4096x16, .f32⟩ : BufTy).Contents (Elt F)),
    reshape main_v184 main_v185 rfl shapeCasts_S1x4096x16_S4096x16,
    unary main_v185 main_v186 ((transpose S16x4096 [1, 0] · transposes_S4096x16_S16x4096_1_0) : (⟨S4096x16, .f32⟩ : BufTy).Contents (Elt F) → (⟨S16x4096, .f32⟩ : BufTy).Contents (Elt F)),
    binary main_v183 main_v186 main_v187 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_29 (constant S_ .f32 0x00000000#32),
    TRef.unary (TRef.of (T := ⟨S_, .f32⟩) main_cst_29) (TRef.of (T := ⟨S_, .f32⟩) main_call13_v0) id,
    TRef.unary (TRef.of (T := ⟨S8192x1, .i1⟩) main_v179) (TRef.of (T := ⟨S8192x4096, .i1⟩) main_call13_v1) (broadcastInDim S8192x4096 ![0, 1] bcast_S8192x1_S8192x4096_0_1),
    TRef.unary (TRef.of (T := ⟨S_, .f32⟩) main_call13_v0) (TRef.of (T := ⟨S8192x4096, .f32⟩) main_call13_v2) (broadcastInDim S8192x4096 ![] bcast_S_S8192x4096),
    TRef.ternary (TRef.of (T := ⟨S8192x4096, .i1⟩) main_call13_v1) (TRef.of (T := ⟨S8192x4096, .f32⟩) main_v187) (TRef.of (T := ⟨S8192x4096, .f32⟩) main_call13_v2) (TRef.of (T := ⟨S8192x4096, .f32⟩) main_v188) select,
    binary main_v176 main_v188 main_v189 (addf : (⟨S8192x4096, .f32⟩ : BufTy).Contents (Elt F) → (⟨S8192x4096, .f32⟩ : BufTy).Contents (Elt F) → (⟨S8192x4096, .f32⟩ : BufTy).Contents (Elt F)) ]

/-- Adapter 6 of slice 1. -/
def w1_6 : List (HloOp τ sig (Elt F)) :=
  [ nullary main_c_30 (constantI S_ 32 6#32),
    unary main_c_30 main_v190 (broadcastInDim S8192 ![] bcast_S_S8192 : (⟨S_, .i32⟩ : BufTy).Contents (Elt F) → (⟨S8192, .i32⟩ : BufTy).Contents (Elt F)),
    binary main_arg1 main_v190 main_v191 (cmpi .eq : (⟨S8192, .i32⟩ : BufTy).Contents (Elt F) → (⟨S8192, .i32⟩ : BufTy).Contents (Elt F) → (⟨S8192, .i1⟩ : BufTy).Contents (Elt F)),
    unary main_v191 main_v192 (broadcastInDim S8192x1 ![0] bcast_S8192_S8192x1_0 : (⟨S8192, .i1⟩ : BufTy).Contents (Elt F) → (⟨S8192x1, .i1⟩ : BufTy).Contents (Elt F)),
    unary main_arg4 main_v193 ((extractStridedSlice S1x16x4096 ![6, 0, 0] · slices_S8x16x4096_S1x16x4096_6_0_0) : (⟨S8x16x4096, .f32⟩ : BufTy).Contents (Elt F) → (⟨S1x16x4096, .f32⟩ : BufTy).Contents (Elt F)),
    reshape main_v193 main_v194 rfl shapeCasts_S1x16x4096_S16x4096,
    unary main_v194 main_v195 ((transpose S4096x16 [1, 0] · transposes_S16x4096_S4096x16_1_0) : (⟨S16x4096, .f32⟩ : BufTy).Contents (Elt F) → (⟨S4096x16, .f32⟩ : BufTy).Contents (Elt F)),
    binary main_arg0 main_v195 main_v196 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v197 ((extractStridedSlice S1x4096x16 ![6, 0, 0] · slices_S8x4096x16_S1x4096x16_6_0_0) : (⟨S8x4096x16, .f32⟩ : BufTy).Contents (Elt F) → (⟨S1x4096x16, .f32⟩ : BufTy).Contents (Elt F)),
    reshape main_v197 main_v198 rfl shapeCasts_S1x4096x16_S4096x16,
    unary main_v198 main_v199 ((transpose S16x4096 [1, 0] · transposes_S4096x16_S16x4096_1_0) : (⟨S4096x16, .f32⟩ : BufTy).Contents (Elt F) → (⟨S16x4096, .f32⟩ : BufTy).Contents (Elt F)),
    binary main_v196 main_v199 main_v200 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_31 (constant S_ .f32 0x00000000#32),
    TRef.unary (TRef.of (T := ⟨S_, .f32⟩) main_cst_31) (TRef.of (T := ⟨S_, .f32⟩) main_call14_v0) id,
    TRef.unary (TRef.of (T := ⟨S8192x1, .i1⟩) main_v192) (TRef.of (T := ⟨S8192x4096, .i1⟩) main_call14_v1) (broadcastInDim S8192x4096 ![0, 1] bcast_S8192x1_S8192x4096_0_1),
    TRef.unary (TRef.of (T := ⟨S_, .f32⟩) main_call14_v0) (TRef.of (T := ⟨S8192x4096, .f32⟩) main_call14_v2) (broadcastInDim S8192x4096 ![] bcast_S_S8192x4096),
    TRef.ternary (TRef.of (T := ⟨S8192x4096, .i1⟩) main_call14_v1) (TRef.of (T := ⟨S8192x4096, .f32⟩) main_v200) (TRef.of (T := ⟨S8192x4096, .f32⟩) main_call14_v2) (TRef.of (T := ⟨S8192x4096, .f32⟩) main_v201) select,
    binary main_v189 main_v201 main_v202 (addf : (⟨S8192x4096, .f32⟩ : BufTy).Contents (Elt F) → (⟨S8192x4096, .f32⟩ : BufTy).Contents (Elt F) → (⟨S8192x4096, .f32⟩ : BufTy).Contents (Elt F)) ]

/-- Adapter 7 of slice 1. -/
def w1_7 : List (HloOp τ sig (Elt F)) :=
  [ nullary main_c_32 (constantI S_ 32 7#32),
    unary main_c_32 main_v203 (broadcastInDim S8192 ![] bcast_S_S8192 : (⟨S_, .i32⟩ : BufTy).Contents (Elt F) → (⟨S8192, .i32⟩ : BufTy).Contents (Elt F)),
    binary main_arg1 main_v203 main_v204 (cmpi .eq : (⟨S8192, .i32⟩ : BufTy).Contents (Elt F) → (⟨S8192, .i32⟩ : BufTy).Contents (Elt F) → (⟨S8192, .i1⟩ : BufTy).Contents (Elt F)),
    unary main_v204 main_v205 (broadcastInDim S8192x1 ![0] bcast_S8192_S8192x1_0 : (⟨S8192, .i1⟩ : BufTy).Contents (Elt F) → (⟨S8192x1, .i1⟩ : BufTy).Contents (Elt F)),
    unary main_arg4 main_v206 ((extractStridedSlice S1x16x4096 ![7, 0, 0] · slices_S8x16x4096_S1x16x4096_7_0_0) : (⟨S8x16x4096, .f32⟩ : BufTy).Contents (Elt F) → (⟨S1x16x4096, .f32⟩ : BufTy).Contents (Elt F)),
    reshape main_v206 main_v207 rfl shapeCasts_S1x16x4096_S16x4096,
    unary main_v207 main_v208 ((transpose S4096x16 [1, 0] · transposes_S16x4096_S4096x16_1_0) : (⟨S16x4096, .f32⟩ : BufTy).Contents (Elt F) → (⟨S4096x16, .f32⟩ : BufTy).Contents (Elt F)),
    binary main_arg0 main_v208 main_v209 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v210 ((extractStridedSlice S1x4096x16 ![7, 0, 0] · slices_S8x4096x16_S1x4096x16_7_0_0) : (⟨S8x4096x16, .f32⟩ : BufTy).Contents (Elt F) → (⟨S1x4096x16, .f32⟩ : BufTy).Contents (Elt F)),
    reshape main_v210 main_v211 rfl shapeCasts_S1x4096x16_S4096x16,
    unary main_v211 main_v212 ((transpose S16x4096 [1, 0] · transposes_S4096x16_S16x4096_1_0) : (⟨S4096x16, .f32⟩ : BufTy).Contents (Elt F) → (⟨S16x4096, .f32⟩ : BufTy).Contents (Elt F)),
    binary main_v209 main_v212 main_v213 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_33 (constant S_ .f32 0x00000000#32),
    TRef.unary (TRef.of (T := ⟨S_, .f32⟩) main_cst_33) (TRef.of (T := ⟨S_, .f32⟩) main_call15_v0) id,
    TRef.unary (TRef.of (T := ⟨S8192x1, .i1⟩) main_v205) (TRef.of (T := ⟨S8192x4096, .i1⟩) main_call15_v1) (broadcastInDim S8192x4096 ![0, 1] bcast_S8192x1_S8192x4096_0_1),
    TRef.unary (TRef.of (T := ⟨S_, .f32⟩) main_call15_v0) (TRef.of (T := ⟨S8192x4096, .f32⟩) main_call15_v2) (broadcastInDim S8192x4096 ![] bcast_S_S8192x4096),
    TRef.ternary (TRef.of (T := ⟨S8192x4096, .i1⟩) main_call15_v1) (TRef.of (T := ⟨S8192x4096, .f32⟩) main_v213) (TRef.of (T := ⟨S8192x4096, .f32⟩) main_call15_v2) (TRef.of (T := ⟨S8192x4096, .f32⟩) main_v214) select,
    binary main_v202 main_v214 main_v215 (addf : (⟨S8192x4096, .f32⟩ : BufTy).Contents (Elt F) → (⟨S8192x4096, .f32⟩ : BufTy).Contents (Elt F) → (⟨S8192x4096, .f32⟩ : BufTy).Contents (Elt F)) ]

/-- Slice 1's sum times one, added into columns 4096 … 8191 (%219, the result). -/
def wTail1 : List (HloOp τ sig (Elt F)) :=
  [ nullary main_cst_34 (constant S_ .f32 0x3F800000#32),
    unary main_cst_34 main_v216 (broadcastInDim S8192x4096 ![] bcast_S_S8192x4096 : (⟨S_, .f32⟩ : BufTy).Contents (Elt F) → (⟨S8192x4096, .f32⟩ : BufTy).Contents (Elt F)),
    binary main_v216 main_v215 main_v217 (mulf : (⟨S8192x4096, .f32⟩ : BufTy).Contents (Elt F) → (⟨S8192x4096, .f32⟩ : BufTy).Contents (Elt F) → (⟨S8192x4096, .f32⟩ : BufTy).Contents (Elt F)),
    nullary main_c_35 (constantI S_ 32 4096#32),
    unary main_c_35 main_v218 (broadcastInDim S1 ![] bcast_S_S1 : (⟨S_, .i32⟩ : BufTy).Contents (Elt F) → (⟨S1, .i32⟩ : BufTy).Contents (Elt F)),
    ternary main_v110 main_v218 main_v217 main_v219 ((fun x i u => Host.scatter scatter_S8192x8192_S1_S8192x4096_01_n_1_0 FloatOps.addf x i u) : (⟨S8192x8192, .f32⟩ : BufTy).Contents (Elt F) → (⟨S1, .i32⟩ : BufTy).Contents (Elt F) → (⟨S8192x4096, .f32⟩ : BufTy).Contents (Elt F) → (⟨S8192x8192, .f32⟩ : BufTy).Contents (Elt F)) ]

/-- The whole program: the stretches in order. -/
def ops : List (HloOp τ sig (Elt F)) :=
  wHead ++ w0_0 ++ w0_1 ++ w0_2 ++ w0_3 ++ w0_4 ++ w0_5 ++ w0_6 ++ w0_7 ++ wTail0 ++ wHead1 ++ w1_0 ++ w1_1 ++ w1_2 ++ w1_3 ++ w1_4 ++ w1_5 ++ w1_6 ++ w1_7 ++ wTail1

/-- Operations run one list after another are the concatenation run at once. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem scopedRefs_eq : (Finset.univ.filter fun b : Ref sig .tc => b.isScoped) = ∅ := by decide
theorem scopedSems_eq : (Finset.univ.filter fun sm : SemLoc sig => sm.isScoped .tc) = ∅ := by decide

end Cert.RefSide

end
-- ==== Proof.RefMainEq.lean ====
/-
  The reference program IS its list of operations run in order.

  @main is printed in five parts run one after the other, and a part may end in the middle of an adapter's stretch
  of operations. Cutting those four stretches in two at the parts' ends makes every part a run of whole stretches;
  each part then unfolds to exactly its stretches' entries, in order (a call of the outlined select contributes its
  four operations in place), the parts laid end to end are the list `ops` regrouped, and running lists one after
  the other is running their concatenation.
-/
import proofs.«110651_j74938589381272_2_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Adapter 3 of slice 0, up to where @main's part 0 ends. -/
def w0_3a : List (HloOp τ sig (Elt F)) :=
  [ nullary main_c_5 (constantI S_ 32 3#32),
    unary main_c_5 main_v42 (broadcastInDim S8192 ![] bcast_S_S8192 : (⟨S_, .i32⟩ : BufTy).Contents (Elt F) → (⟨S8192, .i32⟩ : BufTy).Contents (Elt F)),
    binary main_arg1 main_v42 main_v43 (cmpi .eq : (⟨S8192, .i32⟩ : BufTy).Contents (Elt F) → (⟨S8192, .i32⟩ : BufTy).Contents (Elt F) → (⟨S8192, .i1⟩ : BufTy).Contents (Elt F)),
    unary main_v43 main_v44 (broadcastInDim S8192x1 ![0] bcast_S8192_S8192x1_0 : (⟨S8192, .i1⟩ : BufTy).Contents (Elt F) → (⟨S8192x1, .i1⟩ : BufTy).Contents (Elt F)),
    unary main_arg3 main_v45 ((extractStridedSlice S1x16x4096 ![3, 0, 0] · slices_S8x16x4096_S1x16x4096_3_0_0) : (⟨S8x16x4096, .f32⟩ : BufTy).Contents (Elt F) → (⟨S1x16x4096, .f32⟩ : BufTy).Contents (Elt F)),
    reshape main_v45 main_v46 rfl shapeCasts_S1x16x4096_S16x4096,
    unary main_v46 main_v47 ((transpose S4096x16 [1, 0] · transposes_S16x4096_S4096x16_1_0) : (⟨S16x4096, .f32⟩ : BufTy).Contents (Elt F) → (⟨S4096x16, .f32⟩ : BufTy).Contents (Elt F)),
    binary main_arg0 main_v47 main_v48 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v49 ((extractStridedSlice S1x4096x16 ![3, 0, 0] · slices_S8x4096x16_S1x4096x16_3_0_0) : (⟨S8x4096x16, .f32⟩ : BufTy).Contents (Elt F) → (⟨S1x4096x16, .f32⟩ : BufTy).Contents (Elt F)),
    reshape main_v49 main_v50 rfl shapeCasts_S1x4096x16_S4096x16,
    unary main_v50 main_v51 ((transpose S16x4096 [1, 0] · transposes_S4096x16_S16x4096_1_0) : (⟨S4096x16, .f32⟩ : BufTy).Contents (Elt F) → (⟨S16x4096, .f32⟩ : BufTy).Contents (Elt F)) ]

/-- Adapter 3 of slice 0, the rest. -/
def w0_3b : List (HloOp τ sig (Elt F)) :=
  [ binary main_v48 main_v51 main_v52 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_6 (constant S_ .f32 0x00000000#32),
    TRef.unary (TRef.of (T := ⟨S_, .f32⟩) main_cst_6) (TRef.of (T := ⟨S_, .f32⟩) main_call3_v0) id,
    TRef.unary (TRef.of (T := ⟨S8192x1, .i1⟩) main_v44) (TRef.of (T := ⟨S8192x4096, .i1⟩) main_call3_v1) (broadcastInDim S8192x4096 ![0, 1] bcast_S8192x1_S8192x4096_0_1),
    TRef.unary (TRef.of (T := ⟨S_, .f32⟩) main_call3_v0) (TRef.of (T := ⟨S8192x4096, .f32⟩) main_call3_v2) (broadcastInDim S8192x4096 ![] bcast_S_S8192x4096),
    TRef.ternary (TRef.of (T := ⟨S8192x4096, .i1⟩) main_call3_v1) (TRef.of (T := ⟨S8192x4096, .f32⟩) main_v52) (TRef.of (T := ⟨S8192x4096, .f32⟩) main_call3_v2) (TRef.of (T := ⟨S8192x4096, .f32⟩) main_v53) select,
    binary main_v41 main_v53 main_v54 (addf : (⟨S8192x4096, .f32⟩ : BufTy).Contents (Elt F) → (⟨S8192x4096, .f32⟩ : BufTy).Contents (Elt F) → (⟨S8192x4096, .f32⟩ : BufTy).Contents (Elt F)) ]

/-- Adapter 7 of slice 0, up to where part 1 ends. -/
def w0_7a : List (HloOp τ sig (Elt F)) :=
  [ nullary main_c_13 (constantI S_ 32 7#32),
    unary main_c_13 main_v94 (broadcastInDim S8192 ![] bcast_S_S8192 : (⟨S_, .i32⟩ : BufTy).Contents (Elt F) → (⟨S8192, .i32⟩ : BufTy).Contents (Elt F)),
    binary main_arg1 main_v94 main_v95 (cmpi .eq : (⟨S8192, .i32⟩ : BufTy).Contents (Elt F) → (⟨S8192, .i32⟩ : BufTy).Contents (Elt F) → (⟨S8192, .i1⟩ : BufTy).Contents (Elt F)),
    unary main_v95 main_v96 (broadcastInDim S8192x1 ![0] bcast_S8192_S8192x1_0 : (⟨S8192, .i1⟩ : BufTy).Contents (Elt F) → (⟨S8192x1, .i1⟩ : BufTy).Contents (Elt F)),
    unary main_arg3 main_v97 ((extractStridedSlice S1x16x4096 ![7, 0, 0] · slices_S8x16x4096_S1x16x4096_7_0_0) : (⟨S8x16x4096, .f32⟩ : BufTy).Contents (Elt F) → (⟨S1x16x4096, .f32⟩ : BufTy).Contents (Elt F)),
    reshape main_v97 main_v98 rfl shapeCasts_S1x16x4096_S16x4096,
    unary main_v98 main_v99 ((transpose S4096x16 [1, 0] · transposes_S16x4096_S4096x16_1_0) : (⟨S16x4096, .f32⟩ : BufTy).Contents (Elt F) → (⟨S4096x16, .f32⟩ : BufTy).Contents (Elt F)),
    binary main_arg0 main_v99 main_v100 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg5 main_v101 ((extractStridedSlice S1x4096x16 ![7, 0, 0] · slices_S8x4096x16_S1x4096x16_7_0_0) : (⟨S8x4096x16, .f32⟩ : BufTy).Contents (Elt F) → (⟨S1x4096x16, .f32⟩ : BufTy).Contents (Elt F)),
    reshape main_v101 main_v102 rfl shapeCasts_S1x4096x16_S4096x16,
    unary main_v102 main_v103 ((transpose S16x4096 [1, 0] · transposes_S4096x16_S16x4096_1_0) : (⟨S4096x16, .f32⟩ : BufTy).Contents (Elt F) → (⟨S16x4096, .f32⟩ : BufTy).Contents (Elt F)) ]

/-- Adapter 7 of slice 0, the rest. -/
def w0_7b : List (HloOp τ sig (Elt F)) :=
  [ binary main_v100 main_v103 main_v104 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_14 (constant S_ .f32 0x00000000#32),
    TRef.unary (TRef.of (T := ⟨S_, .f32⟩) main_cst_14) (TRef.of (T := ⟨S_, .f32⟩) main_call7_v0) id,
    TRef.unary (TRef.of (T := ⟨S8192x1, .i1⟩) main_v96) (TRef.of (T := ⟨S8192x4096, .i1⟩) main_call7_v1) (broadcastInDim S8192x4096 ![0, 1] bcast_S8192x1_S8192x4096_0_1),
    TRef.unary (TRef.of (T := ⟨S_, .f32⟩) main_call7_v0) (TRef.of (T := ⟨S8192x4096, .f32⟩) main_call7_v2) (broadcastInDim S8192x4096 ![] bcast_S_S8192x4096),
    TRef.ternary (TRef.of (T := ⟨S8192x4096, .i1⟩) main_call7_v1) (TRef.of (T := ⟨S8192x4096, .f32⟩) main_v104) (TRef.of (T := ⟨S8192x4096, .f32⟩) main_call7_v2) (TRef.of (T := ⟨S8192x4096, .f32⟩) main_v105) select,
    binary main_v93 main_v105 main_v106 (addf : (⟨S8192x4096, .f32⟩ : BufTy).Contents (Elt F) → (⟨S8192x4096, .f32⟩ : BufTy).Contents (Elt F) → (⟨S8192x4096, .f32⟩ : BufTy).Contents (Elt F)) ]

/-- Adapter 3 of slice 1, up to where part 2 ends. -/
def w1_3a : List (HloOp τ sig (Elt F)) :=
  [ nullary main_c_24 (constantI S_ 32 3#32),
    unary main_c_24 main_v151 (broadcastInDim S8192 ![] bcast_S_S8192 : (⟨S_, .i32⟩ : BufTy).Contents (Elt F) → (⟨S8192, .i32⟩ : BufTy).Contents (Elt F)),
    binary main_arg1 main_v151 main_v152 (cmpi .eq : (⟨S8192, .i32⟩ : BufTy).Contents (Elt F) → (⟨S8192, .i32⟩ : BufTy).Contents (Elt F) → (⟨S8192, .i1⟩ : BufTy).Contents (Elt F)) ]

/-- Adapter 3 of slice 1, the rest. -/
def w1_3b : List (HloOp τ sig (Elt F)) :=
  [ unary main_v152 main_v153 (broadcastInDim S8192x1 ![0] bcast_S8192_S8192x1_0 : (⟨S8192, .i1⟩ : BufTy).Contents (Elt F) → (⟨S8192x1, .i1⟩ : BufTy).Contents (Elt F)),
    unary main_arg4 main_v154 ((extractStridedSlice S1x16x4096 ![3, 0, 0] · slices_S8x16x4096_S1x16x4096_3_0_0) : (⟨S8x16x4096, .f32⟩ : BufTy).Contents (Elt F) → (⟨S1x16x4096, .f32⟩ : BufTy).Contents (Elt F)),
    reshape main_v154 main_v155 rfl shapeCasts_S1x16x4096_S16x4096,
    unary main_v155 main_v156 ((transpose S4096x16 [1, 0] · transposes_S16x4096_S4096x16_1_0) : (⟨S16x4096, .f32⟩ : BufTy).Contents (Elt F) → (⟨S4096x16, .f32⟩ : BufTy).Contents (Elt F)),
    binary main_arg0 main_v156 main_v157 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v158 ((extractStridedSlice S1x4096x16 ![3, 0, 0] · slices_S8x4096x16_S1x4096x16_3_0_0) : (⟨S8x4096x16, .f32⟩ : BufTy).Contents (Elt F) → (⟨S1x4096x16, .f32⟩ : BufTy).Contents (Elt F)),
    reshape main_v158 main_v159 rfl shapeCasts_S1x4096x16_S4096x16,
    unary main_v159 main_v160 ((transpose S16x4096 [1, 0] · transposes_S4096x16_S16x4096_1_0) : (⟨S4096x16, .f32⟩ : BufTy).Contents (Elt F) → (⟨S16x4096, .f32⟩ : BufTy).Contents (Elt F)),
    binary main_v157 main_v160 main_v161 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_25 (constant S_ .f32 0x00000000#32),
    TRef.unary (TRef.of (T := ⟨S_, .f32⟩) main_cst_25) (TRef.of (T := ⟨S_, .f32⟩) main_call11_v0) id,
    TRef.unary (TRef.of (T := ⟨S8192x1, .i1⟩) main_v153) (TRef.of (T := ⟨S8192x4096, .i1⟩) main_call11_v1) (broadcastInDim S8192x4096 ![0, 1] bcast_S8192x1_S8192x4096_0_1),
    TRef.unary (TRef.of (T := ⟨S_, .f32⟩) main_call11_v0) (TRef.of (T := ⟨S8192x4096, .f32⟩) main_call11_v2) (broadcastInDim S8192x4096 ![] bcast_S_S8192x4096),
    TRef.ternary (TRef.of (T := ⟨S8192x4096, .i1⟩) main_call11_v1) (TRef.of (T := ⟨S8192x4096, .f32⟩) main_v161) (TRef.of (T := ⟨S8192x4096, .f32⟩) main_call11_v2) (TRef.of (T := ⟨S8192x4096, .f32⟩) main_v162) select,
    binary main_v150 main_v162 main_v163 (addf : (⟨S8192x4096, .f32⟩ : BufTy).Contents (Elt F) → (⟨S8192x4096, .f32⟩ : BufTy).Contents (Elt F) → (⟨S8192x4096, .f32⟩ : BufTy).Contents (Elt F)) ]

/-- Adapter 7 of slice 1, up to where part 3 ends. -/
def w1_7a : List (HloOp τ sig (Elt F)) :=
  [ nullary main_c_32 (constantI S_ 32 7#32),
    unary main_c_32 main_v203 (broadcastInDim S8192 ![] bcast_S_S8192 : (⟨S_, .i32⟩ : BufTy).Contents (Elt F) → (⟨S8192, .i32⟩ : BufTy).Contents (Elt F)),
    binary main_arg1 main_v203 main_v204 (cmpi .eq : (⟨S8192, .i32⟩ : BufTy).Contents (Elt F) → (⟨S8192, .i32⟩ : BufTy).Contents (Elt F) → (⟨S8192, .i1⟩ : BufTy).Contents (Elt F)) ]

/-- Adapter 7 of slice 1, the rest. -/
def w1_7b : List (HloOp τ sig (Elt F)) :=
  [ unary main_v204 main_v205 (broadcastInDim S8192x1 ![0] bcast_S8192_S8192x1_0 : (⟨S8192, .i1⟩ : BufTy).Contents (Elt F) → (⟨S8192x1, .i1⟩ : BufTy).Contents (Elt F)),
    unary main_arg4 main_v206 ((extractStridedSlice S1x16x4096 ![7, 0, 0] · slices_S8x16x4096_S1x16x4096_7_0_0) : (⟨S8x16x4096, .f32⟩ : BufTy).Contents (Elt F) → (⟨S1x16x4096, .f32⟩ : BufTy).Contents (Elt F)),
    reshape main_v206 main_v207 rfl shapeCasts_S1x16x4096_S16x4096,
    unary main_v207 main_v208 ((transpose S4096x16 [1, 0] · transposes_S16x4096_S4096x16_1_0) : (⟨S16x4096, .f32⟩ : BufTy).Contents (Elt F) → (⟨S4096x16, .f32⟩ : BufTy).Contents (Elt F)),
    binary main_arg0 main_v208 main_v209 ((fun l r => Host.dotGeneral dot_S8192x4096_S4096x16_S8192x16_1_0_0_1_n_n none l r) : (⟨S8192x4096, .f32⟩ : BufTy).Contents (Elt F) → (⟨S4096x16, .f32⟩ : BufTy).Contents (Elt F) → (⟨S8192x16, .f32⟩ : BufTy).Contents (Elt F)),
    unary main_arg6 main_v210 ((extractStridedSlice S1x4096x16 ![7, 0, 0] · slices_S8x4096x16_S1x4096x16_7_0_0) : (⟨S8x4096x16, .f32⟩ : BufTy).Contents (Elt F) → (⟨S1x4096x16, .f32⟩ : BufTy).Contents (Elt F)),
    reshape main_v210 main_v211 rfl shapeCasts_S1x4096x16_S4096x16,
    unary main_v211 main_v212 ((transpose S16x4096 [1, 0] · transposes_S4096x16_S16x4096_1_0) : (⟨S4096x16, .f32⟩ : BufTy).Contents (Elt F) → (⟨S16x4096, .f32⟩ : BufTy).Contents (Elt F)),
    binary main_v209 main_v212 main_v213 ((fun l r => Host.dotGeneral dot_S8192x16_S16x4096_S8192x4096_1_0_0_1_n_n none l r) : (⟨S8192x16, .f32⟩ : BufTy).Contents (Elt F) → (⟨S16x4096, .f32⟩ : BufTy).Contents (Elt F) → (⟨S8192x4096, .f32⟩ : BufTy).Contents (Elt F)),
    nullary main_cst_33 (constant S_ .f32 0x00000000#32),
    TRef.unary (TRef.of (T := ⟨S_, .f32⟩) main_cst_33) (TRef.of (T := ⟨S_, .f32⟩) main_call15_v0) id,
    TRef.unary (TRef.of (T := ⟨S8192x1, .i1⟩) main_v205) (TRef.of (T := ⟨S8192x4096, .i1⟩) main_call15_v1) (broadcastInDim S8192x4096 ![0, 1] bcast_S8192x1_S8192x4096_0_1),
    TRef.unary (TRef.of (T := ⟨S_, .f32⟩) main_call15_v0) (TRef.of (T := ⟨S8192x4096, .f32⟩) main_call15_v2) (broadcastInDim S8192x4096 ![] bcast_S_S8192x4096),
    TRef.ternary (TRef.of (T := ⟨S8192x4096, .i1⟩) main_call15_v1) (TRef.of (T := ⟨S8192x4096, .f32⟩) main_v213) (TRef.of (T := ⟨S8192x4096, .f32⟩) main_call15_v2) (TRef.of (T := ⟨S8192x4096, .f32⟩) main_v214) select,
    binary main_v202 main_v214 main_v215 (addf : (⟨S8192x4096, .f32⟩ : BufTy).Contents (Elt F) → (⟨S8192x4096, .f32⟩ : BufTy).Contents (Elt F) → (⟨S8192x4096, .f32⟩ : BufTy).Contents (Elt F)) ]

/-- A stretch cut in two is the two pieces in order. -/
theorem w0_3_split : w0_3 (F := F) = w0_3a ++ w0_3b := rfl
theorem w0_7_split : w0_7 (F := F) = w0_7a ++ w0_7b := rfl
theorem w1_3_split : w1_3 (F := F) = w1_3a ++ w1_3b := rfl
theorem w1_7_split : w1_7 (F := F) = w1_7a ++ w1_7b := rfl

/-- The operations of @main's part 0: whole stretches, in order. -/
def part0 : List (HloOp τ sig (Elt F)) := wHead ++ w0_0 ++ w0_1 ++ w0_2 ++ w0_3a

set_option maxRecDepth 8192 in
set_option maxHeartbeats 4000000 in
theorem part0_eq (c : Dev nD) : main_part0 (F := F) c = seq (part0 (F := F)) := rfl

/-- The operations of @main's part 1: whole stretches, in order. -/
def part1 : List (HloOp τ sig (Elt F)) := w0_3b ++ w0_4 ++ w0_5 ++ w0_6 ++ w0_7a

set_option maxRecDepth 8192 in
set_option maxHeartbeats 4000000 in
theorem part1_eq (c : Dev nD) : main_part1 (F := F) c = seq (part1 (F := F)) := rfl

/-- The operations of @main's part 2: whole stretches, in order. -/
def part2 : List (HloOp τ sig (Elt F)) := w0_7b ++ wTail0 ++ wHead1 ++ w1_0 ++ w1_1 ++ w1_2 ++ w1_3a

set_option maxRecDepth 8192 in
set_option maxHeartbeats 4000000 in
theorem part2_eq (c : Dev nD) : main_part2 (F := F) c = seq (part2 (F := F)) := rfl

/-- The operations of @main's part 3: whole stretches, in order. -/
def part3 : List (HloOp τ sig (Elt F)) := w1_3b ++ w1_4 ++ w1_5 ++ w1_6 ++ w1_7a

set_option maxRecDepth 8192 in
set_option maxHeartbeats 4000000 in
theorem part3_eq (c : Dev nD) : main_part3 (F := F) c = seq (part3 (F := F)) := rfl

/-- The operations of @main's part 4: whole stretches, in order. -/
def part4 : List (HloOp τ sig (Elt F)) := w1_7b ++ wTail1

set_option maxRecDepth 8192 in
set_option maxHeartbeats 4000000 in
theorem part4_eq (c : Dev nD) : main_part4 (F := F) c = seq (part4 (F := F)) := rfl

attribute [local irreducible] wHead w0_0 w0_1 w0_2 w0_3 w0_4 w0_5 w0_6 w0_7 wTail0 wHead1 w1_0 w1_1 w1_2 w1_3 w1_4 w1_5 w1_6 w1_7 wTail1 w0_3a w0_3b w0_7a w0_7b w1_3a w1_3b w1_7a w1_7b

/-- The list of all operations, regrouped by printed part. -/
theorem ops_eq_parts : ops (F := F) = part0 ++ (part1 ++ (part2 ++ (part3 ++ part4))) := by
  unfold ops part0 part1 part2 part3 part4
  rw [w0_3_split, w0_7_split, w1_3_split, w1_7_split]
  simp only [List.append_assoc]

/-- The program is its list of operations run in order. -/
theorem main_eq (c : Dev nD) : main (F := F) c = seq (ops (F := F)) := by
  rw [ops_eq_parts, seq_append, seq_append, seq_append, seq_append,
    ← part0_eq c, ← part1_eq c, ← part2_eq c, ← part3_eq c, ← part4_eq c]
  rfl

end Cert.RefSide

end
-- ==== Proof.RefOpsFacts.lean ====
/-
  Two side facts about the reference's list of operations, stretch by stretch and then for the whole list: every
  operation reads and writes only buffers of the TensorCore's own, and every operation determines what it writes
  (none allocates a fresh buffer). Both are read off the entries one by one.
-/
import proofs.«110651_j74938589381272_2_alg».proof.Proof.RefOps

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem wHead_sub : (wHead (F := F)).Forall fun op => op.bufs ⊆ tcRefs τ sig := by
  unfold wHead
  exact ⟨unary_bufs_sub .., binary_bufs_sub .., nullary_bufs_sub .., unary_bufs_sub ..⟩

theorem wHead_fresh : ∀ op ∈ wHead (F := F), op.fresh = ∅ := by
  unfold wHead
  intro _ h
  (repeat (cases h with | head => rfl | tail _ h => ?_))
  exact nomatch h

set_option maxRecDepth 8192 in
theorem w0_0_sub : (w0_0 (F := F)).Forall fun op => op.bufs ⊆ tcRefs τ sig := by
  unfold w0_0
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w0_0_fresh : ∀ op ∈ w0_0 (F := F), op.fresh = ∅ := by
  unfold w0_0
  intro _ h
  (repeat (cases h with | head => rfl | tail _ h => ?_))
  exact nomatch h

set_option maxRecDepth 8192 in
theorem w0_1_sub : (w0_1 (F := F)).Forall fun op => op.bufs ⊆ tcRefs τ sig := by
  unfold w0_1
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w0_1_fresh : ∀ op ∈ w0_1 (F := F), op.fresh = ∅ := by
  unfold w0_1
  intro _ h
  (repeat (cases h with | head => rfl | tail _ h => ?_))
  exact nomatch h

set_option maxRecDepth 8192 in
theorem w0_2_sub : (w0_2 (F := F)).Forall fun op => op.bufs ⊆ tcRefs τ sig := by
  unfold w0_2
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w0_2_fresh : ∀ op ∈ w0_2 (F := F), op.fresh = ∅ := by
  unfold w0_2
  intro _ h
  (repeat (cases h with | head => rfl | tail _ h => ?_))
  exact nomatch h

set_option maxRecDepth 8192 in
theorem w0_3_sub : (w0_3 (F := F)).Forall fun op => op.bufs ⊆ tcRefs τ sig := by
  unfold w0_3
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w0_3_fresh : ∀ op ∈ w0_3 (F := F), op.fresh = ∅ := by
  unfold w0_3
  intro _ h
  (repeat (cases h with | head => rfl | tail _ h => ?_))
  exact nomatch h

set_option maxRecDepth 8192 in
theorem w0_4_sub : (w0_4 (F := F)).Forall fun op => op.bufs ⊆ tcRefs τ sig := by
  unfold w0_4
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w0_4_fresh : ∀ op ∈ w0_4 (F := F), op.fresh = ∅ := by
  unfold w0_4
  intro _ h
  (repeat (cases h with | head => rfl | tail _ h => ?_))
  exact nomatch h

set_option maxRecDepth 8192 in
theorem w0_5_sub : (w0_5 (F := F)).Forall fun op => op.bufs ⊆ tcRefs τ sig := by
  unfold w0_5
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w0_5_fresh : ∀ op ∈ w0_5 (F := F), op.fresh = ∅ := by
  unfold w0_5
  intro _ h
  (repeat (cases h with | head => rfl | tail _ h => ?_))
  exact nomatch h

set_option maxRecDepth 8192 in
theorem w0_6_sub : (w0_6 (F := F)).Forall fun op => op.bufs ⊆ tcRefs τ sig := by
  unfold w0_6
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w0_6_fresh : ∀ op ∈ w0_6 (F := F), op.fresh = ∅ := by
  unfold w0_6
  intro _ h
  (repeat (cases h with | head => rfl | tail _ h => ?_))
  exact nomatch h

set_option maxRecDepth 8192 in
theorem w0_7_sub : (w0_7 (F := F)).Forall fun op => op.bufs ⊆ tcRefs τ sig := by
  unfold w0_7
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w0_7_fresh : ∀ op ∈ w0_7 (F := F), op.fresh = ∅ := by
  unfold w0_7
  intro _ h
  (repeat (cases h with | head => rfl | tail _ h => ?_))
  exact nomatch h

set_option maxRecDepth 8192 in
theorem wTail0_sub : (wTail0 (F := F)).Forall fun op => op.bufs ⊆ tcRefs τ sig := by
  unfold wTail0
  exact ⟨nullary_bufs_sub .., unary_bufs_sub .., binary_bufs_sub .., nullary_bufs_sub .., unary_bufs_sub .., ternary_bufs_sub ..⟩

theorem wTail0_fresh : ∀ op ∈ wTail0 (F := F), op.fresh = ∅ := by
  unfold wTail0
  intro _ h
  (repeat (cases h with | head => rfl | tail _ h => ?_))
  exact nomatch h

set_option maxRecDepth 8192 in
theorem wHead1_sub : (wHead1 (F := F)).Forall fun op => op.bufs ⊆ tcRefs τ sig := by
  unfold wHead1
  exact ⟨nullary_bufs_sub .., unary_bufs_sub ..⟩

theorem wHead1_fresh : ∀ op ∈ wHead1 (F := F), op.fresh = ∅ := by
  unfold wHead1
  intro _ h
  (repeat (cases h with | head => rfl | tail _ h => ?_))
  exact nomatch h

set_option maxRecDepth 8192 in
theorem w1_0_sub : (w1_0 (F := F)).Forall fun op => op.bufs ⊆ tcRefs τ sig := by
  unfold w1_0
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w1_0_fresh : ∀ op ∈ w1_0 (F := F), op.fresh = ∅ := by
  unfold w1_0
  intro _ h
  (repeat (cases h with | head => rfl | tail _ h => ?_))
  exact nomatch h

set_option maxRecDepth 8192 in
theorem w1_1_sub : (w1_1 (F := F)).Forall fun op => op.bufs ⊆ tcRefs τ sig := by
  unfold w1_1
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w1_1_fresh : ∀ op ∈ w1_1 (F := F), op.fresh = ∅ := by
  unfold w1_1
  intro _ h
  (repeat (cases h with | head => rfl | tail _ h => ?_))
  exact nomatch h

set_option maxRecDepth 8192 in
theorem w1_2_sub : (w1_2 (F := F)).Forall fun op => op.bufs ⊆ tcRefs τ sig := by
  unfold w1_2
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w1_2_fresh : ∀ op ∈ w1_2 (F := F), op.fresh = ∅ := by
  unfold w1_2
  intro _ h
  (repeat (cases h with | head => rfl | tail _ h => ?_))
  exact nomatch h

set_option maxRecDepth 8192 in
theorem w1_3_sub : (w1_3 (F := F)).Forall fun op => op.bufs ⊆ tcRefs τ sig := by
  unfold w1_3
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w1_3_fresh : ∀ op ∈ w1_3 (F := F), op.fresh = ∅ := by
  unfold w1_3
  intro _ h
  (repeat (cases h with | head => rfl | tail _ h => ?_))
  exact nomatch h

set_option maxRecDepth 8192 in
theorem w1_4_sub : (w1_4 (F := F)).Forall fun op => op.bufs ⊆ tcRefs τ sig := by
  unfold w1_4
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w1_4_fresh : ∀ op ∈ w1_4 (F := F), op.fresh = ∅ := by
  unfold w1_4
  intro _ h
  (repeat (cases h with | head => rfl | tail _ h => ?_))
  exact nomatch h

set_option maxRecDepth 8192 in
theorem w1_5_sub : (w1_5 (F := F)).Forall fun op => op.bufs ⊆ tcRefs τ sig := by
  unfold w1_5
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w1_5_fresh : ∀ op ∈ w1_5 (F := F), op.fresh = ∅ := by
  unfold w1_5
  intro _ h
  (repeat (cases h with | head => rfl | tail _ h => ?_))
  exact nomatch h

set_option maxRecDepth 8192 in
theorem w1_6_sub : (w1_6 (F := F)).Forall fun op => op.bufs ⊆ tcRefs τ sig := by
  unfold w1_6
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w1_6_fresh : ∀ op ∈ w1_6 (F := F), op.fresh = ∅ := by
  unfold w1_6
  intro _ h
  (repeat (cases h with | head => rfl | tail _ h => ?_))
  exact nomatch h

set_option maxRecDepth 8192 in
theorem w1_7_sub : (w1_7 (F := F)).Forall fun op => op.bufs ⊆ tcRefs τ sig := by
  unfold w1_7
  exact ⟨nullary_bufs_sub .., unary_bufs_sub .., binary_bufs_sub .., unary_bufs_sub .., unary_bufs_sub .., reshape_bufs_sub .., unary_bufs_sub .., binary_bufs_sub .., unary_bufs_sub .., reshape_bufs_sub .., unary_bufs_sub .., binary_bufs_sub .., nullary_bufs_sub .., unary_bufs_sub .., unary_bufs_sub .., unary_bufs_sub .., ternary_bufs_sub .., binary_bufs_sub ..⟩

theorem w1_7_fresh : ∀ op ∈ w1_7 (F := F), op.fresh = ∅ := by
  unfold w1_7
  intro _ h
  (repeat (cases h with | head => rfl | tail _ h => ?_))
  exact nomatch h

set_option maxRecDepth 8192 in
theorem wTail1_sub : (wTail1 (F := F)).Forall fun op => op.bufs ⊆ tcRefs τ sig := by
  unfold wTail1
  exact ⟨nullary_bufs_sub .., unary_bufs_sub .., binary_bufs_sub .., nullary_bufs_sub .., unary_bufs_sub .., ternary_bufs_sub ..⟩

theorem wTail1_fresh : ∀ op ∈ wTail1 (F := F), op.fresh = ∅ := by
  unfold wTail1
  intro _ h
  (repeat (cases h with | head => rfl | tail _ h => ?_))
  exact nomatch h

/-- A property of every entry of two lists holds of every entry of their concatenation. -/
theorem ball_append {α : Type} {p : α → Prop} {l₁ l₂ : List α} (h₁ : ∀ x ∈ l₁, p x) (h₂ : ∀ x ∈ l₂, p x) :
    ∀ x ∈ l₁ ++ l₂, p x :=
  fun x h => (List.mem_append.mp h).elim (h₁ x) (h₂ x)

theorem wHead_ok : ∀ op ∈ wHead (F := F), op.bufs ⊆ tcRefs τ sig := List.forall_iff_forall_mem.mp wHead_sub
theorem w0_0_ok : ∀ op ∈ w0_0 (F := F), op.bufs ⊆ tcRefs τ sig := List.forall_iff_forall_mem.mp w0_0_sub
theorem w0_1_ok : ∀ op ∈ w0_1 (F := F), op.bufs ⊆ tcRefs τ sig := List.forall_iff_forall_mem.mp w0_1_sub
theorem w0_2_ok : ∀ op ∈ w0_2 (F := F), op.bufs ⊆ tcRefs τ sig := List.forall_iff_forall_mem.mp w0_2_sub
theorem w0_3_ok : ∀ op ∈ w0_3 (F := F), op.bufs ⊆ tcRefs τ sig := List.forall_iff_forall_mem.mp w0_3_sub
theorem w0_4_ok : ∀ op ∈ w0_4 (F := F), op.bufs ⊆ tcRefs τ sig := List.forall_iff_forall_mem.mp w0_4_sub
theorem w0_5_ok : ∀ op ∈ w0_5 (F := F), op.bufs ⊆ tcRefs τ sig := List.forall_iff_forall_mem.mp w0_5_sub
theorem w0_6_ok : ∀ op ∈ w0_6 (F := F), op.bufs ⊆ tcRefs τ sig := List.forall_iff_forall_mem.mp w0_6_sub
theorem w0_7_ok : ∀ op ∈ w0_7 (F := F), op.bufs ⊆ tcRefs τ sig := List.forall_iff_forall_mem.mp w0_7_sub
theorem wTail0_ok : ∀ op ∈ wTail0 (F := F), op.bufs ⊆ tcRefs τ sig := List.forall_iff_forall_mem.mp wTail0_sub
theorem wHead1_ok : ∀ op ∈ wHead1 (F := F), op.bufs ⊆ tcRefs τ sig := List.forall_iff_forall_mem.mp wHead1_sub
theorem w1_0_ok : ∀ op ∈ w1_0 (F := F), op.bufs ⊆ tcRefs τ sig := List.forall_iff_forall_mem.mp w1_0_sub
theorem w1_1_ok : ∀ op ∈ w1_1 (F := F), op.bufs ⊆ tcRefs τ sig := List.forall_iff_forall_mem.mp w1_1_sub
theorem w1_2_ok : ∀ op ∈ w1_2 (F := F), op.bufs ⊆ tcRefs τ sig := List.forall_iff_forall_mem.mp w1_2_sub
theorem w1_3_ok : ∀ op ∈ w1_3 (F := F), op.bufs ⊆ tcRefs τ sig := List.forall_iff_forall_mem.mp w1_3_sub
theorem w1_4_ok : ∀ op ∈ w1_4 (F := F), op.bufs ⊆ tcRefs τ sig := List.forall_iff_forall_mem.mp w1_4_sub
theorem w1_5_ok : ∀ op ∈ w1_5 (F := F), op.bufs ⊆ tcRefs τ sig := List.forall_iff_forall_mem.mp w1_5_sub
theorem w1_6_ok : ∀ op ∈ w1_6 (F := F), op.bufs ⊆ tcRefs τ sig := List.forall_iff_forall_mem.mp w1_6_sub
theorem w1_7_ok : ∀ op ∈ w1_7 (F := F), op.bufs ⊆ tcRefs τ sig := List.forall_iff_forall_mem.mp w1_7_sub
theorem wTail1_ok : ∀ op ∈ wTail1 (F := F), op.bufs ⊆ tcRefs τ sig := List.forall_iff_forall_mem.mp wTail1_sub

attribute [local irreducible] wHead w0_0 w0_1 w0_2 w0_3 w0_4 w0_5 w0_6 w0_7 wTail0 wHead1 w1_0 w1_1 w1_2 w1_3 w1_4 w1_5 w1_6 w1_7 wTail1

theorem ops_ok : ∀ op ∈ ops (F := F), op.bufs ⊆ tcRefs τ sig := by
  unfold ops
  exact ball_append (ball_append (ball_append (ball_append (ball_append (ball_append (ball_append (ball_append (ball_append (ball_append (ball_append (ball_append (ball_append (ball_append (ball_append (ball_append (ball_append (ball_append (ball_append (wHead_ok) w0_0_ok) w0_1_ok) w0_2_ok) w0_3_ok) w0_4_ok) w0_5_ok) w0_6_ok) w0_7_ok) wTail0_ok) wHead1_ok) w1_0_ok) w1_1_ok) w1_2_ok) w1_3_ok) w1_4_ok) w1_5_ok) w1_6_ok) w1_7_ok) wTail1_ok

theorem ops_fresh : ∀ op ∈ ops (F := F), op.fresh = ∅ := by
  unfold ops
  exact ball_append (ball_append (ball_append (ball_append (ball_append (ball_append (ball_append (ball_append (ball_append (ball_append (ball_append (ball_append (ball_append (ball_append (ball_append (ball_append (ball_append (ball_append (ball_append (wHead_fresh) w0_0_fresh) w0_1_fresh) w0_2_fresh) w0_3_fresh) w0_4_fresh) w0_5_fresh) w0_6_fresh) w0_7_fresh) wTail0_fresh) wHead1_fresh) w1_0_fresh) w1_1_fresh) w1_2_fresh) w1_3_fresh) w1_4_fresh) w1_5_fresh) w1_6_fresh) w1_7_fresh) wTail1_fresh

attribute [local irreducible] ops

theorem ops_sub : (ops (F := F)).Forall fun op => op.bufs ⊆ tcRefs τ sig :=
  List.forall_iff_forall_mem.mpr ops_ok

end Cert.RefSide

end
-- ==== Proof.RefTerm.lean ====
/-
  The reference's result, written out as a composition of host operations on its seven arguments, for every float
  instance, in the order the reference applies them.

  * whereTerm l: adapter l's step on a pair of tables A (adapters × ranks × inputs), B (adapters × outputs × ranks) —
    the mask "the token's adapter number is l" broadcast over the columns; row l of A and of B sliced out, reshaped
    to two axes and transposed; the activations times the first, the result times the second; and the select of that
    product against a broadcast 0.0 on the mask.
  * sliceTerm: a broadcast 0.0 plus the eight steps, adapter 0 first, added one after the other, then multiplied by a
    broadcast 1.0.
  * refTerm: the dense product of the activations with the transposed weights; slice 0's sliceTerm scattered with an
    addition into the columns starting at 0; slice 1's scattered with an addition into the columns starting at 4096.
-/
import proofs.«110651_j74938589381272_2_alg».proof.Proof.Gen.ReferenceIdeal

noncomputable section

namespace Cert.RefSide

open Cert.ReferenceIdeal Cert.ReferenceIdeal.Gen Idealize.ShloMosaic

variable {F : FTy → Type} [FloatOps F]

/-- Adapter l's step of the reference on the tables A, B: the composition of host operations the reference applies for it
    (stated, as the reference's stages are, for every float instance). -/
def whereTerm (l : Nat) (hA : S8x16x4096.Slices ![l, 0, 0] S1x16x4096)
    (hB : S8x4096x16.Slices ![l, 0, 0] S1x4096x16)
    (x0 : (⟨S8192x4096, .f32⟩ : BufTy).Contents (Elt F)) (x1 : (⟨S8192, .i32⟩ : BufTy).Contents (Elt F))
    (A : (⟨S8x16x4096, .f32⟩ : BufTy).Contents (Elt F)) (B : (⟨S8x4096x16, .f32⟩ : BufTy).Contents (Elt F)) :
    (⟨S8192x4096, .f32⟩ : BufTy).Contents (Elt F) :=
  select
    (broadcastInDim S8192x4096 ![0, 1] bcast_S8192x1_S8192x4096_0_1 (broadcastInDim S8192x1 ![0] bcast_S8192_S8192x1_0
      (cmpi .eq x1 (broadcastInDim S8192 ![] bcast_S_S8192 (constantI S_ 32 (BitVec.ofNat 32 l))))))
    (Host.dotGeneral dot_S8192x16_S16x4096_S8192x4096_1_0_0_1_n_n none
      (Host.dotGeneral dot_S8192x4096_S4096x16_S8192x16_1_0_0_1_n_n none x0
        (transpose S4096x16 [1, 0] (shapeCast S16x4096 (extractStridedSlice S1x16x4096 ![l, 0, 0] A hA) shapeCasts_S1x16x4096_S16x4096)
          transposes_S16x4096_S4096x16_1_0))
      (transpose S16x4096 [1, 0] (shapeCast S4096x16 (extractStridedSlice S1x4096x16 ![l, 0, 0] B hB) shapeCasts_S1x4096x16_S4096x16)
        transposes_S4096x16_S16x4096_1_0))
    (broadcastInDim S8192x4096 ![] bcast_S_S8192x4096 (id (constant (F := F) S_ .f32 0x00000000#32)))

/-- The reference's scaled sum of the eight adapter steps on the tables A, B. -/
def sliceTerm (x0 : (⟨S8192x4096, .f32⟩ : BufTy).Contents (Elt F)) (x1 : (⟨S8192, .i32⟩ : BufTy).Contents (Elt F))
    (A : (⟨S8x16x4096, .f32⟩ : BufTy).Contents (Elt F)) (B : (⟨S8x4096x16, .f32⟩ : BufTy).Contents (Elt F)) :
    (⟨S8192x4096, .f32⟩ : BufTy).Contents (Elt F) :=
  mulf (broadcastInDim S8192x4096 ![] bcast_S_S8192x4096 (constant (F := F) S_ .f32 0x3F800000#32))
    (addf (addf (addf (addf (addf (addf (addf (addf (broadcastInDim S8192x4096 ![] bcast_S_S8192x4096 (constant (F := F) S_ .f32 0x00000000#32))
      (whereTerm 0 slices_S8x16x4096_S1x16x4096_0_0_0 slices_S8x4096x16_S1x4096x16_0_0_0 x0 x1 A B))
      (whereTerm 1 slices_S8x16x4096_S1x16x4096_1_0_0 slices_S8x4096x16_S1x4096x16_1_0_0 x0 x1 A B))
      (whereTerm 2 slices_S8x16x4096_S1x16x4096_2_0_0 slices_S8x4096x16_S1x4096x16_2_0_0 x0 x1 A B))
      (whereTerm 3 slices_S8x16x4096_S1x16x4096_3_0_0 slices_S8x4096x16_S1x4096x16_3_0_0 x0 x1 A B))
      (whereTerm 4 slices_S8x16x4096_S1x16x4096_4_0_0 slices_S8x4096x16_S1x4096x16_4_0_0 x0 x1 A B))
      (whereTerm 5 slices_S8x16x4096_S1x16x4096_5_0_0 slices_S8x4096x16_S1x4096x16_5_0_0 x0 x1 A B))
      (whereTerm 6 slices_S8x16x4096_S1x16x4096_6_0_0 slices_S8x4096x16_S1x4096x16_6_0_0 x0 x1 A B))
      (whereTerm 7 slices_S8x16x4096_S1x16x4096_7_0_0 slices_S8x4096x16_S1x4096x16_7_0_0 x0 x1 A B))

/-- The dense product: the activations against the transposed weights. -/
def denseTerm (x0 x2 : (⟨S8192x4096, .f32⟩ : BufTy).Contents (Elt F)) : (⟨S8192x8192, .f32⟩ : BufTy).Contents (Elt F) :=
  Host.dotGeneral dot_S8192x4096_S4096x8192_S8192x8192_1_0_0_1_n_n none x0
    (transpose S4096x8192 [1, 0] x2 transposes_S8192x4096_S4096x8192_1_0)

/-- A scatter's one start index: the word s, broadcast to one entry. -/
def startTerm (s : BitVec 32) : (⟨S1, .i32⟩ : BufTy).Contents (Elt F) :=
  broadcastInDim S1 ![] bcast_S_S1 (constantI S_ 32 s)

/-- The reference's result as a composition of host operations on its seven arguments. -/
def refTerm (x0 : (⟨S8192x4096, .f32⟩ : BufTy).Contents (Elt F)) (x1 : (⟨S8192, .i32⟩ : BufTy).Contents (Elt F))
    (x2 : (⟨S8192x4096, .f32⟩ : BufTy).Contents (Elt F)) (x3 x4 : (⟨S8x16x4096, .f32⟩ : BufTy).Contents (Elt F))
    (x5 x6 : (⟨S8x4096x16, .f32⟩ : BufTy).Contents (Elt F)) :
    (⟨S8192x8192, .f32⟩ : BufTy).Contents (Elt F) :=
  Host.scatter scatter_S8192x8192_S1_S8192x4096_01_n_1_0 FloatOps.addf
    (Host.scatter scatter_S8192x8192_S1_S8192x4096_01_n_1_0 FloatOps.addf (denseTerm x0 x2) (startTerm (F := F) 0#32)
      (sliceTerm x0 x1 x3 x5))
    (startTerm (F := F) 4096#32) (sliceTerm x0 x1 x4 x6)

end Cert.RefSide

end
-- ==== Proof.RefRunFirst.lean ====
/-
  The reference's first half, stretch by stretch: what each stretch of operations leaves in the one array it hands
  on, from ANY contents `V` of the buffers before it, and that it writes nothing but its own results.

  The head leaves the dense product x · Wᵀ and a zero array. The stretch of adapter l reads the running sum, the
  tokens' adapter numbers and adapter l's 16 rows of the two tables, and leaves the running sum plus that adapter's
  step (the rank-16 product kept on the tokens of adapter l, zero elsewhere). The closing stretch multiplies the
  sum by one and adds it into columns 0 … 4095 of the dense product. Each equation holds by carrying the
  operations' definitions through the stretch; the arguments and every buffer a stretch does not list are as before.
-/
import proofs.«110651_j74938589381272_2_alg».proof.Proof.RefOps
import proofs.«110651_j74938589381272_2_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The dense product. -/
theorem wHead_dense (V : Valuation τ sig (Elt F)) :
    after (wHead (F := F)) V (Proc.devRef .tc main_v1) = denseTerm (V (Proc.devRef .tc main_arg0)) (V (Proc.devRef .tc main_arg2)) := by
  unfold wHead
  after_results_simp <;> rfl

/-- The zero array the first slice's sum starts from. -/
theorem wHead_zeros (V : Valuation τ sig (Elt F)) :
    after (wHead (F := F)) V (Proc.devRef .tc main_v2) = (broadcastInDim S8192x4096 ![] bcast_S_S8192x4096 (constant (F := F) S_ .f32 0x00000000#32)) := by
  unfold wHead
  after_results_simp <;> rfl

/-- Nothing but its own 4 results is written by `wHead`. -/
theorem wHead_keep (V : Valuation τ sig (Elt F)) {r : Ref sig .tc}
    (hr : r ∉ [main_v0, main_v1, main_cst, main_v2]) :
    after (wHead (F := F)) V (Proc.devRef .tc r) = V (Proc.devRef .tc r) :=
  after_of_writes_sub wHead V (by
    unfold wHead
    simp only [List.Forall, nullary_writes, unary_writes, binary_writes, ternary_writes, reshape_writes, List.map_cons, List.map_nil]
    decide) hr

/-- Adapter 0 of slice 0: the running sum gains the adapter's step. -/
theorem w0_0_result (V : Valuation τ sig (Elt F)) :
    after (w0_0 (F := F)) V (Proc.devRef .tc main_v15)
      = addf (V (Proc.devRef .tc main_v2) : (⟨S8192x4096, .f32⟩ : BufTy).Contents (Elt F))
          (whereTerm 0 slices_S8x16x4096_S1x16x4096_0_0_0 slices_S8x4096x16_S1x4096x16_0_0_0
            (V (Proc.devRef .tc main_arg0)) (V (Proc.devRef .tc main_arg1)) (V (Proc.devRef .tc main_arg3)) (V (Proc.devRef .tc main_arg5))) := by
  unfold w0_0
  after_results_simp <;> rfl

/-- Nothing but its own 18 results is written by `w0_0`. -/
theorem w0_0_keep (V : Valuation τ sig (Elt F)) {r : Ref sig .tc}
    (hr : r ∉ [main_c, main_v3, main_v4, main_v5, main_v6, main_v7, main_v8, main_v9, main_v10, main_v11, main_v12, main_v13, main_cst_0, main_call0_v0, main_call0_v1, main_call0_v2, main_v14, main_v15]) :
    after (w0_0 (F := F)) V (Proc.devRef .tc r) = V (Proc.devRef .tc r) :=
  after_of_writes_sub w0_0 V (by
    unfold w0_0
    simp only [List.Forall, nullary_writes, unary_writes, binary_writes, ternary_writes, reshape_writes, List.map_cons, List.map_nil]
    decide) hr

/-- Adapter 1 of slice 0: the running sum gains the adapter's step. -/
theorem w0_1_result (V : Valuation τ sig (Elt F)) :
    after (w0_1 (F := F)) V (Proc.devRef .tc main_v28)
      = addf (V (Proc.devRef .tc main_v15) : (⟨S8192x4096, .f32⟩ : BufTy).Contents (Elt F))
          (whereTerm 1 slices_S8x16x4096_S1x16x4096_1_0_0 slices_S8x4096x16_S1x4096x16_1_0_0
            (V (Proc.devRef .tc main_arg0)) (V (Proc.devRef .tc main_arg1)) (V (Proc.devRef .tc main_arg3)) (V (Proc.devRef .tc main_arg5))) := by
  unfold w0_1
  after_results_simp <;> rfl

/-- Nothing but its own 18 results is written by `w0_1`. -/
theorem w0_1_keep (V : Valuation τ sig (Elt F)) {r : Ref sig .tc}
    (hr : r ∉ [main_c_1, main_v16, main_v17, main_v18, main_v19, main_v20, main_v21, main_v22, main_v23, main_v24, main_v25, main_v26, main_cst_2, main_call1_v0, main_call1_v1, main_call1_v2, main_v27, main_v28]) :
    after (w0_1 (F := F)) V (Proc.devRef .tc r) = V (Proc.devRef .tc r) :=
  after_of_writes_sub w0_1 V (by
    unfold w0_1
    simp only [List.Forall, nullary_writes, unary_writes, binary_writes, ternary_writes, reshape_writes, List.map_cons, List.map_nil]
    decide) hr

/-- Adapter 2 of slice 0: the running sum gains the adapter's step. -/
theorem w0_2_result (V : Valuation τ sig (Elt F)) :
    after (w0_2 (F := F)) V (Proc.devRef .tc main_v41)
      = addf (V (Proc.devRef .tc main_v28) : (⟨S8192x4096, .f32⟩ : BufTy).Contents (Elt F))
          (whereTerm 2 slices_S8x16x4096_S1x16x4096_2_0_0 slices_S8x4096x16_S1x4096x16_2_0_0
            (V (Proc.devRef .tc main_arg0)) (V (Proc.devRef .tc main_arg1)) (V (Proc.devRef .tc main_arg3)) (V (Proc.devRef .tc main_arg5))) := by
  unfold w0_2
  after_results_simp <;> rfl

/-- Nothing but its own 18 results is written by `w0_2`. -/
theorem w0_2_keep (V : Valuation τ sig (Elt F)) {r : Ref sig .tc}
    (hr : r ∉ [main_c_3, main_v29, main_v30, main_v31, main_v32, main_v33, main_v34, main_v35, main_v36, main_v37, main_v38, main_v39, main_cst_4, main_call2_v0, main_call2_v1, main_call2_v2, main_v40, main_v41]) :
    after (w0_2 (F := F)) V (Proc.devRef .tc r) = V (Proc.devRef .tc r) :=
  after_of_writes_sub w0_2 V (by
    unfold w0_2
    simp only [List.Forall, nullary_writes, unary_writes, binary_writes, ternary_writes, reshape_writes, List.map_cons, List.map_nil]
    decide) hr

/-- Adapter 3 of slice 0: the running sum gains the adapter's step. -/
theorem w0_3_result (V : Valuation τ sig (Elt F)) :
    after (w0_3 (F := F)) V (Proc.devRef .tc main_v54)
      = addf (V (Proc.devRef .tc main_v41) : (⟨S8192x4096, .f32⟩ : BufTy).Contents (Elt F))
          (whereTerm 3 slices_S8x16x4096_S1x16x4096_3_0_0 slices_S8x4096x16_S1x4096x16_3_0_0
            (V (Proc.devRef .tc main_arg0)) (V (Proc.devRef .tc main_arg1)) (V (Proc.devRef .tc main_arg3)) (V (Proc.devRef .tc main_arg5))) := by
  unfold w0_3
  after_results_simp <;> rfl

/-- Nothing but its own 18 results is written by `w0_3`. -/
theorem w0_3_keep (V : Valuation τ sig (Elt F)) {r : Ref sig .tc}
    (hr : r ∉ [main_c_5, main_v42, main_v43, main_v44, main_v45, main_v46, main_v47, main_v48, main_v49, main_v50, main_v51, main_v52, main_cst_6, main_call3_v0, main_call3_v1, main_call3_v2, main_v53, main_v54]) :
    after (w0_3 (F := F)) V (Proc.devRef .tc r) = V (Proc.devRef .tc r) :=
  after_of_writes_sub w0_3 V (by
    unfold w0_3
    simp only [List.Forall, nullary_writes, unary_writes, binary_writes, ternary_writes, reshape_writes, List.map_cons, List.map_nil]
    decide) hr

/-- Adapter 4 of slice 0: the running sum gains the adapter's step. -/
theorem w0_4_result (V : Valuation τ sig (Elt F)) :
    after (w0_4 (F := F)) V (Proc.devRef .tc main_v67)
      = addf (V (Proc.devRef .tc main_v54) : (⟨S8192x4096, .f32⟩ : BufTy).Contents (Elt F))
          (whereTerm 4 slices_S8x16x4096_S1x16x4096_4_0_0 slices_S8x4096x16_S1x4096x16_4_0_0
            (V (Proc.devRef .tc main_arg0)) (V (Proc.devRef .tc main_arg1)) (V (Proc.devRef .tc main_arg3)) (V (Proc.devRef .tc main_arg5))) := by
  unfold w0_4
  after_results_simp <;> rfl

/-- Nothing but its own 18 results is written by `w0_4`. -/
theorem w0_4_keep (V : Valuation τ sig (Elt F)) {r : Ref sig .tc}
    (hr : r ∉ [main_c_7, main_v55, main_v56, main_v57, main_v58, main_v59, main_v60, main_v61, main_v62, main_v63, main_v64, main_v65, main_cst_8, main_call4_v0, main_call4_v1, main_call4_v2, main_v66, main_v67]) :
    after (w0_4 (F := F)) V (Proc.devRef .tc r) = V (Proc.devRef .tc r) :=
  after_of_writes_sub w0_4 V (by
    unfold w0_4
    simp only [List.Forall, nullary_writes, unary_writes, binary_writes, ternary_writes, reshape_writes, List.map_cons, List.map_nil]
    decide) hr

/-- Adapter 5 of slice 0: the running sum gains the adapter's step. -/
theorem w0_5_result (V : Valuation τ sig (Elt F)) :
    after (w0_5 (F := F)) V (Proc.devRef .tc main_v80)
      = addf (V (Proc.devRef .tc main_v67) : (⟨S8192x4096, .f32⟩ : BufTy).Contents (Elt F))
          (whereTerm 5 slices_S8x16x4096_S1x16x4096_5_0_0 slices_S8x4096x16_S1x4096x16_5_0_0
            (V (Proc.devRef .tc main_arg0)) (V (Proc.devRef .tc main_arg1)) (V (Proc.devRef .tc main_arg3)) (V (Proc.devRef .tc main_arg5))) := by
  unfold w0_5
  after_results_simp <;> rfl

/-- Nothing but its own 18 results is written by `w0_5`. -/
theorem w0_5_keep (V : Valuation τ sig (Elt F)) {r : Ref sig .tc}
    (hr : r ∉ [main_c_9, main_v68, main_v69, main_v70, main_v71, main_v72, main_v73, main_v74, main_v75, main_v76, main_v77, main_v78, main_cst_10, main_call5_v0, main_call5_v1, main_call5_v2, main_v79, main_v80]) :
    after (w0_5 (F := F)) V (Proc.devRef .tc r) = V (Proc.devRef .tc r) :=
  after_of_writes_sub w0_5 V (by
    unfold w0_5
    simp only [List.Forall, nullary_writes, unary_writes, binary_writes, ternary_writes, reshape_writes, List.map_cons, List.map_nil]
    decide) hr

/-- Adapter 6 of slice 0: the running sum gains the adapter's step. -/
theorem w0_6_result (V : Valuation τ sig (Elt F)) :
    after (w0_6 (F := F)) V (Proc.devRef .tc main_v93)
      = addf (V (Proc.devRef .tc main_v80) : (⟨S8192x4096, .f32⟩ : BufTy).Contents (Elt F))
          (whereTerm 6 slices_S8x16x4096_S1x16x4096_6_0_0 slices_S8x4096x16_S1x4096x16_6_0_0
            (V (Proc.devRef .tc main_arg0)) (V (Proc.devRef .tc main_arg1)) (V (Proc.devRef .tc main_arg3)) (V (Proc.devRef .tc main_arg5))) := by
  unfold w0_6
  after_results_simp <;> rfl

/-- Nothing but its own 18 results is written by `w0_6`. -/
theorem w0_6_keep (V : Valuation τ sig (Elt F)) {r : Ref sig .tc}
    (hr : r ∉ [main_c_11, main_v81, main_v82, main_v83, main_v84, main_v85, main_v86, main_v87, main_v88, main_v89, main_v90, main_v91, main_cst_12, main_call6_v0, main_call6_v1, main_call6_v2, main_v92, main_v93]) :
    after (w0_6 (F := F)) V (Proc.devRef .tc r) = V (Proc.devRef .tc r) :=
  after_of_writes_sub w0_6 V (by
    unfold w0_6
    simp only [List.Forall, nullary_writes, unary_writes, binary_writes, ternary_writes, reshape_writes, List.map_cons, List.map_nil]
    decide) hr

/-- Adapter 7 of slice 0: the running sum gains the adapter's step. -/
theorem w0_7_result (V : Valuation τ sig (Elt F)) :
    after (w0_7 (F := F)) V (Proc.devRef .tc main_v106)
      = addf (V (Proc.devRef .tc main_v93) : (⟨S8192x4096, .f32⟩ : BufTy).Contents (Elt F))
          (whereTerm 7 slices_S8x16x4096_S1x16x4096_7_0_0 slices_S8x4096x16_S1x4096x16_7_0_0
            (V (Proc.devRef .tc main_arg0)) (V (Proc.devRef .tc main_arg1)) (V (Proc.devRef .tc main_arg3)) (V (Proc.devRef .tc main_arg5))) := by
  unfold w0_7
  after_results_simp <;> rfl

/-- Nothing but its own 18 results is written by `w0_7`. -/
theorem w0_7_keep (V : Valuation τ sig (Elt F)) {r : Ref sig .tc}
    (hr : r ∉ [main_c_13, main_v94, main_v95, main_v96, main_v97, main_v98, main_v99, main_v100, main_v101, main_v102, main_v103, main_v104, main_cst_14, main_call7_v0, main_call7_v1, main_call7_v2, main_v105, main_v106]) :
    after (w0_7 (F := F)) V (Proc.devRef .tc r) = V (Proc.devRef .tc r) :=
  after_of_writes_sub w0_7 V (by
    unfold w0_7
    simp only [List.Forall, nullary_writes, unary_writes, binary_writes, ternary_writes, reshape_writes, List.map_cons, List.map_nil]
    decide) hr

/-- The first slice's scaled sum is added into columns 0 … 4095 of the dense product. -/
theorem wTail0_result (V : Valuation τ sig (Elt F)) :
    after (wTail0 (F := F)) V (Proc.devRef .tc main_v110)
      = Host.scatter scatter_S8192x8192_S1_S8192x4096_01_n_1_0 FloatOps.addf (V (Proc.devRef .tc main_v1) : (⟨S8192x8192, .f32⟩ : BufTy).Contents (Elt F)) (startTerm (F := F) 0#32)
          (mulf (broadcastInDim S8192x4096 ![] bcast_S_S8192x4096 (constant (F := F) S_ .f32 0x3F800000#32)) (V (Proc.devRef .tc main_v106) : (⟨S8192x4096, .f32⟩ : BufTy).Contents (Elt F))) := by
  unfold wTail0
  after_results_simp <;> rfl

/-- Nothing but its own 6 results is written by `wTail0`. -/
theorem wTail0_keep (V : Valuation τ sig (Elt F)) {r : Ref sig .tc}
    (hr : r ∉ [main_cst_15, main_v107, main_v108, main_c_16, main_v109, main_v110]) :
    after (wTail0 (F := F)) V (Proc.devRef .tc r) = V (Proc.devRef .tc r) :=
  after_of_writes_sub wTail0 V (by
    unfold wTail0
    simp only [List.Forall, nullary_writes, unary_writes, binary_writes, ternary_writes, reshape_writes, List.map_cons, List.map_nil]
    decide) hr

end Cert.RefSide

end
-- ==== Proof.RefRunSecond.lean ====
/-
  The reference's second half, stretch by stretch, as the first: a fresh zero array, the eight adapters' stretches on
  the second pair of tables, and the closing stretch, which adds the scaled sum into columns 4096 … 8191 of the
  result so far. Each equation is from ANY contents `V` of the buffers before the stretch.
-/
import proofs.«110651_j74938589381272_2_alg».proof.Proof.RefOps
import proofs.«110651_j74938589381272_2_alg».proof.Proof.RefTerm

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The zero array the second slice's sum starts from. -/
theorem wHead1_zeros (V : Valuation τ sig (Elt F)) :
    after (wHead1 (F := F)) V (Proc.devRef .tc main_v111) = (broadcastInDim S8192x4096 ![] bcast_S_S8192x4096 (constant (F := F) S_ .f32 0x00000000#32)) := by
  unfold wHead1
  after_results_simp <;> rfl

/-- Nothing but its own 2 results is written by `wHead1`. -/
theorem wHead1_keep (V : Valuation τ sig (Elt F)) {r : Ref sig .tc}
    (hr : r ∉ [main_cst_17, main_v111]) :
    after (wHead1 (F := F)) V (Proc.devRef .tc r) = V (Proc.devRef .tc r) :=
  after_of_writes_sub wHead1 V (by
    unfold wHead1
    simp only [List.Forall, nullary_writes, unary_writes, binary_writes, ternary_writes, reshape_writes, List.map_cons, List.map_nil]
    decide) hr

/-- Adapter 0 of slice 1: the running sum gains the adapter's step. -/
theorem w1_0_result (V : Valuation τ sig (Elt F)) :
    after (w1_0 (F := F)) V (Proc.devRef .tc main_v124)
      = addf (V (Proc.devRef .tc main_v111) : (⟨S8192x4096, .f32⟩ : BufTy).Contents (Elt F))
          (whereTerm 0 slices_S8x16x4096_S1x16x4096_0_0_0 slices_S8x4096x16_S1x4096x16_0_0_0
            (V (Proc.devRef .tc main_arg0)) (V (Proc.devRef .tc main_arg1)) (V (Proc.devRef .tc main_arg4)) (V (Proc.devRef .tc main_arg6))) := by
  unfold w1_0
  after_results_simp <;> rfl

/-- Nothing but its own 18 results is written by `w1_0`. -/
theorem w1_0_keep (V : Valuation τ sig (Elt F)) {r : Ref sig .tc}
    (hr : r ∉ [main_c_18, main_v112, main_v113, main_v114, main_v115, main_v116, main_v117, main_v118, main_v119, main_v120, main_v121, main_v122, main_cst_19, main_call8_v0, main_call8_v1, main_call8_v2, main_v123, main_v124]) :
    after (w1_0 (F := F)) V (Proc.devRef .tc r) = V (Proc.devRef .tc r) :=
  after_of_writes_sub w1_0 V (by
    unfold w1_0
    simp only [List.Forall, nullary_writes, unary_writes, binary_writes, ternary_writes, reshape_writes, List.map_cons, List.map_nil]
    decide) hr

/-- Adapter 1 of slice 1: the running sum gains the adapter's step. -/
theorem w1_1_result (V : Valuation τ sig (Elt F)) :
    after (w1_1 (F := F)) V (Proc.devRef .tc main_v137)
      = addf (V (Proc.devRef .tc main_v124) : (⟨S8192x4096, .f32⟩ : BufTy).Contents (Elt F))
          (whereTerm 1 slices_S8x16x4096_S1x16x4096_1_0_0 slices_S8x4096x16_S1x4096x16_1_0_0
            (V (Proc.devRef .tc main_arg0)) (V (Proc.devRef .tc main_arg1)) (V (Proc.devRef .tc main_arg4)) (V (Proc.devRef .tc main_arg6))) := by
  unfold w1_1
  after_results_simp <;> rfl

/-- Nothing but its own 18 results is written by `w1_1`. -/
theorem w1_1_keep (V : Valuation τ sig (Elt F)) {r : Ref sig .tc}
    (hr : r ∉ [main_c_20, main_v125, main_v126, main_v127, main_v128, main_v129, main_v130, main_v131, main_v132, main_v133, main_v134, main_v135, main_cst_21, main_call9_v0, main_call9_v1, main_call9_v2, main_v136, main_v137]) :
    after (w1_1 (F := F)) V (Proc.devRef .tc r) = V (Proc.devRef .tc r) :=
  after_of_writes_sub w1_1 V (by
    unfold w1_1
    simp only [List.Forall, nullary_writes, unary_writes, binary_writes, ternary_writes, reshape_writes, List.map_cons, List.map_nil]
    decide) hr

/-- Adapter 2 of slice 1: the running sum gains the adapter's step. -/
theorem w1_2_result (V : Valuation τ sig (Elt F)) :
    after (w1_2 (F := F)) V (Proc.devRef .tc main_v150)
      = addf (V (Proc.devRef .tc main_v137) : (⟨S8192x4096, .f32⟩ : BufTy).Contents (Elt F))
          (whereTerm 2 slices_S8x16x4096_S1x16x4096_2_0_0 slices_S8x4096x16_S1x4096x16_2_0_0
            (V (Proc.devRef .tc main_arg0)) (V (Proc.devRef .tc main_arg1)) (V (Proc.devRef .tc main_arg4)) (V (Proc.devRef .tc main_arg6))) := by
  unfold w1_2
  after_results_simp <;> rfl

/-- Nothing but its own 18 results is written by `w1_2`. -/
theorem w1_2_keep (V : Valuation τ sig (Elt F)) {r : Ref sig .tc}
    (hr : r ∉ [main_c_22, main_v138, main_v139, main_v140, main_v141, main_v142, main_v143, main_v144, main_v145, main_v146, main_v147, main_v148, main_cst_23, main_call10_v0, main_call10_v1, main_call10_v2, main_v149, main_v150]) :
    after (w1_2 (F := F)) V (Proc.devRef .tc r) = V (Proc.devRef .tc r) :=
  after_of_writes_sub w1_2 V (by
    unfold w1_2
    simp only [List.Forall, nullary_writes, unary_writes, binary_writes, ternary_writes, reshape_writes, List.map_cons, List.map_nil]
    decide) hr

/-- Adapter 3 of slice 1: the running sum gains the adapter's step. -/
theorem w1_3_result (V : Valuation τ sig (Elt F)) :
    after (w1_3 (F := F)) V (Proc.devRef .tc main_v163)
      = addf (V (Proc.devRef .tc main_v150) : (⟨S8192x4096, .f32⟩ : BufTy).Contents (Elt F))
          (whereTerm 3 slices_S8x16x4096_S1x16x4096_3_0_0 slices_S8x4096x16_S1x4096x16_3_0_0
            (V (Proc.devRef .tc main_arg0)) (V (Proc.devRef .tc main_arg1)) (V (Proc.devRef .tc main_arg4)) (V (Proc.devRef .tc main_arg6))) := by
  unfold w1_3
  after_results_simp <;> rfl

/-- Nothing but its own 18 results is written by `w1_3`. -/
theorem w1_3_keep (V : Valuation τ sig (Elt F)) {r : Ref sig .tc}
    (hr : r ∉ [main_c_24, main_v151, main_v152, main_v153, main_v154, main_v155, main_v156, main_v157, main_v158, main_v159, main_v160, main_v161, main_cst_25, main_call11_v0, main_call11_v1, main_call11_v2, main_v162, main_v163]) :
    after (w1_3 (F := F)) V (Proc.devRef .tc r) = V (Proc.devRef .tc r) :=
  after_of_writes_sub w1_3 V (by
    unfold w1_3
    simp only [List.Forall, nullary_writes, unary_writes, binary_writes, ternary_writes, reshape_writes, List.map_cons, List.map_nil]
    decide) hr

/-- Adapter 4 of slice 1: the running sum gains the adapter's step. -/
theorem w1_4_result (V : Valuation τ sig (Elt F)) :
    after (w1_4 (F := F)) V (Proc.devRef .tc main_v176)
      = addf (V (Proc.devRef .tc main_v163) : (⟨S8192x4096, .f32⟩ : BufTy).Contents (Elt F))
          (whereTerm 4 slices_S8x16x4096_S1x16x4096_4_0_0 slices_S8x4096x16_S1x4096x16_4_0_0
            (V (Proc.devRef .tc main_arg0)) (V (Proc.devRef .tc main_arg1)) (V (Proc.devRef .tc main_arg4)) (V (Proc.devRef .tc main_arg6))) := by
  unfold w1_4
  after_results_simp <;> rfl

/-- Nothing but its own 18 results is written by `w1_4`. -/
theorem w1_4_keep (V : Valuation τ sig (Elt F)) {r : Ref sig .tc}
    (hr : r ∉ [main_c_26, main_v164, main_v165, main_v166, main_v167, main_v168, main_v169, main_v170, main_v171, main_v172, main_v173, main_v174, main_cst_27, main_call12_v0, main_call12_v1, main_call12_v2, main_v175, main_v176]) :
    after (w1_4 (F := F)) V (Proc.devRef .tc r) = V (Proc.devRef .tc r) :=
  after_of_writes_sub w1_4 V (by
    unfold w1_4
    simp only [List.Forall, nullary_writes, unary_writes, binary_writes, ternary_writes, reshape_writes, List.map_cons, List.map_nil]
    decide) hr

/-- Adapter 5 of slice 1: the running sum gains the adapter's step. -/
theorem w1_5_result (V : Valuation τ sig (Elt F)) :
    after (w1_5 (F := F)) V (Proc.devRef .tc main_v189)
      = addf (V (Proc.devRef .tc main_v176) : (⟨S8192x4096, .f32⟩ : BufTy).Contents (Elt F))
          (whereTerm 5 slices_S8x16x4096_S1x16x4096_5_0_0 slices_S8x4096x16_S1x4096x16_5_0_0
            (V (Proc.devRef .tc main_arg0)) (V (Proc.devRef .tc main_arg1)) (V (Proc.devRef .tc main_arg4)) (V (Proc.devRef .tc main_arg6))) := by
  unfold w1_5
  after_results_simp <;> rfl

/-- Nothing but its own 18 results is written by `w1_5`. -/
theorem w1_5_keep (V : Valuation τ sig (Elt F)) {r : Ref sig .tc}
    (hr : r ∉ [main_c_28, main_v177, main_v178, main_v179, main_v180, main_v181, main_v182, main_v183, main_v184, main_v185, main_v186, main_v187, main_cst_29, main_call13_v0, main_call13_v1, main_call13_v2, main_v188, main_v189]) :
    after (w1_5 (F := F)) V (Proc.devRef .tc r) = V (Proc.devRef .tc r) :=
  after_of_writes_sub w1_5 V (by
    unfold w1_5
    simp only [List.Forall, nullary_writes, unary_writes, binary_writes, ternary_writes, reshape_writes, List.map_cons, List.map_nil]
    decide) hr

/-- Adapter 6 of slice 1: the running sum gains the adapter's step. -/
theorem w1_6_result (V : Valuation τ sig (Elt F)) :
    after (w1_6 (F := F)) V (Proc.devRef .tc main_v202)
      = addf (V (Proc.devRef .tc main_v189) : (⟨S8192x4096, .f32⟩ : BufTy).Contents (Elt F))
          (whereTerm 6 slices_S8x16x4096_S1x16x4096_6_0_0 slices_S8x4096x16_S1x4096x16_6_0_0
            (V (Proc.devRef .tc main_arg0)) (V (Proc.devRef .tc main_arg1)) (V (Proc.devRef .tc main_arg4)) (V (Proc.devRef .tc main_arg6))) := by
  unfold w1_6
  after_results_simp <;> rfl

/-- Nothing but its own 18 results is written by `w1_6`. -/
theorem w1_6_keep (V : Valuation τ sig (Elt F)) {r : Ref sig .tc}
    (hr : r ∉ [main_c_30, main_v190, main_v191, main_v192, main_v193, main_v194, main_v195, main_v196, main_v197, main_v198, main_v199, main_v200, main_cst_31, main_call14_v0, main_call14_v1, main_call14_v2, main_v201, main_v202]) :
    after (w1_6 (F := F)) V (Proc.devRef .tc r) = V (Proc.devRef .tc r) :=
  after_of_writes_sub w1_6 V (by
    unfold w1_6
    simp only [List.Forall, nullary_writes, unary_writes, binary_writes, ternary_writes, reshape_writes, List.map_cons, List.map_nil]
    decide) hr

/-- Adapter 7 of slice 1: the running sum gains the adapter's step. -/
theorem w1_7_result (V : Valuation τ sig (Elt F)) :
    after (w1_7 (F := F)) V (Proc.devRef .tc main_v215)
      = addf (V (Proc.devRef .tc main_v202) : (⟨S8192x4096, .f32⟩ : BufTy).Contents (Elt F))
          (whereTerm 7 slices_S8x16x4096_S1x16x4096_7_0_0 slices_S8x4096x16_S1x4096x16_7_0_0
            (V (Proc.devRef .tc main_arg0)) (V (Proc.devRef .tc main_arg1)) (V (Proc.devRef .tc main_arg4)) (V (Proc.devRef .tc main_arg6))) := by
  unfold w1_7
  after_results_simp <;> rfl

/-- Nothing but its own 18 results is written by `w1_7`. -/
theorem w1_7_keep (V : Valuation τ sig (Elt F)) {r : Ref sig .tc}
    (hr : r ∉ [main_c_32, main_v203, main_v204, main_v205, main_v206, main_v207, main_v208, main_v209, main_v210, main_v211, main_v212, main_v213, main_cst_33, main_call15_v0, main_call15_v1, main_call15_v2, main_v214, main_v215]) :
    after (w1_7 (F := F)) V (Proc.devRef .tc r) = V (Proc.devRef .tc r) :=
  after_of_writes_sub w1_7 V (by
    unfold w1_7
    simp only [List.Forall, nullary_writes, unary_writes, binary_writes, ternary_writes, reshape_writes, List.map_cons, List.map_nil]
    decide) hr

/-- The second slice's scaled sum is added into columns 4096 … 8191 of the result so far. -/
theorem wTail1_result (V : Valuation τ sig (Elt F)) :
    after (wTail1 (F := F)) V (Proc.devRef .tc main_v219)
      = Host.scatter scatter_S8192x8192_S1_S8192x4096_01_n_1_0 FloatOps.addf (V (Proc.devRef .tc main_v110) : (⟨S8192x8192, .f32⟩ : BufTy).Contents (Elt F)) (startTerm (F := F) 4096#32)
          (mulf (broadcastInDim S8192x4096 ![] bcast_S_S8192x4096 (constant (F := F) S_ .f32 0x3F800000#32)) (V (Proc.devRef .tc main_v215) : (⟨S8192x4096, .f32⟩ : BufTy).Contents (Elt F))) := by
  unfold wTail1
  after_results_simp <;> rfl

/-- Nothing but its own 6 results is written by `wTail1`. -/
theorem wTail1_keep (V : Valuation τ sig (Elt F)) {r : Ref sig .tc}
    (hr : r ∉ [main_cst_34, main_v216, main_v217, main_c_35, main_v218, main_v219]) :
    after (wTail1 (F := F)) V (Proc.devRef .tc r) = V (Proc.devRef .tc r) :=
  after_of_writes_sub wTail1 V (by
    unfold wTail1
    simp only [List.Forall, nullary_writes, unary_writes, binary_writes, ternary_writes, reshape_writes, List.map_cons, List.map_nil]
    decide) hr

end Cert.RefSide

end
-- ==== Proof.RefRunCompose.lean ====
/-
  The reference's run, composed: after all 306 operations the result buffer holds the reference's term of the
  seven arguments, and the arguments are as launched.

  The stretches are run in order from the launch contents V0. No stretch writes an argument, so every stretch reads
  the arguments as launched (`Args`). Through the first slice's eight adapter stretches the dense product stays
  where the head left it while the running sum gains one adapter's step per stretch; the closing stretch adds the
  scaled sum into the first half of the columns. Through the second slice's stretches that array stays while a fresh
  sum gains its eight steps, and the last stretch adds it into the second half. What is left is `refTerm` of the
  arguments, its sums in the order the program adds them.
-/
import proofs.«110651_j74938589381272_2_alg».proof.Proof.RefRunFirst
import proofs.«110651_j74938589381272_2_alg».proof.Proof.RefRunSecond

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The seven arguments hold in `V` what they hold in `V0`. -/
structure Args (V0 V : Valuation τ sig (Elt F)) : Prop where
  a0 : V (Proc.devRef .tc main_arg0) = V0 (Proc.devRef .tc main_arg0)
  a1 : V (Proc.devRef .tc main_arg1) = V0 (Proc.devRef .tc main_arg1)
  a2 : V (Proc.devRef .tc main_arg2) = V0 (Proc.devRef .tc main_arg2)
  a3 : V (Proc.devRef .tc main_arg3) = V0 (Proc.devRef .tc main_arg3)
  a4 : V (Proc.devRef .tc main_arg4) = V0 (Proc.devRef .tc main_arg4)
  a5 : V (Proc.devRef .tc main_arg5) = V0 (Proc.devRef .tc main_arg5)
  a6 : V (Proc.devRef .tc main_arg6) = V0 (Proc.devRef .tc main_arg6)

theorem Args.refl (V0 : Valuation τ sig (Elt F)) : Args V0 V0 := ⟨rfl, rfl, rfl, rfl, rfl, rfl, rfl⟩

/-- A list of operations that writes no argument keeps them. -/
theorem Args.of_keep {V0 V : Valuation τ sig (Elt F)} {l : List (HloOp τ sig (Elt F))} (h : Args V0 V)
    (k0 : after l V (Proc.devRef .tc main_arg0) = V (Proc.devRef .tc main_arg0))
    (k1 : after l V (Proc.devRef .tc main_arg1) = V (Proc.devRef .tc main_arg1))
    (k2 : after l V (Proc.devRef .tc main_arg2) = V (Proc.devRef .tc main_arg2))
    (k3 : after l V (Proc.devRef .tc main_arg3) = V (Proc.devRef .tc main_arg3))
    (k4 : after l V (Proc.devRef .tc main_arg4) = V (Proc.devRef .tc main_arg4))
    (k5 : after l V (Proc.devRef .tc main_arg5) = V (Proc.devRef .tc main_arg5))
    (k6 : after l V (Proc.devRef .tc main_arg6) = V (Proc.devRef .tc main_arg6)) :
    Args V0 (after l V) :=
  ⟨k0.trans h.a0, k1.trans h.a1, k2.trans h.a2, k3.trans h.a3, k4.trans h.a4, k5.trans h.a5, k6.trans h.a6⟩

theorem Args.wHead {V0 V : Valuation τ sig (Elt F)} (h : Args V0 V) : Args V0 (after (wHead (F := F)) V) :=
  h.of_keep (wHead_keep V (by decide)) (wHead_keep V (by decide)) (wHead_keep V (by decide)) (wHead_keep V (by decide)) (wHead_keep V (by decide)) (wHead_keep V (by decide)) (wHead_keep V (by decide))

theorem Args.w0_0 {V0 V : Valuation τ sig (Elt F)} (h : Args V0 V) : Args V0 (after (w0_0 (F := F)) V) :=
  h.of_keep (w0_0_keep V (by decide)) (w0_0_keep V (by decide)) (w0_0_keep V (by decide)) (w0_0_keep V (by decide)) (w0_0_keep V (by decide)) (w0_0_keep V (by decide)) (w0_0_keep V (by decide))

theorem Args.w0_1 {V0 V : Valuation τ sig (Elt F)} (h : Args V0 V) : Args V0 (after (w0_1 (F := F)) V) :=
  h.of_keep (w0_1_keep V (by decide)) (w0_1_keep V (by decide)) (w0_1_keep V (by decide)) (w0_1_keep V (by decide)) (w0_1_keep V (by decide)) (w0_1_keep V (by decide)) (w0_1_keep V (by decide))

theorem Args.w0_2 {V0 V : Valuation τ sig (Elt F)} (h : Args V0 V) : Args V0 (after (w0_2 (F := F)) V) :=
  h.of_keep (w0_2_keep V (by decide)) (w0_2_keep V (by decide)) (w0_2_keep V (by decide)) (w0_2_keep V (by decide)) (w0_2_keep V (by decide)) (w0_2_keep V (by decide)) (w0_2_keep V (by decide))

theorem Args.w0_3 {V0 V : Valuation τ sig (Elt F)} (h : Args V0 V) : Args V0 (after (w0_3 (F := F)) V) :=
  h.of_keep (w0_3_keep V (by decide)) (w0_3_keep V (by decide)) (w0_3_keep V (by decide)) (w0_3_keep V (by decide)) (w0_3_keep V (by decide)) (w0_3_keep V (by decide)) (w0_3_keep V (by decide))

theorem Args.w0_4 {V0 V : Valuation τ sig (Elt F)} (h : Args V0 V) : Args V0 (after (w0_4 (F := F)) V) :=
  h.of_keep (w0_4_keep V (by decide)) (w0_4_keep V (by decide)) (w0_4_keep V (by decide)) (w0_4_keep V (by decide)) (w0_4_keep V (by decide)) (w0_4_keep V (by decide)) (w0_4_keep V (by decide))

theorem Args.w0_5 {V0 V : Valuation τ sig (Elt F)} (h : Args V0 V) : Args V0 (after (w0_5 (F := F)) V) :=
  h.of_keep (w0_5_keep V (by decide)) (w0_5_keep V (by decide)) (w0_5_keep V (by decide)) (w0_5_keep V (by decide)) (w0_5_keep V (by decide)) (w0_5_keep V (by decide)) (w0_5_keep V (by decide))

theorem Args.w0_6 {V0 V : Valuation τ sig (Elt F)} (h : Args V0 V) : Args V0 (after (w0_6 (F := F)) V) :=
  h.of_keep (w0_6_keep V (by decide)) (w0_6_keep V (by decide)) (w0_6_keep V (by decide)) (w0_6_keep V (by decide)) (w0_6_keep V (by decide)) (w0_6_keep V (by decide)) (w0_6_keep V (by decide))

theorem Args.w0_7 {V0 V : Valuation τ sig (Elt F)} (h : Args V0 V) : Args V0 (after (w0_7 (F := F)) V) :=
  h.of_keep (w0_7_keep V (by decide)) (w0_7_keep V (by decide)) (w0_7_keep V (by decide)) (w0_7_keep V (by decide)) (w0_7_keep V (by decide)) (w0_7_keep V (by decide)) (w0_7_keep V (by decide))

theorem Args.wTail0 {V0 V : Valuation τ sig (Elt F)} (h : Args V0 V) : Args V0 (after (wTail0 (F := F)) V) :=
  h.of_keep (wTail0_keep V (by decide)) (wTail0_keep V (by decide)) (wTail0_keep V (by decide)) (wTail0_keep V (by decide)) (wTail0_keep V (by decide)) (wTail0_keep V (by decide)) (wTail0_keep V (by decide))

theorem Args.wHead1 {V0 V : Valuation τ sig (Elt F)} (h : Args V0 V) : Args V0 (after (wHead1 (F := F)) V) :=
  h.of_keep (wHead1_keep V (by decide)) (wHead1_keep V (by decide)) (wHead1_keep V (by decide)) (wHead1_keep V (by decide)) (wHead1_keep V (by decide)) (wHead1_keep V (by decide)) (wHead1_keep V (by decide))

theorem Args.w1_0 {V0 V : Valuation τ sig (Elt F)} (h : Args V0 V) : Args V0 (after (w1_0 (F := F)) V) :=
  h.of_keep (w1_0_keep V (by decide)) (w1_0_keep V (by decide)) (w1_0_keep V (by decide)) (w1_0_keep V (by decide)) (w1_0_keep V (by decide)) (w1_0_keep V (by decide)) (w1_0_keep V (by decide))

theorem Args.w1_1 {V0 V : Valuation τ sig (Elt F)} (h : Args V0 V) : Args V0 (after (w1_1 (F := F)) V) :=
  h.of_keep (w1_1_keep V (by decide)) (w1_1_keep V (by decide)) (w1_1_keep V (by decide)) (w1_1_keep V (by decide)) (w1_1_keep V (by decide)) (w1_1_keep V (by decide)) (w1_1_keep V (by decide))

theorem Args.w1_2 {V0 V : Valuation τ sig (Elt F)} (h : Args V0 V) : Args V0 (after (w1_2 (F := F)) V) :=
  h.of_keep (w1_2_keep V (by decide)) (w1_2_keep V (by decide)) (w1_2_keep V (by decide)) (w1_2_keep V (by decide)) (w1_2_keep V (by decide)) (w1_2_keep V (by decide)) (w1_2_keep V (by decide))

theorem Args.w1_3 {V0 V : Valuation τ sig (Elt F)} (h : Args V0 V) : Args V0 (after (w1_3 (F := F)) V) :=
  h.of_keep (w1_3_keep V (by decide)) (w1_3_keep V (by decide)) (w1_3_keep V (by decide)) (w1_3_keep V (by decide)) (w1_3_keep V (by decide)) (w1_3_keep V (by decide)) (w1_3_keep V (by decide))

theorem Args.w1_4 {V0 V : Valuation τ sig (Elt F)} (h : Args V0 V) : Args V0 (after (w1_4 (F := F)) V) :=
  h.of_keep (w1_4_keep V (by decide)) (w1_4_keep V (by decide)) (w1_4_keep V (by decide)) (w1_4_keep V (by decide)) (w1_4_keep V (by decide)) (w1_4_keep V (by decide)) (w1_4_keep V (by decide))

theorem Args.w1_5 {V0 V : Valuation τ sig (Elt F)} (h : Args V0 V) : Args V0 (after (w1_5 (F := F)) V) :=
  h.of_keep (w1_5_keep V (by decide)) (w1_5_keep V (by decide)) (w1_5_keep V (by decide)) (w1_5_keep V (by decide)) (w1_5_keep V (by decide)) (w1_5_keep V (by decide)) (w1_5_keep V (by decide))

theorem Args.w1_6 {V0 V : Valuation τ sig (Elt F)} (h : Args V0 V) : Args V0 (after (w1_6 (F := F)) V) :=
  h.of_keep (w1_6_keep V (by decide)) (w1_6_keep V (by decide)) (w1_6_keep V (by decide)) (w1_6_keep V (by decide)) (w1_6_keep V (by decide)) (w1_6_keep V (by decide)) (w1_6_keep V (by decide))

theorem Args.w1_7 {V0 V : Valuation τ sig (Elt F)} (h : Args V0 V) : Args V0 (after (w1_7 (F := F)) V) :=
  h.of_keep (w1_7_keep V (by decide)) (w1_7_keep V (by decide)) (w1_7_keep V (by decide)) (w1_7_keep V (by decide)) (w1_7_keep V (by decide)) (w1_7_keep V (by decide)) (w1_7_keep V (by decide))

theorem Args.wTail1 {V0 V : Valuation τ sig (Elt F)} (h : Args V0 V) : Args V0 (after (wTail1 (F := F)) V) :=
  h.of_keep (wTail1_keep V (by decide)) (wTail1_keep V (by decide)) (wTail1_keep V (by decide)) (wTail1_keep V (by decide)) (wTail1_keep V (by decide)) (wTail1_keep V (by decide)) (wTail1_keep V (by decide))

/-- Through adapter 0's stretch of slice 0: the arguments and the carried array stay, the running sum gains the step. -/
theorem stage0_0 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v1) = D) (hs : V (Proc.devRef .tc main_v2) = P) :
    Args V0 (after (w0_0 (F := F)) V) ∧ after (w0_0 (F := F)) V (Proc.devRef .tc main_v1) = D
      ∧ after (w0_0 (F := F)) V (Proc.devRef .tc main_v15)
        = addf P (whereTerm 0 slices_S8x16x4096_S1x16x4096_0_0_0 slices_S8x4096x16_S1x4096x16_0_0_0 (V0 (Proc.devRef .tc main_arg0)) (V0 (Proc.devRef .tc main_arg1)) (V0 (Proc.devRef .tc main_arg3)) (V0 (Proc.devRef .tc main_arg5))) :=
  ⟨ha.w0_0, (w0_0_keep V (by decide)).trans hd, by rw [w0_0_result, hs, ha.a0, ha.a1, ha.a3, ha.a5]⟩

/-- Through adapter 1's stretch of slice 0: the arguments and the carried array stay, the running sum gains the step. -/
theorem stage0_1 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v1) = D) (hs : V (Proc.devRef .tc main_v15) = P) :
    Args V0 (after (w0_1 (F := F)) V) ∧ after (w0_1 (F := F)) V (Proc.devRef .tc main_v1) = D
      ∧ after (w0_1 (F := F)) V (Proc.devRef .tc main_v28)
        = addf P (whereTerm 1 slices_S8x16x4096_S1x16x4096_1_0_0 slices_S8x4096x16_S1x4096x16_1_0_0 (V0 (Proc.devRef .tc main_arg0)) (V0 (Proc.devRef .tc main_arg1)) (V0 (Proc.devRef .tc main_arg3)) (V0 (Proc.devRef .tc main_arg5))) :=
  ⟨ha.w0_1, (w0_1_keep V (by decide)).trans hd, by rw [w0_1_result, hs, ha.a0, ha.a1, ha.a3, ha.a5]⟩

/-- Through adapter 2's stretch of slice 0: the arguments and the carried array stay, the running sum gains the step. -/
theorem stage0_2 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v1) = D) (hs : V (Proc.devRef .tc main_v28) = P) :
    Args V0 (after (w0_2 (F := F)) V) ∧ after (w0_2 (F := F)) V (Proc.devRef .tc main_v1) = D
      ∧ after (w0_2 (F := F)) V (Proc.devRef .tc main_v41)
        = addf P (whereTerm 2 slices_S8x16x4096_S1x16x4096_2_0_0 slices_S8x4096x16_S1x4096x16_2_0_0 (V0 (Proc.devRef .tc main_arg0)) (V0 (Proc.devRef .tc main_arg1)) (V0 (Proc.devRef .tc main_arg3)) (V0 (Proc.devRef .tc main_arg5))) :=
  ⟨ha.w0_2, (w0_2_keep V (by decide)).trans hd, by rw [w0_2_result, hs, ha.a0, ha.a1, ha.a3, ha.a5]⟩

/-- Through adapter 3's stretch of slice 0: the arguments and the carried array stay, the running sum gains the step. -/
theorem stage0_3 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v1) = D) (hs : V (Proc.devRef .tc main_v41) = P) :
    Args V0 (after (w0_3 (F := F)) V) ∧ after (w0_3 (F := F)) V (Proc.devRef .tc main_v1) = D
      ∧ after (w0_3 (F := F)) V (Proc.devRef .tc main_v54)
        = addf P (whereTerm 3 slices_S8x16x4096_S1x16x4096_3_0_0 slices_S8x4096x16_S1x4096x16_3_0_0 (V0 (Proc.devRef .tc main_arg0)) (V0 (Proc.devRef .tc main_arg1)) (V0 (Proc.devRef .tc main_arg3)) (V0 (Proc.devRef .tc main_arg5))) :=
  ⟨ha.w0_3, (w0_3_keep V (by decide)).trans hd, by rw [w0_3_result, hs, ha.a0, ha.a1, ha.a3, ha.a5]⟩

/-- Through adapter 4's stretch of slice 0: the arguments and the carried array stay, the running sum gains the step. -/
theorem stage0_4 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v1) = D) (hs : V (Proc.devRef .tc main_v54) = P) :
    Args V0 (after (w0_4 (F := F)) V) ∧ after (w0_4 (F := F)) V (Proc.devRef .tc main_v1) = D
      ∧ after (w0_4 (F := F)) V (Proc.devRef .tc main_v67)
        = addf P (whereTerm 4 slices_S8x16x4096_S1x16x4096_4_0_0 slices_S8x4096x16_S1x4096x16_4_0_0 (V0 (Proc.devRef .tc main_arg0)) (V0 (Proc.devRef .tc main_arg1)) (V0 (Proc.devRef .tc main_arg3)) (V0 (Proc.devRef .tc main_arg5))) :=
  ⟨ha.w0_4, (w0_4_keep V (by decide)).trans hd, by rw [w0_4_result, hs, ha.a0, ha.a1, ha.a3, ha.a5]⟩

/-- Through adapter 5's stretch of slice 0: the arguments and the carried array stay, the running sum gains the step. -/
theorem stage0_5 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v1) = D) (hs : V (Proc.devRef .tc main_v67) = P) :
    Args V0 (after (w0_5 (F := F)) V) ∧ after (w0_5 (F := F)) V (Proc.devRef .tc main_v1) = D
      ∧ after (w0_5 (F := F)) V (Proc.devRef .tc main_v80)
        = addf P (whereTerm 5 slices_S8x16x4096_S1x16x4096_5_0_0 slices_S8x4096x16_S1x4096x16_5_0_0 (V0 (Proc.devRef .tc main_arg0)) (V0 (Proc.devRef .tc main_arg1)) (V0 (Proc.devRef .tc main_arg3)) (V0 (Proc.devRef .tc main_arg5))) :=
  ⟨ha.w0_5, (w0_5_keep V (by decide)).trans hd, by rw [w0_5_result, hs, ha.a0, ha.a1, ha.a3, ha.a5]⟩

/-- Through adapter 6's stretch of slice 0: the arguments and the carried array stay, the running sum gains the step. -/
theorem stage0_6 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v1) = D) (hs : V (Proc.devRef .tc main_v80) = P) :
    Args V0 (after (w0_6 (F := F)) V) ∧ after (w0_6 (F := F)) V (Proc.devRef .tc main_v1) = D
      ∧ after (w0_6 (F := F)) V (Proc.devRef .tc main_v93)
        = addf P (whereTerm 6 slices_S8x16x4096_S1x16x4096_6_0_0 slices_S8x4096x16_S1x4096x16_6_0_0 (V0 (Proc.devRef .tc main_arg0)) (V0 (Proc.devRef .tc main_arg1)) (V0 (Proc.devRef .tc main_arg3)) (V0 (Proc.devRef .tc main_arg5))) :=
  ⟨ha.w0_6, (w0_6_keep V (by decide)).trans hd, by rw [w0_6_result, hs, ha.a0, ha.a1, ha.a3, ha.a5]⟩

/-- Through adapter 7's stretch of slice 0: the arguments and the carried array stay, the running sum gains the step. -/
theorem stage0_7 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v1) = D) (hs : V (Proc.devRef .tc main_v93) = P) :
    Args V0 (after (w0_7 (F := F)) V) ∧ after (w0_7 (F := F)) V (Proc.devRef .tc main_v1) = D
      ∧ after (w0_7 (F := F)) V (Proc.devRef .tc main_v106)
        = addf P (whereTerm 7 slices_S8x16x4096_S1x16x4096_7_0_0 slices_S8x4096x16_S1x4096x16_7_0_0 (V0 (Proc.devRef .tc main_arg0)) (V0 (Proc.devRef .tc main_arg1)) (V0 (Proc.devRef .tc main_arg3)) (V0 (Proc.devRef .tc main_arg5))) :=
  ⟨ha.w0_7, (w0_7_keep V (by decide)).trans hd, by rw [w0_7_result, hs, ha.a0, ha.a1, ha.a3, ha.a5]⟩

/-- Through adapter 0's stretch of slice 1: the arguments and the carried array stay, the running sum gains the step. -/
theorem stage1_0 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v110) = D) (hs : V (Proc.devRef .tc main_v111) = P) :
    Args V0 (after (w1_0 (F := F)) V) ∧ after (w1_0 (F := F)) V (Proc.devRef .tc main_v110) = D
      ∧ after (w1_0 (F := F)) V (Proc.devRef .tc main_v124)
        = addf P (whereTerm 0 slices_S8x16x4096_S1x16x4096_0_0_0 slices_S8x4096x16_S1x4096x16_0_0_0 (V0 (Proc.devRef .tc main_arg0)) (V0 (Proc.devRef .tc main_arg1)) (V0 (Proc.devRef .tc main_arg4)) (V0 (Proc.devRef .tc main_arg6))) :=
  ⟨ha.w1_0, (w1_0_keep V (by decide)).trans hd, by rw [w1_0_result, hs, ha.a0, ha.a1, ha.a4, ha.a6]⟩

/-- Through adapter 1's stretch of slice 1: the arguments and the carried array stay, the running sum gains the step. -/
theorem stage1_1 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v110) = D) (hs : V (Proc.devRef .tc main_v124) = P) :
    Args V0 (after (w1_1 (F := F)) V) ∧ after (w1_1 (F := F)) V (Proc.devRef .tc main_v110) = D
      ∧ after (w1_1 (F := F)) V (Proc.devRef .tc main_v137)
        = addf P (whereTerm 1 slices_S8x16x4096_S1x16x4096_1_0_0 slices_S8x4096x16_S1x4096x16_1_0_0 (V0 (Proc.devRef .tc main_arg0)) (V0 (Proc.devRef .tc main_arg1)) (V0 (Proc.devRef .tc main_arg4)) (V0 (Proc.devRef .tc main_arg6))) :=
  ⟨ha.w1_1, (w1_1_keep V (by decide)).trans hd, by rw [w1_1_result, hs, ha.a0, ha.a1, ha.a4, ha.a6]⟩

/-- Through adapter 2's stretch of slice 1: the arguments and the carried array stay, the running sum gains the step. -/
theorem stage1_2 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v110) = D) (hs : V (Proc.devRef .tc main_v137) = P) :
    Args V0 (after (w1_2 (F := F)) V) ∧ after (w1_2 (F := F)) V (Proc.devRef .tc main_v110) = D
      ∧ after (w1_2 (F := F)) V (Proc.devRef .tc main_v150)
        = addf P (whereTerm 2 slices_S8x16x4096_S1x16x4096_2_0_0 slices_S8x4096x16_S1x4096x16_2_0_0 (V0 (Proc.devRef .tc main_arg0)) (V0 (Proc.devRef .tc main_arg1)) (V0 (Proc.devRef .tc main_arg4)) (V0 (Proc.devRef .tc main_arg6))) :=
  ⟨ha.w1_2, (w1_2_keep V (by decide)).trans hd, by rw [w1_2_result, hs, ha.a0, ha.a1, ha.a4, ha.a6]⟩

/-- Through adapter 3's stretch of slice 1: the arguments and the carried array stay, the running sum gains the step. -/
theorem stage1_3 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v110) = D) (hs : V (Proc.devRef .tc main_v150) = P) :
    Args V0 (after (w1_3 (F := F)) V) ∧ after (w1_3 (F := F)) V (Proc.devRef .tc main_v110) = D
      ∧ after (w1_3 (F := F)) V (Proc.devRef .tc main_v163)
        = addf P (whereTerm 3 slices_S8x16x4096_S1x16x4096_3_0_0 slices_S8x4096x16_S1x4096x16_3_0_0 (V0 (Proc.devRef .tc main_arg0)) (V0 (Proc.devRef .tc main_arg1)) (V0 (Proc.devRef .tc main_arg4)) (V0 (Proc.devRef .tc main_arg6))) :=
  ⟨ha.w1_3, (w1_3_keep V (by decide)).trans hd, by rw [w1_3_result, hs, ha.a0, ha.a1, ha.a4, ha.a6]⟩

/-- Through adapter 4's stretch of slice 1: the arguments and the carried array stay, the running sum gains the step. -/
theorem stage1_4 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v110) = D) (hs : V (Proc.devRef .tc main_v163) = P) :
    Args V0 (after (w1_4 (F := F)) V) ∧ after (w1_4 (F := F)) V (Proc.devRef .tc main_v110) = D
      ∧ after (w1_4 (F := F)) V (Proc.devRef .tc main_v176)
        = addf P (whereTerm 4 slices_S8x16x4096_S1x16x4096_4_0_0 slices_S8x4096x16_S1x4096x16_4_0_0 (V0 (Proc.devRef .tc main_arg0)) (V0 (Proc.devRef .tc main_arg1)) (V0 (Proc.devRef .tc main_arg4)) (V0 (Proc.devRef .tc main_arg6))) :=
  ⟨ha.w1_4, (w1_4_keep V (by decide)).trans hd, by rw [w1_4_result, hs, ha.a0, ha.a1, ha.a4, ha.a6]⟩

/-- Through adapter 5's stretch of slice 1: the arguments and the carried array stay, the running sum gains the step. -/
theorem stage1_5 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v110) = D) (hs : V (Proc.devRef .tc main_v176) = P) :
    Args V0 (after (w1_5 (F := F)) V) ∧ after (w1_5 (F := F)) V (Proc.devRef .tc main_v110) = D
      ∧ after (w1_5 (F := F)) V (Proc.devRef .tc main_v189)
        = addf P (whereTerm 5 slices_S8x16x4096_S1x16x4096_5_0_0 slices_S8x4096x16_S1x4096x16_5_0_0 (V0 (Proc.devRef .tc main_arg0)) (V0 (Proc.devRef .tc main_arg1)) (V0 (Proc.devRef .tc main_arg4)) (V0 (Proc.devRef .tc main_arg6))) :=
  ⟨ha.w1_5, (w1_5_keep V (by decide)).trans hd, by rw [w1_5_result, hs, ha.a0, ha.a1, ha.a4, ha.a6]⟩

/-- Through adapter 6's stretch of slice 1: the arguments and the carried array stay, the running sum gains the step. -/
theorem stage1_6 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v110) = D) (hs : V (Proc.devRef .tc main_v189) = P) :
    Args V0 (after (w1_6 (F := F)) V) ∧ after (w1_6 (F := F)) V (Proc.devRef .tc main_v110) = D
      ∧ after (w1_6 (F := F)) V (Proc.devRef .tc main_v202)
        = addf P (whereTerm 6 slices_S8x16x4096_S1x16x4096_6_0_0 slices_S8x4096x16_S1x4096x16_6_0_0 (V0 (Proc.devRef .tc main_arg0)) (V0 (Proc.devRef .tc main_arg1)) (V0 (Proc.devRef .tc main_arg4)) (V0 (Proc.devRef .tc main_arg6))) :=
  ⟨ha.w1_6, (w1_6_keep V (by decide)).trans hd, by rw [w1_6_result, hs, ha.a0, ha.a1, ha.a4, ha.a6]⟩

/-- Through adapter 7's stretch of slice 1: the arguments and the carried array stay, the running sum gains the step. -/
theorem stage1_7 {V0 V : Valuation τ sig (Elt F)} (ha : Args V0 V) {D : (⟨S8192x8192, .f32⟩ : BufTy).Contents (Elt F)} {P : (⟨S8192x4096, .f32⟩ : BufTy).Contents (Elt F)}
    (hd : V (Proc.devRef .tc main_v110) = D) (hs : V (Proc.devRef .tc main_v202) = P) :
    Args V0 (after (w1_7 (F := F)) V) ∧ after (w1_7 (F := F)) V (Proc.devRef .tc main_v110) = D
      ∧ after (w1_7 (F := F)) V (Proc.devRef .tc main_v215)
        = addf P (whereTerm 7 slices_S8x16x4096_S1x16x4096_7_0_0 slices_S8x4096x16_S1x4096x16_7_0_0 (V0 (Proc.devRef .tc main_arg0)) (V0 (Proc.devRef .tc main_arg1)) (V0 (Proc.devRef .tc main_arg4)) (V0 (Proc.devRef .tc main_arg6))) :=
  ⟨ha.w1_7, (w1_7_keep V (by decide)).trans hd, by rw [w1_7_result, hs, ha.a0, ha.a1, ha.a4, ha.a6]⟩

/-- The buffers after the first slice's stretches. -/
def afterFirst (V0 : Valuation τ sig (Elt F)) : Valuation τ sig (Elt F) :=
  after (wTail0 (F := F)) (after (w0_7 (F := F)) (after (w0_6 (F := F)) (after (w0_5 (F := F)) (after (w0_4 (F := F)) (after (w0_3 (F := F)) (after (w0_2 (F := F)) (after (w0_1 (F := F)) (after (w0_0 (F := F)) (after (wHead (F := F)) (V0))))))))))

/-- The buffers after the second slice's stretches too: after the whole program. -/
def afterSecond (V0 : Valuation τ sig (Elt F)) : Valuation τ sig (Elt F) :=
  after (wTail1 (F := F)) (after (w1_7 (F := F)) (after (w1_6 (F := F)) (after (w1_5 (F := F)) (after (w1_4 (F := F)) (after (w1_3 (F := F)) (after (w1_2 (F := F)) (after (w1_1 (F := F)) (after (w1_0 (F := F)) (after (wHead1 (F := F)) (afterFirst V0))))))))))

/-- After the first slice: the dense product with the first slice's scaled sum added into columns 0 … 4095. -/
theorem afterFirst_result (V0 : Valuation τ sig (Elt F)) :
    Args V0 (afterFirst V0) ∧ afterFirst V0 (Proc.devRef .tc main_v110)
      = Host.scatter scatter_S8192x8192_S1_S8192x4096_01_n_1_0 FloatOps.addf (denseTerm (V0 (Proc.devRef .tc main_arg0)) (V0 (Proc.devRef .tc main_arg2))) (startTerm (F := F) 0#32) (sliceTerm (V0 (Proc.devRef .tc main_arg0)) (V0 (Proc.devRef .tc main_arg1)) (V0 (Proc.devRef .tc main_arg3)) (V0 (Proc.devRef .tc main_arg5))) := by
  have aH := (Args.refl V0).wHead
  obtain ⟨a1, d1, s1⟩ := stage0_0 aH (wHead_dense V0) (wHead_zeros V0)
  obtain ⟨a2, d2, s2⟩ := stage0_1 a1 d1 s1
  obtain ⟨a3, d3, s3⟩ := stage0_2 a2 d2 s2
  obtain ⟨a4, d4, s4⟩ := stage0_3 a3 d3 s3
  obtain ⟨a5, d5, s5⟩ := stage0_4 a4 d4 s4
  obtain ⟨a6, d6, s6⟩ := stage0_5 a5 d5 s5
  obtain ⟨a7, d7, s7⟩ := stage0_6 a6 d6 s6
  obtain ⟨a8, d8, s8⟩ := stage0_7 a7 d7 s7
  refine ⟨a8.wTail0, ?_⟩
  unfold afterFirst
  rw [wTail0_result, d8, s8]
  rfl

/-- After the second slice: that array with the second slice's scaled sum added into columns 4096 … 8191. -/
theorem afterSecond_result (V0 : Valuation τ sig (Elt F)) :
    Args V0 (afterSecond V0) ∧ afterSecond V0 (Proc.devRef .tc main_v219)
      = refTerm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  obtain ⟨aF, xF⟩ := afterFirst_result V0
  have aH := aF.wHead1
  obtain ⟨a1, d1, s1⟩ := stage1_0 aH ((wHead1_keep (afterFirst V0) (by decide)).trans xF) (wHead1_zeros (afterFirst V0))
  obtain ⟨a2, d2, s2⟩ := stage1_1 a1 d1 s1
  obtain ⟨a3, d3, s3⟩ := stage1_2 a2 d2 s2
  obtain ⟨a4, d4, s4⟩ := stage1_3 a3 d3 s3
  obtain ⟨a5, d5, s5⟩ := stage1_4 a4 d4 s4
  obtain ⟨a6, d6, s6⟩ := stage1_5 a5 d5 s5
  obtain ⟨a7, d7, s7⟩ := stage1_6 a6 d6 s6
  obtain ⟨a8, d8, s8⟩ := stage1_7 a7 d7 s7
  refine ⟨a8.wTail1, ?_⟩
  unfold afterSecond
  rw [wTail1_result, d8, s8]
  rfl

/-- The whole program is the stretches in order. -/
theorem after_ops (V0 : Valuation τ sig (Elt F)) : after (ops (F := F)) V0 = afterSecond V0 := by
  unfold ops afterSecond afterFirst
  simp only [after_append]

/-- After the program the result buffer holds the reference's term of the arguments as launched. -/
theorem ops_result (V0 : Valuation τ sig (Elt F)) :
    after (ops (F := F)) V0 (Proc.devRef .tc main_v219) = refTerm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  rw [after_ops]; exact (afterSecond_result V0).2

/-- After the program the arguments are as launched. -/
theorem ops_args (V0 : Valuation τ sig (Elt F)) : Args V0 (after (ops (F := F)) V0) := by
  rw [after_ops]; exact (afterSecond_result V0).1

end Cert.RefSide

end
-- ==== Proof.RefRun.lean ====
/-
  The reference's run: every execution of the reference program ends with the result buffer holding the
  reference's term of the seven arguments, and with the arguments unchanged.

  The program is a straight line of array operations on one device, so every weakly fair execution terminates and
  leaves each buffer at the fold of the operations' results over the launch contents. That fold was read stretch
  by stretch: the result buffer holds `refTerm` of the arguments as launched, and no operation writes an argument.
-/
import Idealize.ShloMosaic.PureOps.Ideal.Laws
import proofs.«110651_j74938589381272_2_alg».proof.Proof.RefMainEq
import proofs.«110651_j74938589381272_2_alg».proof.Proof.RefOpsFacts
import proofs.«110651_j74938589381272_2_alg».proof.Proof.RefRunCompose

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- From the launch contents of a device the program leaves `refTerm` of its arguments in the result buffer. -/
theorem ops_result_launch (m : (ℓ : Loc nD τ sig) → Buf (Elt F) ℓ) (c : Dev nD) :
    after (ops (F := F)) (launchContents m c) (Proc.devRef .tc main_v219)
      = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  ops_result (launchContents m c)

/-- From the launch contents the program leaves argument 0 as launched. -/
theorem ops_arg0_launch (m : (ℓ : Loc nD τ sig) → Buf (Elt F) ℓ) (c : Dev nD) :
    after (ops (F := F)) (launchContents m c) (Proc.devRef .tc main_arg0) = m ((c.tc : Thread nD τ).loc main_arg0) :=
  (ops_args (launchContents m c)).a0

/-- From the launch contents the program leaves argument 1 as launched. -/
theorem ops_arg1_launch (m : (ℓ : Loc nD τ sig) → Buf (Elt F) ℓ) (c : Dev nD) :
    after (ops (F := F)) (launchContents m c) (Proc.devRef .tc main_arg1) = m ((c.tc : Thread nD τ).loc main_arg1) :=
  (ops_args (launchContents m c)).a1

/-- From the launch contents the program leaves argument 2 as launched. -/
theorem ops_arg2_launch (m : (ℓ : Loc nD τ sig) → Buf (Elt F) ℓ) (c : Dev nD) :
    after (ops (F := F)) (launchContents m c) (Proc.devRef .tc main_arg2) = m ((c.tc : Thread nD τ).loc main_arg2) :=
  (ops_args (launchContents m c)).a2

/-- From the launch contents the program leaves argument 3 as launched. -/
theorem ops_arg3_launch (m : (ℓ : Loc nD τ sig) → Buf (Elt F) ℓ) (c : Dev nD) :
    after (ops (F := F)) (launchContents m c) (Proc.devRef .tc main_arg3) = m ((c.tc : Thread nD τ).loc main_arg3) :=
  (ops_args (launchContents m c)).a3

/-- From the launch contents the program leaves argument 4 as launched. -/
theorem ops_arg4_launch (m : (ℓ : Loc nD τ sig) → Buf (Elt F) ℓ) (c : Dev nD) :
    after (ops (F := F)) (launchContents m c) (Proc.devRef .tc main_arg4) = m ((c.tc : Thread nD τ).loc main_arg4) :=
  (ops_args (launchContents m c)).a4

/-- From the launch contents the program leaves argument 5 as launched. -/
theorem ops_arg5_launch (m : (ℓ : Loc nD τ sig) → Buf (Elt F) ℓ) (c : Dev nD) :
    after (ops (F := F)) (launchContents m c) (Proc.devRef .tc main_arg5) = m ((c.tc : Thread nD τ).loc main_arg5) :=
  (ops_args (launchContents m c)).a5

/-- From the launch contents the program leaves argument 6 as launched. -/
theorem ops_arg6_launch (m : (ℓ : Loc nD τ sig) → Buf (Elt F) ℓ) (c : Dev nD) :
    after (ops (F := F)) (launchContents m c) (Proc.devRef .tc main_arg6) = m ((c.tc : Thread nD τ).loc main_arg6) :=
  (ops_args (launchContents m c)).a6

-- the list of operations is used folded from here on: every fact about it is stated about `ops` itself
attribute [local irreducible] ops

/-- On every device, for any float values, from any memory with zero counters: every weakly fair execution of the
    reference terminates with the result at `refTerm` of the arguments and the arguments unchanged. -/
theorem ref_run_gen (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v219) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have hrun := run_seq scopedRefs_eq scopedSems_eq defs (main (F := F)) (fun _ => ops (F := F)) main_eq (fun _ => ops_sub) m ρ (fun _ => ops_fresh)
  refine (θ_run defs _ _).mono (fun r h c => ?_) hrun
  exact ⟨(h c main_v219).trans (ops_result_launch m c),
    (h c main_arg0).trans (ops_arg0_launch m c),
    (h c main_arg1).trans (ops_arg1_launch m c),
    (h c main_arg2).trans (ops_arg2_launch m c),
    (h c main_arg3).trans (ops_arg3_launch m c),
    (h c main_arg4).trans (ops_arg4_launch m c),
    (h c main_arg5).trans (ops_arg5_launch m c),
    (h c main_arg6).trans (ops_arg6_launch m c)⟩

/-- The same at the extended reals. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v219) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ref_run_gen m ρ

end Cert.RefSide

end
-- ==== Proof.RefAdapters.lean ====
/-
  One adapter's step of the reference, read at an entry.

  For each of the eight adapters l the reference compares the tokens' adapter numbers with l, takes row l of the
  down table A (ranks × inputs) and of the up table B (outputs × ranks), transposes both, multiplies the activations
  by the first and the result by the second, and keeps the product where the token's number is l and 0.0 elsewhere.
  That step is the same composition of host operations for every adapter and both slices; it is stated here once, as a
  function of the adapter number and the two tables, and read at an entry (t, j):

      if tl t = l then ∑ r, (∑ k, x (t, k) * A (l, r, k)) * B (l, j, r) else 0.

  The step as the reference applies it is the definition `whereTerm` of the module of the reference's terms.

  A transpose, a reshape that drops a leading axis of size one and a slice of one row only move entries; a broadcast
  repeats them; a dot_general contracting the one shared axis is the sum of products over that axis.
-/
import proofs.«110651_j74938589381272_2_alg».proof.Proof.RefTerm
import Idealize.ShloMosaic.Lib.Pipeline.Value
import Idealize.ShloMosaic.Lib.ValueIdx
import Idealize.ShloMosaic.PureOps.Ideal.Laws
import proofs.«110651_j74938589381272_2_alg».proof.Proof.LoraSpec
import proofs.«110651_j74938589381272_2_alg».proof.Proof.LibRowsCols

noncomputable section

namespace Cert.RefSide

open Cert.ReferenceIdeal Cert.ReferenceIdeal.Gen Idealize.ShloMosaic Idealize.ShloMosaic.ValueIdx
open Cert.LoraSpec Cert.Dense

/-- A select on the equality test of two words is the if on their equality. -/
theorem select_cmpi_eq {α : Type} {w : Nat} (a b : BitVec w) (A B : α) :
    Scalar.select (IntOp.cmpi .eq a b) A B = if a = b then A else B := by
  unfold Scalar.select IntOp.cmpi
  by_cases h : a = b
  · simp [h]
  · have hb : (a == b) = false := beq_eq_false_iff_ne.2 h
    simp [h, hb]

/-- The three contractions of the reference are rows times columns: each contracts the left operand's columns with the
    right operand's rows, the output's row coming from the left and its column from the right. -/
theorem rowsCols_dense : RowsCols dot_S8192x4096_S4096x8192_S8192x8192_1_0_0_1_n_n where
  rank := rfl
  size := rfl
  l0 := fun j k => by
    unfold DotDims.lhsIdx
    rw [dif_neg (show ¬(0 : Fin S8192x4096.rank) ∈ dot_S8192x4096_S4096x8192_S8192x8192_1_0_0_1_n_n.lhsBatch by decide),
      dif_pos (show (0 : Fin S8192x4096.rank) ∈ dot_S8192x4096_S4096x8192_S8192x8192_1_0_0_1_n_n.lhsNonContracting by decide)]
    rfl
  l1 := fun j k => dot_S8192x4096_S4096x8192_S8192x8192_1_0_0_1_n_n.lhsIdx_val_of_single rfl j k
  r0 := fun j k => dot_S8192x4096_S4096x8192_S8192x8192_1_0_0_1_n_n.rhsIdx_val_of_single rfl j k
  r1 := fun j k => by
    unfold DotDims.rhsIdx
    rw [dif_neg (show ¬(1 : Fin S4096x8192.rank) ∈ dot_S8192x4096_S4096x8192_S8192x8192_1_0_0_1_n_n.rhsBatch by decide),
      dif_pos (show (1 : Fin S4096x8192.rank) ∈ dot_S8192x4096_S4096x8192_S8192x8192_1_0_0_1_n_n.rhsNonContracting by decide)]
    rfl
theorem rowsCols_down : RowsCols dot_S8192x4096_S4096x16_S8192x16_1_0_0_1_n_n where
  rank := rfl
  size := rfl
  l0 := fun j k => by
    unfold DotDims.lhsIdx
    rw [dif_neg (show ¬(0 : Fin S8192x4096.rank) ∈ dot_S8192x4096_S4096x16_S8192x16_1_0_0_1_n_n.lhsBatch by decide),
      dif_pos (show (0 : Fin S8192x4096.rank) ∈ dot_S8192x4096_S4096x16_S8192x16_1_0_0_1_n_n.lhsNonContracting by decide)]
    rfl
  l1 := fun j k => dot_S8192x4096_S4096x16_S8192x16_1_0_0_1_n_n.lhsIdx_val_of_single rfl j k
  r0 := fun j k => dot_S8192x4096_S4096x16_S8192x16_1_0_0_1_n_n.rhsIdx_val_of_single rfl j k
  r1 := fun j k => by
    unfold DotDims.rhsIdx
    rw [dif_neg (show ¬(1 : Fin S4096x16.rank) ∈ dot_S8192x4096_S4096x16_S8192x16_1_0_0_1_n_n.rhsBatch by decide),
      dif_pos (show (1 : Fin S4096x16.rank) ∈ dot_S8192x4096_S4096x16_S8192x16_1_0_0_1_n_n.rhsNonContracting by decide)]
    rfl
theorem rowsCols_up : RowsCols dot_S8192x16_S16x4096_S8192x4096_1_0_0_1_n_n where
  rank := rfl
  size := rfl
  l0 := fun j k => by
    unfold DotDims.lhsIdx
    rw [dif_neg (show ¬(0 : Fin S8192x16.rank) ∈ dot_S8192x16_S16x4096_S8192x4096_1_0_0_1_n_n.lhsBatch by decide),
      dif_pos (show (0 : Fin S8192x16.rank) ∈ dot_S8192x16_S16x4096_S8192x4096_1_0_0_1_n_n.lhsNonContracting by decide)]
    rfl
  l1 := fun j k => dot_S8192x16_S16x4096_S8192x4096_1_0_0_1_n_n.lhsIdx_val_of_single rfl j k
  r0 := fun j k => dot_S8192x16_S16x4096_S8192x4096_1_0_0_1_n_n.rhsIdx_val_of_single rfl j k
  r1 := fun j k => by
    unfold DotDims.rhsIdx
    rw [dif_neg (show ¬(1 : Fin S16x4096.rank) ∈ dot_S8192x16_S16x4096_S8192x4096_1_0_0_1_n_n.rhsBatch by decide),
      dif_pos (show (1 : Fin S16x4096.rank) ∈ dot_S8192x16_S16x4096_S8192x4096_1_0_0_1_n_n.rhsNonContracting by decide)]
    rfl

/-- A rows-times-columns dot_general at the entry (r, j). -/
theorem dotGeneral_ix2 {R K N : Nat} {d : DotDims ⟨2, ![R, K]⟩ ⟨2, ![K, N]⟩ ⟨2, ![R, N]⟩} (h : RowsCols d)
    (a : FVec Ideal ⟨2, ![R, K]⟩ .f32) (w : FVec Ideal ⟨2, ![K, N]⟩ .f32) (r : Fin R) (j : Fin N) :
    Host.dotGeneral d none a w (ix2 r j) = ∑ k : Fin K, a (ix2 r k) * w (ix2 k j) :=
  dotGeneral_apply h none a w (ix2 r j)

/-- Row l of the down table, transposed: entry (k, r) is A (l, r, k). -/
theorem downT_apply (l : Nat) (hl : l < 8) (hA : S8x16x4096.Slices ![l, 0, 0] S1x16x4096)
    (A : (⟨S8x16x4096, .f32⟩ : BufTy).Contents (Elt Ideal)) (k : Fin 4096) (r : Fin 16) :
    transpose S4096x16 [1, 0] (shapeCast S16x4096 (extractStridedSlice S1x16x4096 ![l, 0, 0] A hA) shapeCasts_S1x16x4096_S16x4096)
        transposes_S16x4096_S4096x16_1_0 (ix2 k r) = A (ix3 (⟨l, hl⟩ : Fin 8) r k) := by
  refine (transpose_apply [1, 0] _ transposes_S16x4096_S4096x16_1_0 (ix2 k r) (ix2 r k) (fun b => match b with
    | ⟨0, _⟩ => rfl
    | ⟨1, _⟩ => rfl)).trans ?_
  refine (shapeCast_apply _ shapeCasts_S1x16x4096_S16x4096 (ix2 r k) (ix3 (0 : Fin 1) r k) ?_).trans ?_
  · rewrite [Shape.rowMajor_val_three, Shape.rowMajor_val_two]
    show (0 * 16 + r.val) * 4096 + k.val = r.val * 4096 + k.val
    omega
  · exact extractStridedSlice_apply ![l, 0, 0] A hA (ix3 (0 : Fin 1) r k) (ix3 (⟨l, hl⟩ : Fin 8) r k) (fun a => match a with
      | ⟨0, _⟩ => by show l = l + 0; omega
      | ⟨1, _⟩ => by show r.val = 0 + r.val; omega
      | ⟨2, _⟩ => by show k.val = 0 + k.val; omega)

/-- Row l of the up table, transposed: entry (r, j) is B (l, j, r). -/
theorem upT_apply (l : Nat) (hl : l < 8) (hB : S8x4096x16.Slices ![l, 0, 0] S1x4096x16)
    (B : (⟨S8x4096x16, .f32⟩ : BufTy).Contents (Elt Ideal)) (r : Fin 16) (j : Fin 4096) :
    transpose S16x4096 [1, 0] (shapeCast S4096x16 (extractStridedSlice S1x4096x16 ![l, 0, 0] B hB) shapeCasts_S1x4096x16_S4096x16)
        transposes_S4096x16_S16x4096_1_0 (ix2 r j) = B (ix3 (⟨l, hl⟩ : Fin 8) j r) := by
  refine (transpose_apply [1, 0] _ transposes_S4096x16_S16x4096_1_0 (ix2 r j) (ix2 j r) (fun b => match b with
    | ⟨0, _⟩ => rfl
    | ⟨1, _⟩ => rfl)).trans ?_
  refine (shapeCast_apply _ shapeCasts_S1x4096x16_S4096x16 (ix2 j r) (ix3 (0 : Fin 1) j r) ?_).trans ?_
  · rewrite [Shape.rowMajor_val_three, Shape.rowMajor_val_two]
    show (0 * 4096 + j.val) * 16 + r.val = j.val * 16 + r.val
    omega
  · exact extractStridedSlice_apply ![l, 0, 0] B hB (ix3 (0 : Fin 1) j r) (ix3 (⟨l, hl⟩ : Fin 8) j r) (fun a => match a with
      | ⟨0, _⟩ => by show l = l + 0; omega
      | ⟨1, _⟩ => by show j.val = 0 + j.val; omega
      | ⟨2, _⟩ => by show r.val = 0 + r.val; omega)

/-- The mask of adapter l, broadcast over the columns: at (t, j) the test of token t's number against l. -/
theorem mask_apply (l : Nat) (x1 : (⟨S8192, .i32⟩ : BufTy).Contents (Elt Ideal)) (t : Fin 8192) (j : Fin 4096) :
    broadcastInDim S8192x4096 ![0, 1] bcast_S8192x1_S8192x4096_0_1 (broadcastInDim S8192x1 ![0] bcast_S8192_S8192x1_0
        (cmpi .eq x1 (broadcastInDim S8192 ![] bcast_S_S8192 (constantI S_ 32 (BitVec.ofNat 32 l))))) (ix2 t j)
      = IntOp.cmpi .eq (x1 (ix1 t)) (BitVec.ofNat 32 l) := by
  refine (broadcastInDim_apply _ bcast_S8192x1_S8192x4096_0_1 _ (ix2 t j) (ix2 t (0 : Fin 1)) (fun a => match a with
    | ⟨0, _⟩ => by show t.val = if (8192 : Nat) = 1 then 0 else t.val; rw [if_neg (by decide)]
    | ⟨1, _⟩ => by show 0 = if (1 : Nat) = 1 then 0 else j.val; rw [if_pos rfl])).trans ?_
  refine (broadcastInDim_apply _ bcast_S8192_S8192x1_0 _ (ix2 t (0 : Fin 1)) (ix1 t) (fun a => match a with
    | ⟨0, _⟩ => by show t.val = if (8192 : Nat) = 1 then 0 else t.val; rw [if_neg (by decide)])).trans ?_
  show IntOp.cmpi .eq (x1 (ix1 t)) (broadcastInDim S8192 ![] bcast_S_S8192 (constantI S_ 32 (BitVec.ofNat 32 l)) (ix1 t)) = _
  rw [broadcastInDim_apply _ bcast_S_S8192 _ (ix1 t) ix0 (fun a => a.elim0)]
  rfl

/-- The broadcast 0.0 is zero everywhere. -/
theorem zeros_apply (i : S8192x4096.Idx) :
    broadcastInDim S8192x4096 ![] bcast_S_S8192x4096 (id (constant (F := Ideal) S_ .f32 0x00000000#32)) i = 0 := by
  rw [broadcastInDim_apply _ bcast_S_S8192x4096 _ i ix0 (fun a => a.elim0)]
  exact Ideal.ofBits_zero_f32

/-- A broadcast float literal reads the literal's value everywhere. -/
theorem bcastConst_apply (b : BitVec 32) (i : S8192x4096.Idx) :
    broadcastInDim S8192x4096 ![] bcast_S_S8192x4096 (constant (F := Ideal) S_ .f32 b) i = Ideal.ofBits .f32 b := by
  rw [broadcastInDim_apply _ bcast_S_S8192x4096 _ i ix0 (fun a => a.elim0)]
  rfl

/-- Adapter l's step at (t, j): its low-rank term where the token's number is l, zero elsewhere. -/
theorem whereTerm_apply (l : Nat) (hl : l < 8) (hA : S8x16x4096.Slices ![l, 0, 0] S1x16x4096)
    (hB : S8x4096x16.Slices ![l, 0, 0] S1x4096x16)
    (x0 : (⟨S8192x4096, .f32⟩ : BufTy).Contents (Elt Ideal)) (x1 : (⟨S8192, .i32⟩ : BufTy).Contents (Elt Ideal))
    (A : (⟨S8x16x4096, .f32⟩ : BufTy).Contents (Elt Ideal)) (B : (⟨S8x4096x16, .f32⟩ : BufTy).Contents (Elt Ideal))
    (t : Fin 8192) (j : Fin 4096) :
    whereTerm (F := Ideal) l hA hB x0 x1 A B (ix2 t j) =
      if x1 (ix1 t) = BitVec.ofNat 32 l then adapterTerm x0 A B t j ⟨l, hl⟩ else 0 := by
  unfold whereTerm
  rw [select_apply, mask_apply, zeros_apply, select_cmpi_eq, dotGeneral_ix2 rowsCols_up]
  unfold adapterTerm proj
  refine if_congr Iff.rfl (Finset.sum_congr rfl fun r _ => ?_) rfl
  rw [dotGeneral_ix2 rowsCols_down, upT_apply l hl hB B r j]
  refine congrArg (· * _) (Finset.sum_congr rfl fun k _ => ?_)
  rw [downT_apply l hl hA A k r]

end Cert.RefSide

end
-- ==== Proof.RefSlices.lean ====
/-
  The low-rank term of each slice, as the reference computes it.

  For a slice's pair of tables the reference starts from a broadcast 0.0, adds the eight adapter steps (adapter 0 first)
  one after the other, and multiplies the sum by a broadcast 1.0. That composition of host operations is the definition
  sliceTerm of the module of the reference's terms. On the extended reals, at an entry (t, j), it is

      1 * (0 + w 0 + w 1 + … + w 7),   w l = if tl t = l then (adapter l's term at (t, j)) else 0,

  the sum over the eight adapters: the slice's low-rank term.
-/
import proofs.«110651_j74938589381272_2_alg».proof.Proof.RefAdapters

noncomputable section

namespace Cert.RefSide

open Cert.ReferenceIdeal Cert.ReferenceIdeal.Gen Idealize.ShloMosaic Idealize.ShloMosaic.ValueIdx
open Cert.LoraSpec

/-- At (t, j) the scaled sum is the slice's low-rank term. -/
theorem sliceTerm_apply (x0 : (⟨S8192x4096, .f32⟩ : BufTy).Contents (Elt Ideal)) (x1 : (⟨S8192, .i32⟩ : BufTy).Contents (Elt Ideal))
    (A : (⟨S8x16x4096, .f32⟩ : BufTy).Contents (Elt Ideal)) (B : (⟨S8x4096x16, .f32⟩ : BufTy).Contents (Elt Ideal))
    (t : Fin 8192) (j : Fin 4096) :
    sliceTerm (F := Ideal) x0 x1 A B (ix2 t j) = lowRank x0 x1 A B t j := by
  unfold sliceTerm
  simp only [mulf_apply, addf_apply]
  rw [bcastConst_apply, bcastConst_apply]
  rw [whereTerm_apply 0 (by omega),
    whereTerm_apply 1 (by omega),
    whereTerm_apply 2 (by omega),
    whereTerm_apply 3 (by omega),
    whereTerm_apply 4 (by omega),
    whereTerm_apply 5 (by omega),
    whereTerm_apply 6 (by omega),
    whereTerm_apply 7 (by omega)]
  rw [ofBits_one_f32, one_mul, Ideal.ofBits_zero_f32]
  unfold lowRank
  rw [Fin.sum_univ_eight, zero_add]
  rfl

end Cert.RefSide

end
-- ==== Proof.LibScatterWindow.lean ====
/-
  A scatter read at an index.

  Host.scatter d f x idx upd is a left fold over the update indices, in row-major order: the update index j whose
  result index d.resultIdx? j idx is some i replaces the element at i by f (the element at i so far) (upd j), and
  an update index whose result index is none changes nothing.

  * Over any list of steps of that kind, an index no step lands on keeps its value, and an index exactly one step
    lands on (the list having no repetitions) ends as f (its first value) (that step's update).
  * Hence the scatter at an index i: x i when no update index lands on i, and f (x i) (upd j₀) when j₀ is the one update
    index that does.
  * For an operand of R rows and C columns, updates of R rows and K columns whose two axes are both window axes, and ONE
    start index naming a column c₀ (the scatter dimension is the column axis; the row axis starts at 0), update index
    (r, k) lands at (r, c₀ + k) when that column exists. So the scatter at (r, c) is f (x (r, c)) (upd (r, c - c₀)) for
    c₀ ≤ c < c₀ + K and x (r, c) for every other column.
-/
import Idealize.ShloMosaic.PureOps.ShapeOps
import Idealize.ShloMosaic.Lib.ValueIdx

namespace ScatterWindow

open Idealize.ShloMosaic Idealize.ShloMosaic.ValueIdx

/-! ## A fold of steps that each replace at most one element -/

section Fold
variable {N I α : Type} [DecidableEq I]

/-- An index no step of the fold lands on keeps its value. -/
theorem foldl_apply_of_not_hit (g : N → Option I) (f : α → α → α) (upd : N → α) (step : (I → α) → N → (I → α))
    (hsome : ∀ r n i₀, g n = some i₀ → step r n = fun i' => if i' = i₀ then f (r i₀) (upd n) else r i')
    (hnone : ∀ r n, g n = none → step r n = r) (i : I) :
    ∀ (L : List N) (x : I → α), (∀ n ∈ L, g n ≠ some i) → L.foldl step x i = x i
  | [], _, _ => rfl
  | n :: L, x, h => by
    rw [List.foldl_cons, foldl_apply_of_not_hit g f upd step hsome hnone i L (step x n)
      (fun m hm => h m (List.mem_cons_of_mem _ hm))]
    have hn : g n ≠ some i := h n (List.mem_cons.2 (Or.inl rfl))
    cases hg : g n with
    | none => rw [hnone x n hg]
    | some i₀ =>
      rw [hsome x n i₀ hg]
      have hne : i ≠ i₀ := fun e => hn (by rw [hg, e])
      simp only [if_neg hne]

/-- An index exactly one step of a fold without repetitions lands on ends as f of its first value and that step's update. -/
theorem foldl_apply_of_unique (g : N → Option I) (f : α → α → α) (upd : N → α) (step : (I → α) → N → (I → α))
    (hsome : ∀ r n i₀, g n = some i₀ → step r n = fun i' => if i' = i₀ then f (r i₀) (upd n) else r i')
    (hnone : ∀ r n, g n = none → step r n = r) (i : I) (n₀ : N) (hg₀ : g n₀ = some i) :
    ∀ (L : List N) (x : I → α), L.Nodup → n₀ ∈ L → (∀ n ∈ L, g n = some i → n = n₀) →
      L.foldl step x i = f (x i) (upd n₀)
  | [], _, _, hmem, _ => absurd hmem (List.not_mem_nil)
  | n :: L, x, hnd, hmem, huniq => by
    rw [List.foldl_cons]
    have hnd' := List.nodup_cons.1 hnd
    by_cases hn : n = n₀
    · subst hn
      have hrest : ∀ m ∈ L, g m ≠ some i := fun m hm hgm =>
        hnd'.1 ((huniq m (List.mem_cons_of_mem _ hm) hgm) ▸ hm)
      rw [foldl_apply_of_not_hit g f upd step hsome hnone i L (step x n) hrest, hsome x n i hg₀]
      simp only [if_true]
    · have hmem' : n₀ ∈ L := (List.mem_cons.1 hmem).resolve_left (Ne.symm hn)
      rw [foldl_apply_of_unique g f upd step hsome hnone i n₀ hg₀ L (step x n) hnd'.2 hmem'
        (fun m hm => huniq m (List.mem_cons_of_mem _ hm))]
      have hgn : g n ≠ some i := fun e => hn (huniq n (List.mem_cons.2 (Or.inl rfl)) e)
      congr 1
      cases hg : g n with
      | none => rw [hnone x n hg]
      | some i₀ =>
        rw [hsome x n i₀ hg]
        have hne : i ≠ i₀ := fun e => hgn (by rw [hg, e])
        simp only [if_neg hne]

end Fold

/-! ## The scatter at an index -/

section Scatter
variable {α : Type} {s si u : Shape} {w : Nat}

/-- At an index no update lands on the scatter leaves the operand's element. -/
theorem scatter_apply_of_not_hit (d : ScatterDims s si u) (f : α → α → α) (x : s.Idx → α) (idx : IVec si w)
    (upd : u.Idx → α) (i : s.Idx) (h : ∀ j, d.resultIdx? j idx ≠ some i) :
    Host.scatter d f x idx upd i = x i := by
  unfold Host.scatter
  exact foldl_apply_of_not_hit (fun n => d.resultIdx? (u.rowMajor.symm n) idx) f (fun n => upd (u.rowMajor.symm n)) _
    (fun r n i₀ hg => by simp only [hg]) (fun r n hg => by simp only [hg]) i _ x (fun n _ => h _)

/-- At an index exactly one update index lands on the scatter applies the body once, to the operand's element and that update. -/
theorem scatter_apply_of_unique (d : ScatterDims s si u) (f : α → α → α) (x : s.Idx → α) (idx : IVec si w)
    (upd : u.Idx → α) (i : s.Idx) (j₀ : u.Idx) (h₀ : d.resultIdx? j₀ idx = some i)
    (huniq : ∀ j, d.resultIdx? j idx = some i → j = j₀) :
    Host.scatter d f x idx upd i = f (x i) (upd j₀) := by
  unfold Host.scatter
  rw [show f (x i) (upd j₀) = f (x i) (upd (u.rowMajor.symm (u.rowMajor j₀))) by rw [Equiv.symm_apply_apply]]
  exact foldl_apply_of_unique (fun n => d.resultIdx? (u.rowMajor.symm n) idx) f (fun n => upd (u.rowMajor.symm n)) _
    (fun r n i₀ hg => by simp only [hg]) (fun r n hg => by simp only [hg]) i (u.rowMajor j₀)
    (by simp only [Equiv.symm_apply_apply]; exact h₀) (List.finRange u.numel) x (List.nodup_finRange _)
    (List.mem_finRange _) (fun n _ hn => by
      have := huniq _ hn
      rw [← this, Equiv.apply_symm_apply])

end Scatter

/-! ## Two window axes and one start column -/

section Cols
variable {α : Type} {R C K w : Nat}

/-- The row axis is not a scattered axis: its window starts at row 0. -/
theorem start_row (d : ScatterDims ⟨2, ![R, C]⟩ ⟨1, ![1]⟩ ⟨2, ![R, K]⟩) (hs : d.scatterDimsToOperandDims = [1])
    (idx : IVec ⟨1, ![1]⟩ w) (j : (⟨2, ![R, K]⟩ : Shape).Idx) : d.start j idx 0 = 0 := by
  obtain ⟨uw, iw, sd, iv, wf⟩ := d
  dsimp only at hs
  subst hs
  rfl

/-- The column axis is the scattered axis: its window starts at the column the start index names. -/
theorem start_col (d : ScatterDims ⟨2, ![R, C]⟩ ⟨1, ![1]⟩ ⟨2, ![R, K]⟩) (hs : d.scatterDimsToOperandDims = [1])
    (idx : IVec ⟨1, ![1]⟩ w) (c₀ : Nat) (hidx : ∀ k, (idx k).toInt = (c₀ : Int)) (j : (⟨2, ![R, K]⟩ : Shape).Idx) :
    d.start j idx 1 = (c₀ : Int) := by
  obtain ⟨uw, iw, sd, iv, wf⟩ := d
  dsimp only at hs
  subst hs
  unfold ScatterDims.start
  rw [dif_pos (List.mem_singleton.2 rfl)]
  exact hidx _

/-- With both update axes window axes and no inserted axis, the window coordinate on an operand axis is the update
    index's coordinate on the same axis. -/
theorem window_row (d : ScatterDims ⟨2, ![R, C]⟩ ⟨1, ![1]⟩ ⟨2, ![R, K]⟩) (hw : d.updateWindowDims = [0, 1])
    (hi : d.insertedWindowDims = []) (j : (⟨2, ![R, K]⟩ : Shape).Idx) : d.window j 0 = (j 0).val := by
  obtain ⟨uw, iw, sd, iv, wf⟩ := d
  dsimp only at hw hi
  subst hw hi
  rfl

theorem window_col (d : ScatterDims ⟨2, ![R, C]⟩ ⟨1, ![1]⟩ ⟨2, ![R, K]⟩) (hw : d.updateWindowDims = [0, 1])
    (hi : d.insertedWindowDims = []) (j : (⟨2, ![R, K]⟩ : Shape).Idx) : d.window j 1 = (j 1).val := by
  obtain ⟨uw, iw, sd, iv, wf⟩ := d
  dsimp only at hw hi
  subst hw hi
  rfl

/-- Where update index j lands, for an operand [R, C], updates [R, K] with both axes window axes, the column axis the one
    scattered axis, and every start index reading the column c₀: at (j 0, c₀ + j 1). -/
theorem resultIdx?_eq_some_iff (d : ScatterDims ⟨2, ![R, C]⟩ ⟨1, ![1]⟩ ⟨2, ![R, K]⟩)
    (hw : d.updateWindowDims = [0, 1]) (hi : d.insertedWindowDims = []) (hs : d.scatterDimsToOperandDims = [1])
    (idx : IVec ⟨1, ![1]⟩ w) (c₀ : Nat) (hidx : ∀ k, (idx k).toInt = (c₀ : Int))
    (j : (⟨2, ![R, K]⟩ : Shape).Idx) (i : (⟨2, ![R, C]⟩ : Shape).Idx) :
    d.resultIdx? j idx = some i ↔ (j 0).val = (i 0).val ∧ c₀ + (j 1).val = (i 1).val := by
  have hst0 := start_row d hs idx j
  have hst1 := start_col d hs idx c₀ hidx j
  have hwin0 := window_row d hw hi j
  have hwin1 := window_col d hw hi j
  have hj0 : (j 0).val < R := (j 0).isLt
  have hi0 : (i 0).val < R := (i 0).isLt
  have hi1 : (i 1).val < C := (i 1).isLt
  unfold ScatterDims.resultIdx?
  split
  · rename_i h
    rw [Option.some.injEq]
    constructor
    · intro e
      have e0 : (d.start j idx 0 + d.window j 0).toNat = (i 0).val := congrArg Fin.val (congrFun e 0)
      have e1 : (d.start j idx 1 + d.window j 1).toNat = (i 1).val := congrArg Fin.val (congrFun e 1)
      rw [hst0, hwin0] at e0
      rw [hst1, hwin1] at e1
      omega
    · intro ⟨h0, h1⟩
      funext a
      refine Fin.ext ?_
      match a with
      | ⟨0, _⟩ => show (d.start j idx 0 + d.window j 0).toNat = (i 0).val; rw [hst0, hwin0]; omega
      | ⟨1, _⟩ => show (d.start j idx 1 + d.window j 1).toNat = (i 1).val; rw [hst1, hwin1]; omega
  · rename_i h
    constructor
    · intro e; cases e
    · intro ⟨h0, h1⟩
      refine absurd (fun a => ?_) h
      match a with
      | ⟨0, _⟩ =>
        show 0 ≤ d.start j idx 0 + d.window j 0 ∧ d.start j idx 0 + d.window j 0 < (R : Int)
        rw [hst0, hwin0]; omega
      | ⟨1, _⟩ =>
        show 0 ≤ d.start j idx 1 + d.window j 1 ∧ d.start j idx 1 + d.window j 1 < (C : Int)
        rw [hst1, hwin1]; omega

/-- The scatter of K columns of updates into the columns c₀ … c₀ + K - 1 of the operand, read at an index: inside those
    columns the body applied to the operand's element and the update at (row, column - c₀), elsewhere the operand's element. -/
theorem scatter_cols_apply (d : ScatterDims ⟨2, ![R, C]⟩ ⟨1, ![1]⟩ ⟨2, ![R, K]⟩)
    (hw : d.updateWindowDims = [0, 1]) (hi : d.insertedWindowDims = []) (hs : d.scatterDimsToOperandDims = [1])
    (f : α → α → α) (x : (⟨2, ![R, C]⟩ : Shape).Idx → α) (idx : IVec ⟨1, ![1]⟩ w)
    (upd : (⟨2, ![R, K]⟩ : Shape).Idx → α) (c₀ : Nat) (hidx : ∀ k, (idx k).toInt = (c₀ : Int))
    (i : (⟨2, ![R, C]⟩ : Shape).Idx) :
    Host.scatter d f x idx upd i =
      if h : c₀ ≤ (i 1).val ∧ (i 1).val < c₀ + K then
        f (x i) (upd (ix2 (⟨(i 0).val, idx2_lt0 i⟩ : Fin R) (⟨(i 1).val - c₀, by omega⟩ : Fin K)))
      else x i := by
  split
  · rename_i h
    refine scatter_apply_of_unique d f x idx upd i _ ?_ ?_
    · rw [resultIdx?_eq_some_iff d hw hi hs idx c₀ hidx]
      refine ⟨rfl, ?_⟩
      show c₀ + ((i 1).val - c₀) = (i 1).val
      omega
    · intro j hj
      rw [resultIdx?_eq_some_iff d hw hi hs idx c₀ hidx] at hj
      rw [eq_ix2 j]
      funext a
      refine Fin.ext ?_
      match a with
      | ⟨0, _⟩ => exact hj.1
      | ⟨1, _⟩ => show (j 1).val = (i 1).val - c₀; omega
  · rename_i h
    refine scatter_apply_of_not_hit d f x idx upd i fun j hj => h ?_
    rw [resultIdx?_eq_some_iff d hw hi hs idx c₀ hidx] at hj
    have := (j 1).isLt
    have hK : (j 1).val < K := this
    omega

/-- The same at the entry (r, c) given by its coordinates. -/
theorem scatter_cols_ix2 (d : ScatterDims ⟨2, ![R, C]⟩ ⟨1, ![1]⟩ ⟨2, ![R, K]⟩)
    (hw : d.updateWindowDims = [0, 1]) (hi : d.insertedWindowDims = []) (hs : d.scatterDimsToOperandDims = [1])
    (f : α → α → α) (x : (⟨2, ![R, C]⟩ : Shape).Idx → α) (idx : IVec ⟨1, ![1]⟩ w)
    (upd : (⟨2, ![R, K]⟩ : Shape).Idx → α) (c₀ : Nat) (hidx : ∀ k, (idx k).toInt = (c₀ : Int)) (r : Fin R) (c : Fin C) :
    Host.scatter d f x idx upd (ix2 r c) =
      if h : c₀ ≤ c.val ∧ c.val < c₀ + K then f (x (ix2 r c)) (upd (ix2 r (⟨c.val - c₀, by omega⟩ : Fin K)))
      else x (ix2 r c) :=
  scatter_cols_apply d hw hi hs f x idx upd c₀ hidx (ix2 r c)

end Cols

end ScatterWindow
-- ==== Proof.RefIsOut.lean ====
/-
  The reference computes the specification.

  The reference's result is the dense product x · Wᵀ with the low-rank term of slice 0 added into its columns
  0 … 4095 and then the low-rank term of slice 1 added into its columns 4096 … 8191, each by a scatter of a block of
  4096 columns at a constant start column whose body is an addition. That composition of host operations is the
  definition refTerm of the module of the reference's terms. A scatter of that kind read at (t, c) is the operand's entry plus the
  update's entry (t, c - start) inside the block's columns, and the operand's entry outside. So on the extended reals
  the result at (t, c) is the dense term plus the low-rank term of the slice the column lies in.
-/
import proofs.«110651_j74938589381272_2_alg».proof.Proof.RefSlices
import proofs.«110651_j74938589381272_2_alg».proof.Proof.LibScatterWindow

noncomputable section

namespace Cert.RefSide

open Cert.ReferenceIdeal Cert.ReferenceIdeal.Gen Idealize.ShloMosaic Idealize.ShloMosaic.ValueIdx
open Cert.LoraSpec Cert.Dense

/-- The dense product at (t, c): row t of x against row c of W. -/
theorem denseTerm_apply (x0 x2 : (⟨S8192x4096, .f32⟩ : BufTy).Contents (Elt Ideal)) (t c : Fin 8192) :
    denseTerm (F := Ideal) x0 x2 (ix2 t c) = dense x0 x2 t c := by
  unfold denseTerm
  rw [dotGeneral_ix2 rowsCols_dense]
  unfold dense
  refine Finset.sum_congr rfl fun k _ => ?_
  rw [transpose_apply [1, 0] x2 transposes_S8192x4096_S4096x8192_1_0 (ix2 k c) (ix2 c k) (fun b => match b with
    | ⟨0, _⟩ => rfl
    | ⟨1, _⟩ => rfl)]

/-- The start index reads the word it was made from. -/
theorem startTerm_apply (s : BitVec 32) (k : S1.Idx) : startTerm (F := Ideal) s k = s := by
  unfold startTerm
  rw [broadcastInDim_apply _ bcast_S_S1 _ k ix0 (fun a => a.elim0)]
  rfl

/-- The first scatter starts at column 0 … -/
theorem start0 (k : S1.Idx) : (startTerm (F := Ideal) 0#32 k).toInt = ((0 : Nat) : Int) := by
  rw [startTerm_apply]
  decide

/-- … and the second at column 4096. -/
theorem start1 (k : S1.Idx) : (startTerm (F := Ideal) 4096#32 k).toInt = ((4096 : Nat) : Int) := by
  rw [startTerm_apply]
  decide

/-- On the extended reals the float sum is the exact one. -/
theorem addf_ideal (a b : Ideal .f32) : FloatOps.addf (F := Ideal) a b = a + b := rfl

/-- The specification at the entry (t, c). -/
theorem out_ix2 (x : RowsIn.Idx → EReal) (tl : Toks.Idx → BitVec 32) (W : RowsIn.Idx → EReal)
    (A0 A1 : DownT.Idx → EReal) (B0 B1 : UpT.Idx → EReal) (t c : Fin 8192) :
    out x tl W A0 A1 B0 B1 (ix2 t c) =
      if h : c.val < 4096 then dense x W t c + lowRank x tl A0 B0 t ⟨c.val, h⟩
      else dense x W t c + lowRank x tl A1 B1 t ⟨c.val - 4096, by have hlt : c.val < 8192 := c.isLt; omega⟩ := rfl

/-- After the first scatter: the dense term, plus slice 0's low-rank term in the first 4096 columns. -/
theorem firstScatter_apply (x0 : (⟨S8192x4096, .f32⟩ : BufTy).Contents (Elt Ideal)) (x1 : (⟨S8192, .i32⟩ : BufTy).Contents (Elt Ideal))
    (x2 : (⟨S8192x4096, .f32⟩ : BufTy).Contents (Elt Ideal)) (x3 : (⟨S8x16x4096, .f32⟩ : BufTy).Contents (Elt Ideal))
    (x5 : (⟨S8x4096x16, .f32⟩ : BufTy).Contents (Elt Ideal)) (t c : Fin 8192) :
    Host.scatter scatter_S8192x8192_S1_S8192x4096_01_n_1_0 (FloatOps.addf (F := Ideal) (φ := .f32)) (denseTerm (F := Ideal) x0 x2)
        (startTerm (F := Ideal) 0#32) (sliceTerm (F := Ideal) x0 x1 x3 x5) (ix2 t c) =
      if h : c.val < 4096 then dense x0 x2 t c + lowRank x0 x1 x3 x5 t ⟨c.val, h⟩ else dense x0 x2 t c := by
  refine (ScatterWindow.scatter_cols_ix2 scatter_S8192x8192_S1_S8192x4096_01_n_1_0 rfl rfl rfl _ _ _ _ 0 start0 t c).trans ?_
  by_cases h : c.val < 4096
  · rw [dif_pos h, dif_pos (show 0 ≤ c.val ∧ c.val < 0 + 4096 from ⟨Nat.zero_le _, by omega⟩), addf_ideal, denseTerm_apply]
    exact congrArg (dense x0 x2 t c + ·) (sliceTerm_apply x0 x1 x3 x5 t ⟨c.val, h⟩)
  · rw [dif_neg h, dif_neg (show ¬(0 ≤ c.val ∧ c.val < 0 + 4096) from by omega), denseTerm_apply]

/-- The reference's result at the entry (t, c) is the specification's. -/
theorem refTerm_at (x0 : (⟨S8192x4096, .f32⟩ : BufTy).Contents (Elt Ideal)) (x1 : (⟨S8192, .i32⟩ : BufTy).Contents (Elt Ideal))
    (x2 : (⟨S8192x4096, .f32⟩ : BufTy).Contents (Elt Ideal)) (x3 x4 : (⟨S8x16x4096, .f32⟩ : BufTy).Contents (Elt Ideal))
    (x5 x6 : (⟨S8x4096x16, .f32⟩ : BufTy).Contents (Elt Ideal)) (t c : Fin 8192) :
    refTerm (F := Ideal) x0 x1 x2 x3 x4 x5 x6 (ix2 t c) = out x0 x1 x2 x3 x4 x5 x6 (ix2 t c) := by
  unfold refTerm
  refine (ScatterWindow.scatter_cols_ix2 scatter_S8192x8192_S1_S8192x4096_01_n_1_0 rfl rfl rfl _ _ _ _ 4096 start1 t c).trans ?_
  rw [out_ix2]
  by_cases h : c.val < 4096
  · rw [dif_pos h, dif_neg (show ¬(4096 ≤ c.val ∧ c.val < 4096 + 4096) from by omega), firstScatter_apply, dif_pos h]
  · have hc : c.val < 8192 := c.isLt
    rw [dif_neg h, dif_pos (show 4096 ≤ c.val ∧ c.val < 4096 + 4096 from by omega), addf_ideal, firstScatter_apply, dif_neg h]
    exact congrArg (dense x0 x2 t c + ·) (sliceTerm_apply x0 x1 x4 x6 t ⟨c.val - 4096, by omega⟩)

/-- The reference's result, as one function of its seven arguments, is the specification. -/
theorem refTerm_is_out
    (x0 : Cert.LoraSpec.RowsIn.Idx → EReal) (x1 : Cert.LoraSpec.Toks.Idx → BitVec 32) (x2 : Cert.LoraSpec.RowsIn.Idx → EReal)
    (x3 x4 : Cert.LoraSpec.DownT.Idx → EReal) (x5 x6 : Cert.LoraSpec.UpT.Idx → EReal) :
    refTerm (F := Ideal) x0 x1 x2 x3 x4 x5 x6 = Cert.LoraSpec.out x0 x1 x2 x3 x4 x5 x6 := by
  funext i
  rw [eq_ix2 i]
  exact refTerm_at x0 x1 x2 x3 x4 x5 x6 (i 0) (i 1)

end Cert.RefSide

end
-- ==== Proof.lean ====
/-
  A dense layer with per-token low-rank adapters, computed two ways.

  Inputs: activations x (8192 tokens × 4096), an adapter number per token, dense weights W (8192 outputs × 4096),
  and for each of the two output slices of 4096 columns a pair of adapter tables A (8 × 16 × 4096) and
  B (8 × 4096 × 16). Output (8192 × 8192):

    out (t, c) = ∑ k, x (t, k) · W (c, k) + (the token's own adapter's term of c's slice, zero if it has none).

  The reference computes x · Wᵀ whole, then for each slice and each of the 8 adapters the rank-16 product
  (x · A_lᵀ) · B_lᵀ kept only on the tokens whose adapter is l, adds the eight up from zero, multiplies by 1 and
  adds the result into the slice's columns. The kernel works block by block (1024 tokens × 2048 columns) in 16 steps
  of 256 input columns, accumulating the dense product and the projections on all 128 = 8 × 16 adapter ranks side
  by side, and in the last step contracts the projections — zeroed on the lanes of other adapters — with the
  slice's up-projection laid out along the same 128 lanes.

  On the extended reals the two agree entry by entry: the differences are the grouping of finite sums (16 blocks
  of 256 against one sum of 4096; 128 lanes against 8 adapters × 16 ranks), a factor that is 0 or 1 moved across a
  sum of products (0 · b = 0 for every extended real b), adding onto zero, and multiplying by one. None of these
  needs an entry to be finite, so the precondition is not used for the values.

  The modules: LoraSpec (the function), LoraAlgebra (the regroupings), KernelPieces / Payloads / KernelInputs /
  OutputBlock / KernelAccum (the kernel's result array is the function of its arguments), RefTerm / RefRun (the
  reference's 306 array operations, run window by window, leave one composed term in its result array) and
  LibScatterWindow / RefAdapters / RefSlices / RefIsOut (that term is the function). The two kernels' frames are the
  generated ones; the ideal pass rewrote nothing, so there is nothing to preserve.
-/
import proofs.«110651_j74938589381272_2_alg».proof.Defs
import proofs.«110651_j74938589381272_2_alg».proof.Proof.Gen.Kernel
import proofs.«110651_j74938589381272_2_alg».proof.Proof.Gen.Kernel.Frame
import proofs.«110651_j74938589381272_2_alg».proof.Proof.Gen.KernelIdeal
import proofs.«110651_j74938589381272_2_alg».proof.Proof.Gen.KernelIdeal.Frame
import proofs.«110651_j74938589381272_2_alg».proof.Proof.Gen.KernelIdeal.Value
import proofs.«110651_j74938589381272_2_alg».proof.Proof.Gen.ReferenceIdeal
import proofs.«110651_j74938589381272_2_alg».proof.Proof.Gen.Pre_finite_inputs
import proofs.«110651_j74938589381272_2_alg».proof.Proof.KernelAccum
import proofs.«110651_j74938589381272_2_alg».proof.Proof.RefRun
import proofs.«110651_j74938589381272_2_alg».proof.Proof.RefIsOut
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of array operations: its run, with the result forgotten. -/
theorem frame_referenceIdeal : Cert.frame_ReferenceIdeal := fun m ρ _ =>
  (θ_run Cert.ReferenceIdeal.defs _ _).mono (fun _ h c => (h c).2) (Cert.RefSide.ref_run m ρ)

/-- The ideal pass rewrote no operation. -/
theorem preserves : Cert.preserves_Kernel_KernelIdeal := trivial

/-- Both programs end with the specification of their (agreeing) arguments in the result array. -/
theorem algebraic : Cert.algebraic_KernelIdeal_ReferenceIdeal := by
  intro m ρ m' ρ' _ hagree
  refine ⟨fun c => Cert.KernelSide.spec m c, Cert.KernelSide.run m ρ, ?_⟩
  refine (θ_run Cert.ReferenceIdeal.defs _ _).mono (fun _ h c => ⟨(h c).1.trans ?_, (h c).2⟩)
    (Cert.RefSide.ref_run m' ρ')
  obtain ⟨a0, a1, a2, a3, a4, a5, a6⟩ := hagree c
  rw [Cert.RefSide.refTerm_is_out, a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
